-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v84_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x128 .f32) (main_arg13 : FVec F S64x128 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S64x128 .f32) (main_arg13 : FVec F S64x128 .f32) (main_arg14 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) (main_arg12 : FVec F S64x128 .f32) (main_arg13 : FVec F S64x128 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x1600000 32) (main_arg2 : FVec F S128x128 .f32) (main_arg3 : FVec F S128x128 .f32) (main_arg4 : FVec F S128 .f32) (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) (main_arg12 : FVec F S64x128 .f32) (main_arg13 : FVec F S64x128 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 138
  | .vmem => 55
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128x128, .f32⟩
  | 9 => ⟨S128, .f32⟩
  | 10 => ⟨S128, .f32⟩
  | 11 => ⟨S128, .f32⟩
  | 12 => ⟨S64x128, .f32⟩
  | 13 => ⟨S64x128, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S50000, .f32⟩
  | 23 => ⟨S1600000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S50000x128, .f32⟩
  | 40 => ⟨S1600000x1, .i32⟩
  | 41 => ⟨S50000x128, .f32⟩
  | 42 => ⟨S128x128, .f32⟩
  | 43 => ⟨S128x128, .f32⟩
  | 44 => ⟨S1x128, .f32⟩
  | 45 => ⟨S50000x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S128, .f32⟩
  | 52 => ⟨S_, .f32⟩
  | 53 => ⟨S1x128, .f32⟩
  | 54 => ⟨S1x128, .f32⟩
  | 55 => ⟨S128, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S128, .f32⟩
  | 62 => ⟨S1x128, .f32⟩
  | 63 => ⟨S1x128, .f32⟩
  | 64 => ⟨S1x128, .f32⟩
  | 65 => ⟨S1x128, .f32⟩
  | 66 => ⟨S50000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S50000x128, .f32⟩
  | 78 => ⟨S1600000x1, .i32⟩
  | 79 => ⟨S50000x128, .f32⟩
  | 80 => ⟨S128x128, .f32⟩
  | 81 => ⟨S128x128, .f32⟩
  | 82 => ⟨S1x128, .f32⟩
  | 83 => ⟨S50000x128, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S128, .f32⟩
  | 90 => ⟨S_, .f32⟩
  | 91 => ⟨S1x128, .f32⟩
  | 92 => ⟨S1x128, .f32⟩
  | 93 => ⟨S128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S128, .f32⟩
  | 100 => ⟨S1x128, .f32⟩
  | 101 => ⟨S1x128, .f32⟩
  | 102 => ⟨S1x128, .f32⟩
  | 103 => ⟨S1x128, .f32⟩
  | 104 => ⟨S50000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S50000x128, .f32⟩
  | 116 => ⟨S1600000x1, .i32⟩
  | 117 => ⟨S50000x128, .f32⟩
  | 118 => ⟨S128x64, .f32⟩
  | 119 => ⟨S128x64, .f32⟩
  | 120 => ⟨S1x64, .f32⟩
  | 121 => ⟨S50000x64, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S64, .f32⟩
  | _ => ⟨S50000x128, .f32⟩

abbrev hbmTy0_1 (i : Nat) : BufTy := match i % 128 with
  | 0 => ⟨S_, .f32⟩
  | 1 => ⟨S1x64, .f32⟩
  | 2 => ⟨S1x64, .f32⟩
  | 3 => ⟨S64, .f32⟩
  | 4 => ⟨S1x64, .f32⟩
  | 5 => ⟨S1x64, .f32⟩
  | 6 => ⟨S_, .f32⟩
  | 7 => ⟨S1x64, .f32⟩
  | 8 => ⟨S1x64, .f32⟩
  | 9 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S128x64, .f32⟩
  | .local _ .vmem, ⟨49, _⟩ => ⟨S128x64, .f32⟩
  | .local _ .vmem, ⟨50, _⟩ => ⟨S1x64, .f32⟩
  | .local _ .vmem, ⟨51, _⟩ => ⟨S5000x64, .f32⟩
  | .local _ .vmem, ⟨52, _⟩ => ⟨S5000x64, .f32⟩
  | .local _ .vmem, ⟨53, _⟩ => ⟨S1x64, .f32⟩
  | .local _ .vmem, ⟨54, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v24_2 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54_0 : Ref sig .tc := ⟨.hbm, 83, rfl⟩
abbrev main_v54_1 : Ref sig .tc := ⟨.hbm, 84, rfl⟩
abbrev main_v54_2 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_13 : Ref sig .tc := ⟨.hbm, 105, rfl⟩
abbrev main_v71 : Ref sig .tc := ⟨.hbm, 106, rfl⟩
abbrev main_v72 : Ref sig .tc := ⟨.hbm, 107, rfl⟩
abbrev main_c_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84_0 : Ref sig .tc := ⟨.hbm, 121, rfl⟩
abbrev main_v84_1 : Ref sig .tc := ⟨.hbm, 122, rfl⟩
abbrev main_v84_2 : Ref sig .tc := ⟨.hbm, 123, rfl⟩
abbrev main_cst_16 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_18 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg6_1 : Ref sig .tc := ⟨.vmem, 52, rfl⟩
abbrev cc4_stg7_0 : Ref sig .tc := ⟨.vmem, 53, rfl⟩
abbrev cc4_stg8_0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem6_1 : DmaSem sig := 52
abbrev cc4_sem7_0 : DmaSem sig := 53
abbrev cc4_sem8_0 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S1x128_S128 : S1x128.ShapeCasts S128
  bcast_S128_S1x128_1 : S128.BroadcastsInDim S1x128 (![1] : Fin 1 → Fin S1x128.rank)
  transposes_S64x128_S128x64_1_0 : S64x128.Transposes [1, 0] S128x64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S1x64_S64 : S1x64.ShapeCasts S64
  bcast_S64_S1x64_1 : S64.BroadcastsInDim S1x64 (![1] : Fin 1 → Fin S1x64.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v54_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v54_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v54_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v80) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v10) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v83) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v84_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v84_1) S1x64.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v84_2) S1x64.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 212
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128x128, .f32⟩
  | 9 => ⟨S128, .f32⟩
  | 10 => ⟨S128, .f32⟩
  | 11 => ⟨S128, .f32⟩
  | 12 => ⟨S64x128, .f32⟩
  | 13 => ⟨S64x128, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S50000, .f32⟩
  | 23 => ⟨S1600000x1, .i32⟩
  | 24 => ⟨S50000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S50000x128, .f32⟩
  | 36 => ⟨S1600000x1, .i32⟩
  | 37 => ⟨S50000x128, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x128, .f32⟩
  | 45 => ⟨S50000x128, .f32⟩
  | 46 => ⟨S128x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .f32⟩
  | 100 => ⟨S1600000, .f32⟩
  | 101 => ⟨S_, .f32⟩
  | 102 => ⟨S50000, .f32⟩
  | 103 => ⟨S1600000x1, .i32⟩
  | 104 => ⟨S50000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S50000x128, .f32⟩
  | 116 => ⟨S1600000x1, .i32⟩
  | 117 => ⟨S50000x128, .f32⟩
  | 118 => ⟨S_, .f32⟩
  | 119 => ⟨S50000, .f32⟩
  | 120 => ⟨S50000, .f32⟩
  | 121 => ⟨S50000x1, .f32⟩
  | 122 => ⟨S50000x128, .f32⟩
  | 123 => ⟨S50000x128, .f32⟩
  | 124 => ⟨S128x128, .f32⟩
  | 125 => ⟨S50000x128, .f32⟩
  | 126 => ⟨S128x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .f32⟩
  | 52 => ⟨S1600000, .f32⟩
  | 53 => ⟨S_, .f32⟩
  | 54 => ⟨S50000, .f32⟩
  | 55 => ⟨S1600000x1, .i32⟩
  | 56 => ⟨S50000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S50000x128, .f32⟩
  | 68 => ⟨S1600000x1, .i32⟩
  | 69 => ⟨S50000x128, .f32⟩
  | 70 => ⟨S_, .f32⟩
  | 71 => ⟨S50000, .f32⟩
  | 72 => ⟨S50000, .f32⟩
  | 73 => ⟨S50000x1, .f32⟩
  | 74 => ⟨S50000x128, .f32⟩
  | 75 => ⟨S50000x128, .f32⟩
  | 76 => ⟨S128x64, .f32⟩
  | 77 => ⟨S50000x64, .f32⟩
  | 78 => ⟨S128x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_7 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call1_cst : Ref sig .tc := ⟨.hbm, 96, rfl⟩
abbrev main_call1_v0 : Ref sig .tc := ⟨.hbm, 97, rfl⟩
abbrev main_v50 : Ref sig .tc := ⟨.hbm, 98, rfl⟩
abbrev main_cst_8 : Ref sig .tc := ⟨.hbm, 99, rfl⟩
abbrev main_v51 : Ref sig .tc := ⟨.hbm, 100, rfl⟩
abbrev main_cst_9 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_c_10 : Ref sig .tc := ⟨.hbm, 105, rfl⟩
abbrev main_v55 : Ref sig .tc := ⟨.hbm, 106, rfl⟩
abbrev main_v56 : Ref sig .tc := ⟨.hbm, 107, rfl⟩
abbrev main_c_11 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_12 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_13 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_14 : Ref sig .tc := ⟨.hbm, 132, rfl⟩
abbrev main_v78 : Ref sig .tc := ⟨.hbm, 133, rfl⟩
abbrev main_cst_15 : Ref sig .tc := ⟨.hbm, 134, rfl⟩
abbrev main_v79 : Ref sig .tc := ⟨.hbm, 135, rfl⟩
abbrev main_v80 : Ref sig .tc := ⟨.hbm, 136, rfl⟩
abbrev main_c_16 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_cst_1 : Ref sig .tc := ⟨.hbm, 148, rfl⟩
abbrev main_call2_v8 : Ref sig .tc := ⟨.hbm, 149, rfl⟩
abbrev main_call2_cst_2 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_cst_3 : Ref sig .tc := ⟨.hbm, 154, rfl⟩
abbrev main_call2_v12 : Ref sig .tc := ⟨.hbm, 155, rfl⟩
abbrev main_call2_cst_4 : Ref sig .tc := ⟨.hbm, 156, rfl⟩
abbrev main_call2_call0_v0 : Ref sig .tc := ⟨.hbm, 157, rfl⟩
abbrev main_call2_call0_v1 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_cst_17 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_call3_cst : Ref sig .tc := ⟨.hbm, 176, rfl⟩
abbrev main_call3_v0 : Ref sig .tc := ⟨.hbm, 177, rfl⟩
abbrev main_v97 : Ref sig .tc := ⟨.hbm, 178, rfl⟩
abbrev main_cst_18 : Ref sig .tc := ⟨.hbm, 179, rfl⟩
abbrev main_v98 : Ref sig .tc := ⟨.hbm, 180, rfl⟩
abbrev main_cst_19 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_c_20 : Ref sig .tc := ⟨.hbm, 185, rfl⟩
abbrev main_v102 : Ref sig .tc := ⟨.hbm, 186, rfl⟩
abbrev main_v103 : Ref sig .tc := ⟨.hbm, 187, rfl⟩
abbrev main_c_21 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_cst_22 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_23 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics both programs compute, index by index, over the extended reals.

  A graph of 50000 nodes carries a feature row of 128 channels per node. One layer forms, per node, the
  sum of its in-neighbours' rows (`agg`), divides it by the clamped in-degree (`degs`), and applies
  two linear maps and a bias: `lin`. The hidden layers then normalise each channel by its mean and
  variance over all nodes, scale, shift and clamp at zero: `bnrelu`.

  Arrays are curried functions of their coordinates (`Fin 50000 → Fin 128 → EReal`); each program's
  side reads its own array layout into these.
-/
import Idealize.ShloMosaic.PureOps.Ideal

noncomputable section

namespace Cert.Spec

open Idealize.ShloMosaic

variable {C : ℕ}

/-- The linear part of one layer at node `r`, output channel `j`: the degree-normalised neighbour sum
    through `Wl`, the node's own row through `Wr`, plus the bias. `Wl j k`, `Wr j k` are indexed
    (output channel, input channel). -/
def lin (agg x : Fin 50000 → Fin 128 → EReal) (degs : Fin 50000 → EReal)
    (Wl Wr : Fin C → Fin 128 → EReal) (b : Fin C → EReal) (r : Fin 50000) (j : Fin C) : EReal :=
  ((∑ k : Fin 128, Ideal.div (agg r k) (degs r) * Wl j k) + ∑ k : Fin 128, x r k * Wr j k) + b j

/-- The sum of channel `j` over all nodes. -/
def colSum (f : Fin 50000 → Fin C → EReal) (j : Fin C) : EReal := ∑ n : Fin 50000, f n j

/-- The sum of the squares of channel `j` over all nodes. -/
def colSumSq (f : Fin 50000 → Fin C → EReal) (j : Fin C) : EReal := ∑ n : Fin 50000, f n j * f n j

/-- The mean of channel `j`: its sum divided by the node count `N` (an extended real, the value of the
    programs' literal). -/
def mean (N : EReal) (f : Fin 50000 → Fin C → EReal) (j : Fin C) : EReal := Ideal.div (colSum f j) N

/-- The variance as the mean of squares minus the squared mean, clamped at zero. -/
def varMoments (N : EReal) (f : Fin 50000 → Fin C → EReal) (j : Fin C) : EReal :=
  max (Ideal.div (colSumSq f j) N - mean N f j * mean N f j) 0

/-- The variance as the mean of the squared deviations from the mean. -/
def varCentred (N : EReal) (f : Fin 50000 → Fin C → EReal) (j : Fin C) : EReal :=
  Ideal.div (∑ n : Fin 50000, (f n j - mean N f j) * (f n j - mean N f j)) N

/-- Normalise by a given mean and variance, scale by `g`, shift by `be`, clamp at zero. -/
def bnrelu (eps : EReal) (f : Fin 50000 → Fin C → EReal) (mu var g be : Fin C → EReal)
    (r : Fin 50000) (j : Fin C) : EReal :=
  max ((((f r j - mu j) * Ideal.rsqrt (var j + eps)) * g j) + be j) 0

end Cert.Spec

end
-- ==== Proof.Algebra.lean ====
/-
  The algebra that joins the two programs.

  On real inputs every intermediate value is a real number: the neighbour sum is a finite sum of
  reals, the clamped degree is a real at least one, the linear layer is a finite sum of products of
  reals, and the normalisation divides by the square root of a positive real. For a channel of real
  entries the two ways of writing the variance agree: the mean of squares minus the squared mean is
  the mean of the squared deviations, and it is nonnegative, so clamping it at zero changes nothing.
  Hence the network built with either variance is the same function.
-/
import proofs.«122408_j28759101014107_2_alg».proof.Proof.Spec
import Mathlib.Tactic.Ring
import Mathlib.Tactic.FieldSimp
import Mathlib.Tactic.Positivity
import Mathlib.Tactic.Linarith
import Mathlib.Algebra.Order.BigOperators.Ring.Finset

noncomputable section

namespace Cert.Alg

open Idealize.ShloMosaic Cert.Spec

/-! ## Finite sums and quotients of reals inside the extended reals -/

theorem sum_coe {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem sum_real {ι : Type*} (s : Finset ι) (f : ι → EReal) (h : ∀ i ∈ s, ∃ x : ℝ, f i = x) :
    ∃ x : ℝ, ∑ i ∈ s, f i = x := by
  classical
  induction s using Finset.induction_on with
  | empty => exact ⟨0, by simp⟩
  | insert a s ha ih =>
    obtain ⟨x, hx⟩ := h a (Finset.mem_insert_self a s)
    obtain ⟨y, hy⟩ := ih (fun i hi => h i (Finset.mem_insert_of_mem hi))
    exact ⟨x + y, by rw [Finset.sum_insert ha, hx, hy, EReal.coe_add]⟩

theorem div_real (x y : ℝ) (hy : y ≠ 0) : Ideal.div (x : EReal) (y : EReal) = ((x / y : ℝ) : EReal) := by
  rw [Ideal.div_coe hy, ← EReal.coe_mul, mul_one_div]

theorem rsqrt_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-! ## The variance identity over the reals -/

theorem var_real {n : ℕ} (hn : n ≠ 0) (g : Fin n → ℝ) :
    max ((∑ i, g i * g i) / n - (∑ i, g i) / n * ((∑ i, g i) / n)) 0
      = (∑ i, (g i - (∑ i, g i) / n) * (g i - (∑ i, g i) / n)) / n := by
  have hn' : (n : ℝ) ≠ 0 := by exact_mod_cast hn
  have hpos : (0 : ℝ) < n := by positivity
  set μ : ℝ := (∑ i, g i) / n with hμ
  have hs : ∑ i, g i = n * μ := by rw [hμ]; field_simp
  have h1 : ∑ i, (g i - μ) * (g i - μ) = (∑ i, g i * g i) - n * μ * μ := by
    have : ∀ i, (g i - μ) * (g i - μ) = g i * g i - 2 * μ * g i + μ * μ := fun i => by ring
    simp only [this, Finset.sum_add_distrib, Finset.sum_sub_distrib, ← Finset.mul_sum, Finset.sum_const,
      Finset.card_univ, Fintype.card_fin, nsmul_eq_mul]
    rw [hs]; ring
  have hnn : (0 : ℝ) ≤ ∑ i, (g i - μ) * (g i - μ) := Finset.sum_nonneg (fun i _ => mul_self_nonneg _)
  have h2 : (∑ i, (g i - μ) * (g i - μ)) / n = (∑ i, g i * g i) / n - μ * μ := by
    rw [h1]; field_simp
  rw [← h2, max_eq_left (div_nonneg hnn hpos.le)]

/-! ## Arrays of real entries -/

/-- Every entry of a two-coordinate array is a real number. -/
def Real2 {α β : Type*} (f : α → β → EReal) : Prop := ∀ a b, ∃ x : ℝ, f a b = x
/-- Every entry of a one-coordinate array is a real number. -/
def Real1 {α : Type*} (f : α → EReal) : Prop := ∀ a, ∃ x : ℝ, f a = x
/-- Every entry is a nonzero real number. -/
def RealNZ {α : Type*} (f : α → EReal) : Prop := ∀ a, ∃ d : ℝ, d ≠ 0 ∧ f a = d
/-- Every entry is a nonnegative real number. -/
def RealNN {α : Type*} (f : α → EReal) : Prop := ∀ a, ∃ v : ℝ, 0 ≤ v ∧ f a = v

variable {C : ℕ}

theorem lin_real {agg x : Fin 50000 → Fin 128 → EReal} {degs : Fin 50000 → EReal}
    {Wl Wr : Fin C → Fin 128 → EReal} {b : Fin C → EReal}
    (hagg : Real2 agg) (hx : Real2 x) (hd : RealNZ degs) (hWl : Real2 Wl) (hWr : Real2 Wr) (hb : Real1 b) :
    Real2 (lin agg x degs Wl Wr b) := by
  intro r j
  obtain ⟨d, hd0, hd⟩ := hd r
  obtain ⟨s1, h1⟩ := sum_real Finset.univ (fun k : Fin 128 => Ideal.div (agg r k) (degs r) * Wl j k) (fun k _ => by
    obtain ⟨a, ha⟩ := hagg r k
    obtain ⟨w, hw⟩ := hWl j k
    refine ⟨a / d * w, ?_⟩
    beta_reduce
    rw [ha, hd, hw, div_real _ _ hd0, EReal.coe_mul])
  obtain ⟨s2, h2⟩ := sum_real Finset.univ (fun k : Fin 128 => x r k * Wr j k) (fun k _ => by
    obtain ⟨a, ha⟩ := hx r k
    obtain ⟨w, hw⟩ := hWr j k
    refine ⟨a * w, ?_⟩
    beta_reduce
    rw [ha, hw, EReal.coe_mul])
  obtain ⟨bb, hbb⟩ := hb j
  refine ⟨s1 + s2 + bb, ?_⟩
  unfold lin
  rw [h1, h2, hbb, EReal.coe_add, EReal.coe_add]

theorem mean_real {f : Fin 50000 → Fin C → EReal} {n : ℝ} (hn : n ≠ 0) (hf : Real2 f) :
    Real1 (mean (n : EReal) f) := by
  intro j
  obtain ⟨s, hs⟩ := sum_real Finset.univ (fun i => f i j) (fun i _ => hf i j)
  refine ⟨s / n, ?_⟩
  unfold mean colSum
  rw [hs, div_real _ _ hn]

/-- For a channel of real entries the two variances agree, and their common value is a nonnegative real. -/
theorem var_eq (f : Fin 50000 → Fin C → EReal) (hf : Real2 f) (j : Fin C) :
    varMoments ((50000 : ℝ) : EReal) f j = varCentred ((50000 : ℝ) : EReal) f j
      ∧ ∃ v : ℝ, 0 ≤ v ∧ varMoments ((50000 : ℝ) : EReal) f j = v := by
  choose g hg using hf
  have hN : (50000 : ℝ) ≠ 0 := by norm_num
  have key := var_real (n := 50000) (by norm_num) (fun i => g i j)
  simp only [Nat.cast_ofNat] at key
  have hM : varMoments ((50000 : ℝ) : EReal) f j
      = ((max ((∑ i, g i j * g i j) / 50000 - (∑ i, g i j) / 50000 * ((∑ i, g i j) / 50000)) 0 : ℝ) : EReal) := by
    unfold varMoments mean colSum colSumSq
    simp only [hg, ← EReal.coe_mul, sum_coe, div_real _ _ hN, ← EReal.coe_sub]
    rw [← EReal.coe_zero, max_coe]
  have hC : varCentred ((50000 : ℝ) : EReal) f j
      = (((∑ i, (g i j - (∑ i, g i j) / 50000) * (g i j - (∑ i, g i j) / 50000)) / 50000 : ℝ) : EReal) := by
    unfold varCentred mean colSum
    simp only [hg, sum_coe, div_real _ _ hN, ← EReal.coe_sub, ← EReal.coe_mul]
  refine ⟨by rw [hM, hC, key], _, le_max_right _ _, hM⟩

theorem bnrelu_real {eps : ℝ} (heps : 0 < eps) {f : Fin 50000 → Fin C → EReal} {mu var g be : Fin C → EReal}
    (hf : Real2 f) (hmu : Real1 mu) (hvar : RealNN var) (hg : Real1 g) (hbe : Real1 be) :
    Real2 (bnrelu (eps : EReal) f mu var g be) := by
  intro r j
  obtain ⟨a, ha⟩ := hf r j
  obtain ⟨m, hm⟩ := hmu j
  obtain ⟨v, hv0, hv⟩ := hvar j
  obtain ⟨gg, hgg⟩ := hg j
  obtain ⟨bb, hbb⟩ := hbe j
  refine ⟨max ((a - m) * (Real.sqrt (v + eps))⁻¹ * gg + bb) 0, ?_⟩
  unfold bnrelu
  rw [ha, hm, hv, hgg, hbb, ← EReal.coe_add, rsqrt_pos _ (by linarith), ← EReal.coe_sub, ← EReal.coe_mul,
    ← EReal.coe_mul, ← EReal.coe_add, ← EReal.coe_zero, max_coe]

/-! ## The network with either variance -/

/-- One hidden layer: the linear part, normalised by its own channel statistics with the variance
    computed by `var`, scaled, shifted and clamped at zero. -/
def layer (var : EReal → (Fin 50000 → Fin 128 → EReal) → Fin 128 → EReal) (N eps : EReal)
    (agg x : Fin 50000 → Fin 128 → EReal) (degs : Fin 50000 → EReal)
    (Wl Wr : Fin 128 → Fin 128 → EReal) (b g be : Fin 128 → EReal) : Fin 50000 → Fin 128 → EReal :=
  bnrelu eps (lin agg x degs Wl Wr b) (mean N (lin agg x degs Wl Wr b)) (var N (lin agg x degs Wl Wr b)) g be

theorem layer_eq {eps : ℝ} (heps : 0 < eps) {agg x : Fin 50000 → Fin 128 → EReal} {degs : Fin 50000 → EReal}
    {Wl Wr : Fin 128 → Fin 128 → EReal} {b g be : Fin 128 → EReal}
    (hagg : Real2 agg) (hx : Real2 x) (hd : RealNZ degs) (hWl : Real2 Wl) (hWr : Real2 Wr) (hb : Real1 b)
    (hg : Real1 g) (hbe : Real1 be) :
    layer varMoments ((50000 : ℝ) : EReal) (eps : EReal) agg x degs Wl Wr b g be
        = layer varCentred ((50000 : ℝ) : EReal) (eps : EReal) agg x degs Wl Wr b g be
      ∧ Real2 (layer varMoments ((50000 : ℝ) : EReal) (eps : EReal) agg x degs Wl Wr b g be) := by
  have hl := lin_real hagg hx hd hWl hWr hb
  have hv : varMoments ((50000 : ℝ) : EReal) (lin agg x degs Wl Wr b)
      = varCentred ((50000 : ℝ) : EReal) (lin agg x degs Wl Wr b) := funext fun j => (var_eq _ hl j).1
  refine ⟨by unfold layer; rw [hv], ?_⟩
  unfold layer
  exact bnrelu_real heps hl (mean_real (by norm_num) hl) (fun j => (var_eq _ hl j).2) hg hbe

/-- The three-layer network over an abstract neighbour-sum operator `aggOp`. -/
def net (var : EReal → (Fin 50000 → Fin 128 → EReal) → Fin 128 → EReal) (N eps : EReal)
    (aggOp : (Fin 50000 → Fin 128 → EReal) → Fin 50000 → Fin 128 → EReal) (degs : Fin 50000 → EReal)
    (x : Fin 50000 → Fin 128 → EReal)
    (Wl0 Wr0 : Fin 128 → Fin 128 → EReal) (b0 g0 be0 : Fin 128 → EReal)
    (Wl1 Wr1 : Fin 128 → Fin 128 → EReal) (b1 g1 be1 : Fin 128 → EReal)
    (Wl2 Wr2 : Fin 64 → Fin 128 → EReal) (b2 : Fin 64 → EReal) : Fin 50000 → Fin 64 → EReal :=
  lin (aggOp (layer var N eps (aggOp (layer var N eps (aggOp x) x degs Wl0 Wr0 b0 g0 be0))
        (layer var N eps (aggOp x) x degs Wl0 Wr0 b0 g0 be0) degs Wl1 Wr1 b1 g1 be1))
    (layer var N eps (aggOp (layer var N eps (aggOp x) x degs Wl0 Wr0 b0 g0 be0))
        (layer var N eps (aggOp x) x degs Wl0 Wr0 b0 g0 be0) degs Wl1 Wr1 b1 g1 be1)
    degs Wl2 Wr2 b2

/-- On real inputs, with a neighbour-sum operator that keeps entries real and nonzero real degrees, the
    network is the same function whichever way the variance is written. -/
theorem net_eq {eps : ℝ} (heps : 0 < eps)
    {aggOp : (Fin 50000 → Fin 128 → EReal) → Fin 50000 → Fin 128 → EReal} (haggOp : ∀ X, Real2 X → Real2 (aggOp X))
    {degs : Fin 50000 → EReal} (hd : RealNZ degs) {x : Fin 50000 → Fin 128 → EReal} (hx : Real2 x)
    {Wl0 Wr0 : Fin 128 → Fin 128 → EReal} {b0 g0 be0 : Fin 128 → EReal}
    {Wl1 Wr1 : Fin 128 → Fin 128 → EReal} {b1 g1 be1 : Fin 128 → EReal}
    {Wl2 Wr2 : Fin 64 → Fin 128 → EReal} {b2 : Fin 64 → EReal}
    (hWl0 : Real2 Wl0) (hWr0 : Real2 Wr0) (hb0 : Real1 b0) (hg0 : Real1 g0) (hbe0 : Real1 be0)
    (hWl1 : Real2 Wl1) (hWr1 : Real2 Wr1) (hb1 : Real1 b1) (hg1 : Real1 g1) (hbe1 : Real1 be1) :
    net varMoments ((50000 : ℝ) : EReal) (eps : EReal) aggOp degs x Wl0 Wr0 b0 g0 be0 Wl1 Wr1 b1 g1 be1 Wl2 Wr2 b2
      = net varCentred ((50000 : ℝ) : EReal) (eps : EReal) aggOp degs x Wl0 Wr0 b0 g0 be0 Wl1 Wr1 b1 g1 be1 Wl2 Wr2 b2 := by
  obtain ⟨e0, r0⟩ := layer_eq heps (haggOp x hx) hx hd hWl0 hWr0 hb0 hg0 hbe0
  obtain ⟨e1, -⟩ := layer_eq heps (haggOp _ r0) r0 hd hWl1 hWr1 hb1 hg1 hbe1
  unfold net
  rw [← e0, ← e1]

end Cert.Alg

end
-- ==== Proof.StagesK.lean ====
/-
  The host side of the idealized kernel program, as functions of the argument arrays.

  The edge list `e` has two rows of 1600000 node numbers: row 0 the sources, row 1 the destinations.
  `aggA e X` is, per node, the sum of the rows `X[src]` over the edges arriving at it (a gather of the
  source rows followed by a scatter-add onto the destination rows, from zero); `degA e` counts the
  edges arriving at each node (a scatter-add of ones) and clamps the count below at one.
  On the extended reals a scatter-add is the operand plus the finite sum of the updates that land on the
  element, so both are real wherever `X` is, and the clamped degree is a real at least one.
-/
import proofs.«122408_j28759101014107_2_alg».proof.Proof.Gen.KernelIdeal.Frame
import proofs.«122408_j28759101014107_2_alg».proof.Proof.Algebra
import Idealize.ShloMosaic.Lib.StableHlo.Run
import Idealize.ShloMosaic.Lib.ValueIdx
import Idealize.ShloMosaic.PureOps.Ideal.Laws

noncomputable section

namespace Cert.KernelIdeal.KVal

open Idealize.ShloMosaic Idealize.ShloMosaic.TcCoe Idealize.SL.Sem Idealize.ShloMosaic.StableHlo
open Idealize.ShloMosaic.ValueIdx
open Cert.KernelIdeal Cert.Alg
open Cert.KernelIdeal.Facts₀

/-- The destination node of each edge, as the scatter's index column. -/
def dstI (e : IVec S2x1600000 32) : IVec S1600000x1 32 :=
  broadcastInDim S1600000x1 ![0] bcast_S1600000_S1600000x1_0 fun i =>
    shapeCast S1600000 (extractStridedSlice S1x1600000 ![1, 0] e slices_S2x1600000_S1x1600000_1_0)
      shapeCasts_S1x1600000_S1600000 i

/-- The source node of each edge. -/
def srcL (e : IVec S2x1600000 32) : IVec S1600000 32 := fun i =>
  shapeCast S1600000 (extractStridedSlice S1x1600000 ![0, 0] e slices_S2x1600000_S1x1600000_0_0)
    shapeCasts_S1x1600000_S1600000 i

/-- The source node of each edge, a negative number counted from the end, as the gather's index column. -/
def srcI (e : IVec S2x1600000 32) : IVec S1600000x1 32 :=
  broadcastInDim S1600000x1 ![0] bcast_S1600000_S1600000x1_0
    (select (cmpi CmpIPredicate.slt (srcL e) (broadcastInDim S1600000 ![] bcast_S_S1600000 (constantI S_ 32 0#32)))
      (addi (srcL e) (broadcastInDim S1600000 ![] bcast_S_S1600000 (constantI S_ 32 50000#32)))
      (srcL e))

/-- Per node, the sum of the source rows of the edges arriving at it. -/
def aggA (e : IVec S2x1600000 32) (X : FVec Ideal S50000x128 .f32) : FVec Ideal S50000x128 .f32 :=
  Host.scatterAdd scatter_S50000x128_S1600000x1_S1600000x128_1_0_0_1
    (broadcastInDim S50000x128 ![] bcast_S_S50000x128 (constant S_ FTy.f32 0#32))
    (dstI e)
    (Host.gather gather_S50000x128_S1600000x1_S1600000x128_1_0_n_n_0_1_1128 X (srcI e))

/-- Per node, the number of edges arriving at it, clamped below at one. -/
def degA (e : IVec S2x1600000 32) : FVec Ideal S50000 .f32 :=
  maximumf
    (Host.scatterAdd scatter_S50000_S1600000x1_S1600000_n_0_0_1
      (broadcastInDim S50000 ![] bcast_S_S50000 (constant S_ FTy.f32 0#32))
      (dstI e)
      (broadcastInDim S1600000 ![] bcast_S_S1600000 (constant S_ FTy.f32 1065353216#32)))
    (broadcastInDim S50000 ![] bcast_S_S50000 (constant S_ FTy.f32 1065353216#32))

/-! ## Real entries -/

theorem ofBits_one : Ideal.ofBits .f32 1065353216#32 = ((1 : ℝ) : EReal) := by
  simp [Ideal.ofBits, Ideal.ieee, -EReal.coe_mul]; norm_num

/-- A scalar constant broadcast to any shape reads, at every index, the extended real its word encodes. -/
theorem bcast_const_apply {t : Shape} (h : (⟨0, ![]⟩ : Shape).BroadcastsInDim t (![] : Fin 0 → Fin t.rank))
    (w : BitVec 32) (i : t.Idx) :
    broadcastInDim t (![] : Fin 0 → Fin t.rank) h (constant (F := Ideal) ⟨0, ![]⟩ FTy.f32 w) i = Ideal.ofBits .f32 w := rfl

/-- On the extended reals an accumulating scatter is, at each element, the operand plus the sum of the updates
    that land there. -/
theorem scatterAdd_apply {s si su : Shape} {w : Nat} (d : ScatterDims s si su) (x : FVec Ideal s .f32)
    (idx : IVec si w) (upd : FVec Ideal su .f32) (i : s.Idx) :
    Host.scatterAdd d x idx upd i
      = x i + ∑ j ∈ Finset.univ.filter (fun j => d.resultIdx? j idx = some i), upd j := rfl

theorem scatterAdd_real {s si su : Shape} {w : Nat} (d : ScatterDims s si su) (x : FVec Ideal s .f32)
    (idx : IVec si w) (upd : FVec Ideal su .f32) (hx : ∀ i, ∃ r : ℝ, x i = r) (hu : ∀ j, ∃ r : ℝ, upd j = r) :
    ∀ i, ∃ r : ℝ, Host.scatterAdd d x idx upd i = r := by
  intro i
  obtain ⟨a, ha⟩ := hx i
  obtain ⟨b, hb⟩ := sum_real (Finset.univ.filter (fun j => d.resultIdx? j idx = some i)) upd (fun j _ => hu j)
  exact ⟨a + b, by rw [scatterAdd_apply, ha, hb, EReal.coe_add]⟩

theorem aggA_real (e : IVec S2x1600000 32) (X : FVec Ideal S50000x128 .f32) (hX : ∀ i, ∃ x : ℝ, X i = x) :
    ∀ i, ∃ x : ℝ, aggA e X i = x := by
  unfold aggA
  exact scatterAdd_real _ _ _ _
    (fun i => ⟨0, by rw [bcast_const_apply, Ideal.ofBits_zero_f32, EReal.coe_zero]⟩) (fun j => hX _)

theorem degA_real (e : IVec S2x1600000 32) : ∀ i, ∃ d : ℝ, d ≠ 0 ∧ degA e i = d := by
  intro i
  obtain ⟨s, hs⟩ := scatterAdd_real scatter_S50000_S1600000x1_S1600000_n_0_0_1
    (broadcastInDim S50000 ![] bcast_S_S50000 (constant (F := Ideal) S_ FTy.f32 0#32)) (dstI e)
    (broadcastInDim S1600000 ![] bcast_S_S1600000 (constant (F := Ideal) S_ FTy.f32 1065353216#32))
    (fun i => ⟨0, by rw [bcast_const_apply, Ideal.ofBits_zero_f32, EReal.coe_zero]⟩)
    (fun j => ⟨1, by rw [bcast_const_apply, ofBits_one]⟩) i
  refine ⟨max s 1, ne_of_gt (lt_of_lt_of_le one_pos (le_max_right _ _)), ?_⟩
  unfold degA
  rw [maximumf_apply, hs, bcast_const_apply, ofBits_one, max_coe]

/-! ## Arrays as curried functions of their coordinates -/

/-- A curried array as a function of its index. -/
def unc {a b : ℕ} (X : Fin a → Fin b → EReal) : (⟨2, ![a, b]⟩ : Shape).Idx → EReal := fun i => X (i 0) (i 1)

/-- An array as a curried function of its two coordinates. -/
def cur {a b : ℕ} (A : (⟨2, ![a, b]⟩ : Shape).Idx → EReal) : Fin a → Fin b → EReal := fun r k => A (ix2 r k)

theorem cur_unc {a b : ℕ} (X : Fin a → Fin b → EReal) : cur (unc X) = X := rfl

theorem unc_cur {a b : ℕ} (A : (⟨2, ![a, b]⟩ : Shape).Idx → EReal) : unc (cur A) = A :=
  funext fun i => congrArg A (eq_ix2 i).symm

/-- The neighbour sum on curried arrays. -/
def aggOpK (e : IVec S2x1600000 32) (X : Fin 50000 → Fin 128 → EReal) : Fin 50000 → Fin 128 → EReal :=
  cur (aggA e (unc X))

/-- The clamped degree of node `r`. -/
def degsK (e : IVec S2x1600000 32) (r : Fin 50000) : EReal := degA e (ix1 r)

theorem aggOpK_real (e : IVec S2x1600000 32) (X : Fin 50000 → Fin 128 → EReal) (hX : Real2 X) : Real2 (aggOpK e X) :=
  fun r k => aggA_real e (unc X) (fun i => hX (i 0) (i 1)) (ix2 r k)

theorem degsK_real (e : IVec S2x1600000 32) : RealNZ (degsK e) := fun r => degA_real e (ix1 r)

end Cert.KernelIdeal.KVal

end
-- ==== Proof.LinPay0.lean ====
/-
  The arithmetic of the fused linear layer's body (first layer), read entry by entry over the extended reals.

  The body receives a block of 5000 rows: the neighbour sums `x0`, the rows' own features `x1`, the clamped
  in-degrees `x2` (one column), the two weight matrices `x3`, `x4` indexed (input channel, output channel), and
  the bias row `x5`. It stores three things: the linear layer's block (`pay4_apply`), and into two [1,128]
  accumulators the block's column sums (`pay5_apply`) and column sums of squares (`pay1_apply`), each added to
  what the accumulator held; at the first grid point the accumulators are first set to zero (`pay2_apply`,
  `pay3_apply`). Changes of float format are the identity on extended reals, a matrix product into a zero
  accumulator is the sum over the contracted channel, and a reduction along the rows is the sum over the rows.
-/
import proofs.«122408_j28759101014107_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.LinPay0

open Idealize.ShloMosaic Idealize.ShloMosaic.ValueIdx
open Cert.KernelIdeal Cert.KernelIdeal.Gen

/-- The dimension numbers of the body's two matrix products: rows of the left operand against columns of the right. -/
abbrev D0 : DotDims S5000x128 S128x128 S5000x128 := dot_S5000x128_S128x128_S5000x128_1_0_0_1_n_n

theorem lhs0 (i : S5000x128.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem lhs1 (i : S5000x128.Idx) (q : D0.contr.Idx) : (D0.lhsIdx i q 1).val = (q ⟨0, by decide⟩).val :=
  D0.lhsIdx_val_of_single rfl i q
theorem rhs0 (i : S5000x128.Idx) (q : D0.contr.Idx) : (D0.rhsIdx i q 0).val = (q ⟨0, by decide⟩).val :=
  D0.rhsIdx_val_of_single rfl i q
theorem rhs1 (i : S5000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- A matrix product into the zero accumulator, at row `r` and column `j`: the sum over the 128 contracted
    channels of the row's entries times the column's. -/
theorem matmul_at (a : FVec Ideal S5000x128 .bf16) (b : FVec Ideal S128x128 .bf16) (r : Fin 5000) (j : Fin 128) :
    matmul D0 none a b (constant (F := Ideal) S5000x128 .f32 0x00000000#32) (ix2 r j)
      = ∑ k : Fin 128, a (ix2 r k) * b (ix2 k j) := by
  refine (Ideal.matmul_constant_zero_apply D0 none a b (ix2 r j)).trans ?_
  rw [← Equiv.sum_comp (contrEquiv1 D0 128 rfl rfl).symm]
  refine Finset.sum_congr rfl fun k _ => ?_
  have hk := contrEquiv1_symm_val D0 128 rfl rfl k
  have el : D0.lhsIdx (ix2 r j) ((contrEquiv1 D0 128 rfl rfl).symm k) = ix2 r k := funext fun a => Fin.ext (by
    match a with
    | ⟨0, _⟩ => exact lhs0 _ _
    | ⟨1, _⟩ => exact (lhs1 _ _).trans hk)
  have er : D0.rhsIdx (ix2 r j) ((contrEquiv1 D0 128 rfl rfl).symm k) = ix2 k j := funext fun a => Fin.ext (by
    match a with
    | ⟨0, _⟩ => exact (rhs0 _ _).trans hk
    | ⟨1, _⟩ => exact rhs1 _ _)
  rw [el, er]

/-- The degree column broadcast along the channels reads, at row `r` and any channel, the row's degree. -/
theorem bcast_col (x : FVec Ideal S5000x1 .f32) (r : Fin 5000) (k : Fin 128) :
    broadcastTo S5000x128 x broadcasts_S5000x1_S5000x128 (ix2 r k) = x (ix2 r 0) :=
  broadcastTo_apply x broadcasts_S5000x1_S5000x128 (ix2 r k) (ix2 r 0) fun a => by
    match a with
    | ⟨0, _⟩ => rfl
    | ⟨1, _⟩ => rfl

/-- The bias row broadcast along the rows reads, at any row and channel `j`, the bias of channel `j`. -/
theorem bcast_row (x : FVec Ideal S1x128 .f32) (r : Fin 5000) (j : Fin 128) :
    broadcastTo S5000x128 x broadcasts_S1x128_S5000x128 (ix2 r j) = x (ix2 0 j) :=
  broadcastTo_apply x broadcasts_S1x128_S5000x128 (ix2 r j) (ix2 0 j) fun a => by
    match a with
    | ⟨0, _⟩ => rfl
    | ⟨1, _⟩ => rfl

/-- The sum over the block's 5000 rows of a [5000,128] vector, at channel `j`. -/
theorem colsum_at (src : FVec Ideal S5000x128 .f32) (j : Fin 128) :
    multiReduction .add [0] S128 src 0x00000000#32 reduces_S5000x128_S128 (.inl rfl) rfl (ix1 j)
      = ∑ r : Fin 5000, src (ix2 r j) := by
  refine (Ideal.multiReduction_add_single src 0x00000000#32 reduces_S5000x128_S128 (.inl rfl) rfl (ix1 j)).trans ?_
  refine Finset.sum_congr rfl fun r _ => congrArg src (funext fun a => ?_)
  match a with
  | ⟨0, _⟩ => rfl
  | ⟨1, _⟩ => rfl

/-- A [128] vector viewed as a [1,128] row reads, at (0, j), its entry `j`. -/
theorem row_of_vec (v : FVec Ideal S128 .f32) (j : Fin 128) :
    shapeCast S1x128 v shapeCasts_S128_S1x128 (ix2 0 j) = v (ix1 j) := by
  refine (shapeCast_addUnit_apply ![128] v shapeCasts_S128_S1x128 (ix2 0 j)).trans (congrArg v (funext fun a => ?_))
  match a with
  | ⟨0, _⟩ => rfl

/-- THE LINEAR LAYER'S BLOCK at row `r`, output channel `j`: the degree-normalised neighbour sums through the first
    weight matrix, the rows themselves through the second, plus the bias. The weight blocks are indexed
    (input channel, output channel). -/
theorem pay4_apply (x0 : Vec Ideal S5000x128 .f32) (x2 : Vec Ideal S5000x1 .f32) (x1 : Vec Ideal S5000x128 .f32)
    (x3 x4 : Vec Ideal S128x128 .f32) (x5 : Vec Ideal S1x128 .f32) (r : Fin 5000) (j : Fin 128) :
    k0_pay4 (F := Ideal) x0 x2 x1 x3 x4 x5 (ix2 r j)
      = ((∑ k : Fin 128, Ideal.div (x0 (ix2 r k)) (x2 (ix2 r 0)) * x3 (ix2 k j)) + ∑ k : Fin 128, x1 (ix2 r k) * x4 (ix2 k j))
        + x5 (ix2 0 j) := by
  unfold k0_pay4
  simp only [shapeCast_self]
  show (matmul D0 none _ _ (constant (F := Ideal) S5000x128 .f32 0x00000000#32) (ix2 r j)
      + matmul D0 none _ _ (constant (F := Ideal) S5000x128 .f32 0x00000000#32) (ix2 r j))
      + broadcastTo S5000x128 x5 broadcasts_S1x128_S5000x128 (ix2 r j) = _
  rw [matmul_at, matmul_at, bcast_row]
  refine congrArg₂ (· + ·) (congrArg₂ (· + ·) (Finset.sum_congr rfl fun k _ => ?_) rfl) rfl
  show Ideal.div (x0 (ix2 r k)) (broadcastTo S5000x128 x2 broadcasts_S5000x1_S5000x128 (ix2 r k)) * x3 (ix2 k j) = _
  rw [bcast_col]

/-- THE COLUMN SUMS' BLOCK at channel `j`: what the accumulator held plus the sum of the linear layer's block over its
    5000 rows. -/
theorem pay5_apply (x0 : Vec Ideal S5000x128 .f32) (x2 : Vec Ideal S5000x1 .f32) (x1 : Vec Ideal S5000x128 .f32)
    (x3 x4 : Vec Ideal S128x128 .f32) (x5 : Vec Ideal S1x128 .f32) (acc : Vec Ideal S1x128 .f32) (j : Fin 128) :
    k0_pay5 (F := Ideal) x0 x2 x1 x3 x4 x5 acc (ix2 0 j)
      = acc (ix2 0 j) + ∑ r : Fin 5000, k0_pay4 (F := Ideal) x0 x2 x1 x3 x4 x5 (ix2 r j) := by
  unfold k0_pay5
  simp only [shapeCast_self]
  show acc (ix2 0 j) + shapeCast S1x128 _ shapeCasts_S128_S1x128 (ix2 0 j) = _
  refine congrArg (acc (ix2 0 j) + ·) ?_
  exact (row_of_vec _ j).trans (colsum_at _ j)

/-- THE COLUMN SUMS OF SQUARES' BLOCK at channel `j`: what the accumulator held plus the sum of the squares of a
    [5000,128] block's entries over its 5000 rows. -/
theorem pay1_apply (v : FVec Ideal S5000x128 .f32) (acc : Vec Ideal S1x128 .f32) (j : Fin 128) :
    k0_pay1 (F := Ideal) v acc (ix2 0 j) = acc (ix2 0 j) + ∑ r : Fin 5000, v (ix2 r j) * v (ix2 r j) := by
  unfold k0_pay1
  simp only [shapeCast_self]
  show acc (ix2 0 j) + shapeCast S1x128 _ shapeCasts_S128_S1x128 (ix2 0 j) = _
  refine congrArg (acc (ix2 0 j) + ·) ?_
  exact (row_of_vec _ j).trans (colsum_at _ j)

/-- The two zero blocks the first grid point stores into the accumulators read `0` everywhere. -/
theorem pay2_apply (i : S1x128.Idx) : k0_pay2 (F := Ideal) i = 0 := Ideal.ofBits_zero_f32
theorem pay3_apply (i : S1x128.Idx) : k0_pay3 (F := Ideal) i = 0 := Ideal.ofBits_zero_f32

end Cert.KernelIdeal.LinPay0
-- ==== Proof.LibBlockSum.lean ====
/-
  A sum over the rows of an array, taken block by block.

  When `N = m * n` rows are cut into `m` consecutive blocks of `n` rows, row `n * t + r` being row `r` of
  block `t`, the sum of a function over all rows is the sum over the blocks of each block's own sum. This
  uses only commutativity and associativity of the addition, so it holds in any commutative monoid — in
  particular over the extended reals, where no finiteness is asked.

  A running total that starts at `z + b 0` and adds `b (k + 1)` at step `k + 1` is `z` plus the sum of
  the `b`s met so far.
-/
import Mathlib.Algebra.BigOperators.Fin

namespace Cert.BlockSum

open scoped BigOperators

/-- Rows `g t r` with `(g t r).val = n * t + r` enumerate `Fin N`, `N = m * n`, block by block: the sum over
    all rows is the double sum over blocks and rows inside a block. -/
theorem sum_blocks {M : Type*} [AddCommMonoid M] {N m n : ℕ} (hN : m * n = N) (g : Fin m → Fin n → Fin N)
    (hg : ∀ t r, (g t r).val = n * t.val + r.val) (f : Fin N → M) :
    ∑ i, f i = ∑ t : Fin m, ∑ r : Fin n, f (g t r) := by
  subst hN
  rw [← Equiv.sum_comp finProdFinEquiv f, Fintype.sum_prod_type]
  refine Finset.sum_congr rfl fun t _ => Finset.sum_congr rfl fun r _ => ?_
  refine congrArg f (Fin.ext ?_)
  rw [hg]
  show r.val + n * t.val = n * t.val + r.val
  omega

/-- A running total `a` that starts at `z + b 0` and adds `b (k + 1)` at step `k + 1`, for the steps below
    `K`, is `z` plus the sum of `b` over the steps so far. -/
theorem running_total {M : Type*} [AddCommMonoid M] (K : ℕ) (z : M) (a b : ℕ → M) (h0 : a 0 = z + b 0)
    (hs : ∀ k, k + 1 < K → a (k + 1) = a k + b (k + 1)) :
    ∀ k, k < K → a k = z + ∑ t ∈ Finset.range (k + 1), b t
  | 0, _ => by rw [h0, Finset.sum_range_one]
  | k + 1, hk => by
    rw [hs k hk, running_total K z a b h0 hs k (Nat.lt_of_succ_lt hk), Finset.sum_range_succ _ (k + 1), add_assoc]

end Cert.BlockSum
-- ==== Proof.LinValue0.lean ====
/-
  The first fused linear layer's three result arrays, as functions of the arrays the region finds.

  The grid has ten points; point `t` receives rows `5000 t … 5000 t + 4999` of the neighbour sums, of the
  features and of the clamped degrees, and the whole weight matrices and bias. It writes its block of the
  linear layer to rows `5000 t …` of the first result (`lin_eq`), and adds the block's column sums and column
  sums of squares into two [1,128] accumulators that are set to zero at point 0 and written to the second
  and third results after point 9. So the second result is the sum over the ten blocks of each block's
  column sums, which regrouped is the sum over all 50000 rows (`sum_eq`), and likewise the third for the
  squares (`sumsq_eq`). Regrouping a sum needs only commutativity and associativity, which hold over the
  extended reals without any finiteness.

  The case lemmas (`out_A_6` … `out_B_8`) say what one run of the body leaves in each output buffer, for
  any float instance: the stores' payloads of the loaded blocks. The block lemmas (`iblk_0` … `iblk_5`) read
  each input block entry by entry off its array.
-/
import proofs.«122408_j28759101014107_2_alg».proof.Proof.Gen.KernelIdeal.Frame
import proofs.«122408_j28759101014107_2_alg».proof.Proof.LinPay0
import proofs.«122408_j28759101014107_2_alg».proof.Proof.LibBlockSum
import proofs.«122408_j28759101014107_2_alg».proof.Proof.Spec
import Idealize.ShloMosaic.Lib.Pipeline.Value
import Idealize.ShloMosaic.Lib.Tactic

noncomputable section

namespace Cert.KernelIdeal.LinValue0

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

section Cases
variable {F : FTy → Type} [FloatOps F]

theorem out_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S5000x1 .f32) (x3 : Vec F S128x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 hc0 x0 x1 x2 x3 x4 x5 = k0_pay4 x0 x2 x1 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S5000x1 .f32) (x3 : Vec F S128x128 .f32) (x4 : Vec F S128x128 .f32) (x5 : Vec F S1x128 .f32) (xo7 : Vec F S1x128 .f32) (xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x2 x1 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S5000x1 .f32) (x3 : Vec F S128x128 .f32) (x4 : Vec F S128x128 .f32) (x5 : Vec F S1x128 .f32) :
    out0_A_7 c i arg1 harg1 arg2 harg2 arg3 harg3 arg4 harg4 arg5 harg5 arg6 harg6 arg7 harg7 arg8 harg8 arg9 harg9 hc0 x0 x1 x2 x3 x4 x5 = k0_pay5 x0 x2 x1 x3 x4 x5 k0_pay2 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S5000x1 .f32) (x3 : Vec F S128x128 .f32) (x4 : Vec F S128x128 .f32) (x5 : Vec F S1x128 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x2 x1 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S5000x1 .f32) (x3 : Vec F S128x128 .f32) (x4 : Vec F S128x128 .f32) (x5 : Vec F S1x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x2 x1 x3 x4 x5) k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S5000x1 .f32) (x3 : Vec F S128x128 .f32) (x4 : Vec F S128x128 .f32) (x5 : Vec F S1x128 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x2 x1 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

end Cases

/-! ## The windows' blocks, read entry by entry off the arrays the region finds -/

/-- The printed index maps, decided over the ten grid points: the row-blocked windows (0, 1, 2 and the output 6) sit at
    block row `t`, the others at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

section Blocks
variable {F : FTy → Type} [FloatOps F]
variable (V : (c : Dev nD) → (b : Ref sig .tc) → Buf (Elt F) ((c : Thread nD τ).loc b))

/-- Row `r` of the neighbour-sum window's block at point `t` is row `5000 t + r` of its array. -/
theorem iblk_0 (c : Dev nD) (t : Fin cfg0.N) (r : Fin 5000) (n : Fin 50000) (hn : n.val = 5000 * t.val + r.val) (k : Fin 128) :
    (iblk0 V c 0 t : Vec F S5000x128 .f32) (ix2 r k) = (dat0 V c).A 0 (ix2 n k) := by
  obtain ⟨⟨e0, e1⟩, -⟩ := idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t 0 * 5000 + 1 * r.val = n.val; rw [e0, hn]; omega
  | ⟨1, _⟩ => show win0_0.index t 1 * 128 + 1 * k.val = k.val; rw [e1]; omega

/-- Row `r` of the feature window's block at point `t` is row `5000 t + r` of its array. -/
theorem iblk_1 (c : Dev nD) (t : Fin cfg0.N) (r : Fin 5000) (n : Fin 50000) (hn : n.val = 5000 * t.val + r.val) (k : Fin 128) :
    (iblk0 V c 1 t : Vec F S5000x128 .f32) (ix2 r k) = (dat0 V c).A 1 (ix2 n k) := by
  obtain ⟨-, ⟨e0, e1⟩, -⟩ := idx_facts t
  unfold iblk0
  rw [View.read_apply]
  show V c (Pipeline.arrRef spec0 1) _ = V c (Pipeline.arrRef spec0 1) _
  refine congrArg _ (funext fun a => Fin.ext ?_)
  match a with
  | ⟨0, _⟩ => show win0_1.index t 0 * 5000 + 1 * r.val = n.val; rw [e0, hn]; omega
  | ⟨1, _⟩ => show win0_1.index t 1 * 128 + 1 * k.val = k.val; rw [e1]; omega

/-- Row `r` of the degree window's block at point `t` is row `5000 t + r` of the degree column. -/
theorem iblk_2 (c : Dev nD) (t : Fin cfg0.N) (r : Fin 5000) (n : Fin 50000) (hn : n.val = 5000 * t.val + r.val) :
    (iblk0 V c 2 t : Vec F S5000x1 .f32) (ix2 r (0 : Fin 1)) = (dat0 V c).A 2 (ix2 n (0 : Fin 1)) := by
  obtain ⟨-, -, ⟨e0, e1⟩, -⟩ := idx_facts t
  unfold iblk0
  rw [View.read_apply]
  show V c (Pipeline.arrRef spec0 2) _ = V c (Pipeline.arrRef spec0 2) _
  refine congrArg _ (funext fun a => Fin.ext ?_)
  match a with
  | ⟨0, _⟩ => show win0_2.index t 0 * 5000 + 1 * r.val = n.val; rw [e0, hn]; omega
  | ⟨1, _⟩ => show win0_2.index t 1 * 1 + 1 * 0 = 0; rw [e1]

/-- The first weight window's one block is its whole array, at every point. -/
theorem iblk_3 (c : Dev nD) (t : Fin cfg0.N) (k j : Fin 128) :
    (iblk0 V c 3 t : Vec F S128x128 .f32) (ix2 k j) = (dat0 V c).A 3 (ix2 k j) := by
  obtain ⟨-, -, -, ⟨e0, e1⟩, -⟩ := idx_facts t
  unfold iblk0
  rw [View.read_apply]
  show V c (Pipeline.arrRef spec0 3) _ = V c (Pipeline.arrRef spec0 3) _
  refine congrArg _ (funext fun a => Fin.ext ?_)
  match a with
  | ⟨0, _⟩ => show win0_3.index t 0 * 128 + 1 * k.val = k.val; rw [e0]; omega
  | ⟨1, _⟩ => show win0_3.index t 1 * 128 + 1 * j.val = j.val; rw [e1]; omega

/-- The second weight window's one block is its whole array, at every point. -/
theorem iblk_4 (c : Dev nD) (t : Fin cfg0.N) (k j : Fin 128) :
    (iblk0 V c 4 t : Vec F S128x128 .f32) (ix2 k j) = (dat0 V c).A 4 (ix2 k j) := by
  obtain ⟨-, -, -, -, ⟨e0, e1⟩, -⟩ := idx_facts t
  unfold iblk0
  rw [View.read_apply]
  show V c (Pipeline.arrRef spec0 4) _ = V c (Pipeline.arrRef spec0 4) _
  refine congrArg _ (funext fun a => Fin.ext ?_)
  match a with
  | ⟨0, _⟩ => show win0_4.index t 0 * 128 + 1 * k.val = k.val; rw [e0]; omega
  | ⟨1, _⟩ => show win0_4.index t 1 * 128 + 1 * j.val = j.val; rw [e1]; omega

/-- The bias window's one block is its whole row, at every point. -/
theorem iblk_5 (c : Dev nD) (t : Fin cfg0.N) (j : Fin 128) :
    (iblk0 V c 5 t : Vec F S1x128 .f32) (ix2 (0 : Fin 1) j) = (dat0 V c).A 5 (ix2 (0 : Fin 1) j) := by
  obtain ⟨-, -, -, -, -, ⟨e0, e1⟩, -⟩ := idx_facts t
  unfold iblk0
  rw [View.read_apply]
  show V c (Pipeline.arrRef spec0 5) _ = V c (Pipeline.arrRef spec0 5) _
  refine congrArg _ (funext fun a => Fin.ext ?_)
  match a with
  | ⟨0, _⟩ => show win0_5.index t 0 * 1 + 1 * 0 = 0; rw [e0]
  | ⟨1, _⟩ => show win0_5.index t 1 * 128 + 1 * j.val = j.val; rw [e1]; omega

/-- The linear layer's block at point `t`: the body's payload of the six input blocks there. -/
def blk6 (c : Dev nD) (t : Fin cfg0.N) : Vec F S5000x128 .f32 :=
  k0_pay4 (iblk0 V c 0 t) (iblk0 V c 2 t) (iblk0 V c 1 t) (iblk0 V c 3 t) (iblk0 V c 4 t) (iblk0 V c 5 t)

/-- After every point the first output's buffer holds that point's block of the linear layer. -/
theorem outs6 (c : Dev nD) (t : Fin cfg0.N) : (outsAt0 V c t.val t.isLt).1 = blk6 V c t := by
  by_cases h0 : t.val % 10 = 0
  · rw [outsAt0_A V c t h0]; dsimp only; exact out_A_6 ..
  · rw [outsAt0_B V c t h0]; dsimp only; exact out_B_6 ..

end Blocks

section Accumulators
variable {F : FTy → Type} [FloatOps F]
variable (V : (c : Dev nD) → (b : Ref sig .tc) → Buf (Elt F) ((c : Thread nD τ).loc b))

/-- After point 0 the column-sum accumulator holds the zero block plus the block's column sums … -/
theorem outs7_A (c : Dev nD) (t : Fin cfg0.N) (h0 : t.val % 10 = 0) :
    (outsAt0 V c t.val t.isLt).2.1 = k0_pay5 (iblk0 V c 0 t) (iblk0 V c 2 t) (iblk0 V c 1 t) (iblk0 V c 3 t) (iblk0 V c 4 t) (iblk0 V c 5 t) k0_pay2 := by
  rw [outsAt0_A V c t h0]; dsimp only; exact out_A_7 ..

/-- … and after a later point what it held after the point before plus the block's column sums. -/
theorem outs7_B (c : Dev nD) (t : Fin cfg0.N) (h0 : ¬t.val % 10 = 0) :
    (outsAt0 V c t.val t.isLt).2.1
      = k0_pay5 (iblk0 V c 0 t) (iblk0 V c 2 t) (iblk0 V c 1 t) (iblk0 V c 3 t) (iblk0 V c 4 t) (iblk0 V c 5 t) (outsAt0 V c (t.val - 1) (Nat.lt_of_le_of_lt (Nat.sub_le _ _) t.isLt)).2.1 := by
  rw [outsAt0_B V c t h0]; dsimp only; exact out_B_7 ..

/-- The same for the accumulator of the column sums of squares. -/
theorem outs8_A (c : Dev nD) (t : Fin cfg0.N) (h0 : t.val % 10 = 0) :
    (outsAt0 V c t.val t.isLt).2.2 = k0_pay1 (blk6 V c t) k0_pay3 := by
  rw [outsAt0_A V c t h0]; dsimp only; exact out_A_8 ..

theorem outs8_B (c : Dev nD) (t : Fin cfg0.N) (h0 : ¬t.val % 10 = 0) :
    (outsAt0 V c t.val t.isLt).2.2
      = k0_pay1 (blk6 V c t) (outsAt0 V c (t.val - 1) (Nat.lt_of_le_of_lt (Nat.sub_le _ _) t.isLt)).2.2 := by
  rw [outsAt0_B V c t h0]; dsimp only; exact out_B_8 ..

end Accumulators

/-! ## At the extended reals: the three result arrays -/

section AtIdeal
variable (V : (c : Dev nD) → (b : Ref sig .tc) → Buf (Elt Ideal) ((c : Thread nD τ).loc b))

/-- The linear layer of the six arrays the region finds, as contents of the first result array. -/
def G6 (c : Dev nD) : S50000x128.Idx → EReal := fun i =>
  Cert.Spec.lin (fun r k => (dat0 V c).A 0 (ix2 r k)) (fun r k => (dat0 V c).A 1 (ix2 r k)) (fun r => (dat0 V c).A 2 (ix2 r 0))
    (fun j k => (dat0 V c).A 3 (ix2 k j)) (fun j k => (dat0 V c).A 4 (ix2 k j)) (fun j => (dat0 V c).A 5 (ix2 0 j)) (i 0) (i 1)

/-- Row `r` of point `t`'s block of the linear layer is row `5000 t + r` of `G6`. -/
theorem blk6_apply (c : Dev nD) (t : Fin cfg0.N) (r : Fin 5000) (j : Fin 128) (n : Fin 50000) (hn : n.val = 5000 * t.val + r.val) :
    blk6 V c t (ix2 r j) = G6 V c (ix2 n j) := by
  unfold blk6
  refine (LinPay0.pay4_apply (iblk0 V c 0 t) (iblk0 V c 2 t) (iblk0 V c 1 t) (iblk0 V c 3 t) (iblk0 V c 4 t) (iblk0 V c 5 t) r j).trans ?_
  unfold G6 Cert.Spec.lin
  refine congrArg₂ (· + ·) (congrArg₂ (· + ·) (Finset.sum_congr rfl fun k _ => ?_) (Finset.sum_congr rfl fun k _ => ?_)) ?_
  · rw [iblk_0 V c t r n hn k, iblk_2 V c t r n hn, iblk_3 V c t k j]
  · rw [iblk_1 V c t r n hn k, iblk_4 V c t k j]
  · exact iblk_5 V c t j

theorem hN : cfg0.N = 10 := N_0

/-- An index of the first result array is in point `t`'s block iff each coordinate is in the block's range. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24_0).slice (win0_6.rect t)).set ↔ _
  rw [View.set_slice_whole, Rect.mem_set_unit]
  exact Iff.rfl

/-- What point `t` writes back to the first result array is its block of `G6`. -/
theorem flushed6 (c : Dev nD) (t : Fin cfg0.N) :
    (dat0 V c).flushed 6 t = ((cfg0.win 6).blk t).view.read (Elt Ideal) (G6 V c) := by
  have ht : t.val < 10 := lt_of_lt_of_eq t.isLt hN
  obtain ⟨-, -, -, -, -, -, ⟨e0, e1⟩, -⟩ := idx_facts t
  show (cfg0.win 6).cut (grid0.coords t) ((dat0 V c).after 6 t) = _
  rw [after0_6, outs6]
  funext y
  obtain ⟨r, j, rfl⟩ : ∃ (r : Fin 5000) (j : Fin 128), y = ix2 r j := ⟨y 0, y 1, eq_ix2 y⟩
  rw [View.read_apply]
  have he : ((cfg0.win 6).blk t).view.emb (ix2 r j) = ix2 (⟨5000 * t.val + r.val, by omega⟩ : Fin 50000) j :=
    funext fun a => Fin.ext (by
      match a with
      | ⟨0, _⟩ => show win0_6.index t 0 * 5000 + 1 * r.val = 5000 * t.val + r.val; rw [e0]; omega
      | ⟨1, _⟩ => show win0_6.index t 1 * 128 + 1 * j.val = j.val; rw [e1]; omega)
  rw [he]
  exact blk6_apply V c t r j _ rfl

/-- Every row of the first result array is in the block of the point `row / 5000`, which writes it back. -/
theorem cover6 (i : S50000x128.Idx) : ∃ t : Fin cfg0.N, (cfg0.win 6).flush t = true ∧ i ∈ ((cfg0.win 6).blk t).view.set := by
  have h0 : (i 0).val < 50000 := idx2_lt0 i
  have h1 : (i 1).val < 128 := idx2_lt1 i
  refine ⟨⟨(i 0).val / 5000, by rw [hN]; omega⟩, flush0_6 _, ?_⟩
  obtain ⟨-, -, -, -, -, -, ⟨e0, e1⟩, -⟩ := idx_facts ⟨(i 0).val / 5000, by rw [hN]; omega⟩
  rw [mem_blk6]
  intro a
  match a with
  | ⟨0, _⟩ =>
    show win0_6.index _ 0 * 5000 ≤ (i 0).val ∧ (i 0).val < win0_6.index _ 0 * 5000 + 5000
    rw [e0]; dsimp only; omega
  | ⟨1, _⟩ =>
    show win0_6.index _ 1 * 128 ≤ (i 1).val ∧ (i 1).val < win0_6.index _ 1 * 128 + 128
    rw [e1]; omega

/-- The first result array ends holding the linear layer. -/
theorem final6 (c : Dev nD) : (dat0 V c).arrAt 6 cfg0.N = G6 V c :=
  (dat0 V c).arrAt_eq_of_cover 6 (G6 V c) (fun t _ => flushed6 V c t) cover6

/-- THE LINEAR LAYER: entry (r, j) of the first result array. The inputs are the arrays the region finds,
    `(dat0 V c).A w` for window `w`; the weights are stored (input channel, output channel). -/
theorem lin_eq (c : Dev nD) (r : Fin 50000) (j : Fin 128) :
    (dat0 V c).arrAt 6 cfg0.N (ix2 r j)
      = Cert.Spec.lin (fun r k => (dat0 V c).A 0 (ix2 r k)) (fun r k => (dat0 V c).A 1 (ix2 r k)) (fun r => (dat0 V c).A 2 (ix2 r 0))
          (fun j k => (dat0 V c).A 3 (ix2 k j)) (fun j k => (dat0 V c).A 4 (ix2 k j)) (fun j => (dat0 V c).A 5 (ix2 0 j)) r j := by
  rw [final6]
  rfl

end AtIdeal

/-! ## The two accumulated results -/

section Sums
variable (V : (c : Dev nD) → (b : Ref sig .tc) → Buf (Elt Ideal) ((c : Thread nD τ).loc b))

/-- Block `t`'s column sum of the linear layer at channel `j` (zero past the grid). -/
def B7 (c : Dev nD) (j : Fin 128) (t : ℕ) : EReal :=
  if h : t < cfg0.N then ∑ r : Fin 5000, blk6 V c ⟨t, h⟩ (ix2 r j) else 0

/-- Block `t`'s column sum of squares at channel `j` (zero past the grid). -/
def B8 (c : Dev nD) (j : Fin 128) (t : ℕ) : EReal :=
  if h : t < cfg0.N then ∑ r : Fin 5000, blk6 V c ⟨t, h⟩ (ix2 r j) * blk6 V c ⟨t, h⟩ (ix2 r j) else 0

/-- After point `n` the first accumulator holds, at channel `j`, the sum of the column sums of blocks `0 … n`. -/
theorem inv7 (c : Dev nD) (j : Fin 128) : ∀ (n : ℕ) (h : n < cfg0.N),
    (outsAt0 V c n h).2.1 (ix2 0 j) = ∑ t ∈ Finset.range (n + 1), B7 V c j t
  | 0, h => by
    refine (congrFun (outs7_A V c ⟨0, h⟩ rfl) (ix2 0 j)).trans ?_
    refine (LinPay0.pay5_apply _ _ _ _ _ _ _ j).trans ?_
    show _ = ∑ t ∈ Finset.range 1, B7 V c j t
    rw [LinPay0.pay2_apply, zero_add, Finset.sum_range_one]
    unfold B7
    rw [dif_pos h]
    rfl
  | n + 1, h => by
    have hB : ¬(⟨n + 1, h⟩ : Fin cfg0.N).val % 10 = 0 := by have := hN ▸ h; dsimp only; omega
    refine (congrFun (outs7_B V c ⟨n + 1, h⟩ hB) (ix2 0 j)).trans ?_
    refine (LinPay0.pay5_apply _ _ _ _ _ _ _ j).trans ?_
    rw [Finset.sum_range_succ _ (n + 1)]
    refine congrArg₂ (· + ·) (inv7 c j n (Nat.lt_of_succ_lt h)) ?_
    unfold B7
    rw [dif_pos h]
    rfl

/-- After point `n` the second accumulator holds the sum of the column sums of squares of blocks `0 … n`. -/
theorem inv8 (c : Dev nD) (j : Fin 128) : ∀ (n : ℕ) (h : n < cfg0.N),
    (outsAt0 V c n h).2.2 (ix2 0 j) = ∑ t ∈ Finset.range (n + 1), B8 V c j t
  | 0, h => by
    refine (congrFun (outs8_A V c ⟨0, h⟩ rfl) (ix2 0 j)).trans ?_
    refine (LinPay0.pay1_apply _ _ j).trans ?_
    show _ = ∑ t ∈ Finset.range 1, B8 V c j t
    rw [LinPay0.pay3_apply, zero_add, Finset.sum_range_one]
    unfold B8
    rw [dif_pos h]
  | n + 1, h => by
    have hB : ¬(⟨n + 1, h⟩ : Fin cfg0.N).val % 10 = 0 := by have := hN ▸ h; dsimp only; omega
    refine (congrFun (outs8_B V c ⟨n + 1, h⟩ hB) (ix2 0 j)).trans ?_
    refine (LinPay0.pay1_apply _ _ j).trans ?_
    rw [Finset.sum_range_succ _ (n + 1)]
    refine congrArg₂ (· + ·) (inv8 c j n (Nat.lt_of_succ_lt h)) ?_
    unfold B8
    rw [dif_pos h]

/-- Row `r` of block `t`, as a row of the whole array. -/
def row (t : Fin 10) (r : Fin 5000) : Fin 50000 := ⟨5000 * t.val + r.val, by have := t.isLt; have := r.isLt; omega⟩

/-- After the last point (the tenth, `n = 9`) the first accumulator holds the column sums of the whole linear layer. -/
theorem total7 (c : Dev nD) (j : Fin 128) (n : ℕ) (h : n < cfg0.N) (h9 : n = 9) :
    (outsAt0 V c n h).2.1 (ix2 0 j) = Cert.Spec.colSum (fun n j => G6 V c (ix2 n j)) j := by
  rw [inv7 V c j n h]
  subst h9
  unfold Cert.Spec.colSum
  rw [Cert.BlockSum.sum_blocks (m := 10) (n := 5000) rfl row (fun _ _ => rfl) (fun n => G6 V c (ix2 n j))]
  show ∑ t ∈ Finset.range 10, B7 V c j t = _
  rw [Finset.sum_range (fun t => B7 V c j t)]
  refine Finset.sum_congr rfl fun t _ => ?_
  unfold B7
  rw [dif_pos (lt_of_lt_of_eq t.isLt hN.symm)]
  exact Finset.sum_congr rfl fun r _ => blk6_apply V c ⟨t.val, _⟩ r j (row t r) rfl

/-- After the last point (`n = 9`) the second accumulator holds the column sums of squares of the whole linear layer. -/
theorem total8 (c : Dev nD) (j : Fin 128) (n : ℕ) (h : n < cfg0.N) (h9 : n = 9) :
    (outsAt0 V c n h).2.2 (ix2 0 j) = Cert.Spec.colSumSq (fun n j => G6 V c (ix2 n j)) j := by
  rw [inv8 V c j n h]
  subst h9
  unfold Cert.Spec.colSumSq
  rw [Cert.BlockSum.sum_blocks (m := 10) (n := 5000) rfl row (fun _ _ => rfl) (fun n => G6 V c (ix2 n j) * G6 V c (ix2 n j))]
  show ∑ t ∈ Finset.range 10, B8 V c j t = _
  rw [Finset.sum_range (fun t => B8 V c j t)]
  refine Finset.sum_congr rfl fun t _ => ?_
  unfold B8
  rw [dif_pos (lt_of_lt_of_eq t.isLt hN.symm)]
  refine Finset.sum_congr rfl fun r _ => ?_
  rw [blk6_apply V c ⟨t.val, _⟩ r j (row t r) rfl]

/-- The same, at the grid's last point however it is written. -/
theorem total7_at (c : Dev nD) (j : Fin 128) (t : Fin cfg0.N) (h9 : t.val = 9) :
    (outsAt0 V c t.val t.isLt).2.1 (ix2 (0 : Fin 1) j) = Cert.Spec.colSum (fun n j => G6 V c (ix2 n j)) j :=
  total7 V c j t.val t.isLt h9

theorem total8_at (c : Dev nD) (j : Fin 128) (t : Fin cfg0.N) (h9 : t.val = 9) :
    (outsAt0 V c t.val t.isLt).2.2 (ix2 (0 : Fin 1) j) = Cert.Spec.colSumSq (fun n j => G6 V c (ix2 n j)) j :=
  total8 V c j t.val t.isLt h9

/-- The column sums of the linear layer, as contents of the second result array. -/
def G7 (c : Dev nD) : S1x128.Idx → EReal := fun i => Cert.Spec.colSum (fun n j => G6 V c (ix2 n j)) (i 1)

/-- The column sums of squares of the linear layer, as contents of the third result array. -/
def G8 (c : Dev nD) : S1x128.Idx → EReal := fun i => Cert.Spec.colSumSq (fun n j => G6 V c (ix2 n j)) (i 1)

theorem G7_apply (c : Dev nD) (j : Fin 128) :
    G7 V c (ix2 (0 : Fin 1) j) = Cert.Spec.colSum (fun n j => G6 V c (ix2 n j)) j := rfl

theorem G8_apply (c : Dev nD) (j : Fin 128) :
    G8 V c (ix2 (0 : Fin 1) j) = Cert.Spec.colSumSq (fun n j => G6 V c (ix2 n j)) j := rfl

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v24_1).slice (win0_7.rect t)).set ↔ _
  rw [View.set_slice_whole, Rect.mem_set_unit]
  exact Iff.rfl

theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v24_2).slice (win0_8.rect t)).set ↔ _
  rw [View.set_slice_whole, Rect.mem_set_unit]
  exact Iff.rfl

/-- Reading the accumulator's one block through the write-back's leading part changes nothing. -/
theorem cut7 (i : grid0.Coords) (X : Vec Ideal S1x128 .f32) (y0 : Fin 1) (j : Fin 128) :
    (cfg0.win 7).cut i X (ix2 y0 j) = X (ix2 y0 j) := rfl

/-- The one write-back of the second result, after point 9, writes the column sums. -/
theorem flushed7 (c : Dev nD) (t : Fin cfg0.N) (hf : (cfg0.win 7).flush t = true) :
    (dat0 V c).flushed 7 t = ((cfg0.win 7).blk t).view.read (Elt Ideal) (G7 V c) := by
  have ht : t.val < 10 := lt_of_lt_of_eq t.isLt hN
  have h9 : t.val = 9 := by have := (flush0_7 t).mp hf; omega
  obtain ⟨-, -, -, -, -, -, -, ⟨e0, e1⟩, -⟩ := idx_facts t
  show (cfg0.win 7).cut (grid0.coords t) ((dat0 V c).after 7 t) = _
  rw [after0_7]
  funext y
  obtain ⟨y0, j, rfl⟩ : ∃ (y0 : Fin 1) (j : Fin 128), y = ix2 y0 j := ⟨y 0, y 1, eq_ix2 y⟩
  obtain rfl : y0 = 0 := Subsingleton.elim _ _
  rw [View.read_apply]
  refine Eq.trans ?_ (cast_eq _ _).symm
  have he : ((cfg0.win 7).blk t).view.emb (ix2 (0 : Fin 1) j) = ix2 (0 : Fin 1) j :=
    funext fun a => Fin.ext (by
      match a with
      | ⟨0, _⟩ => show win0_7.index t 0 * 1 + 1 * 0 = 0; rw [e0]
      | ⟨1, _⟩ => show win0_7.index t 1 * 128 + 1 * j.val = j.val; rw [e1]; omega)
  rw [he, G7_apply]
  exact (cut7 _ _ _ _).trans (total7_at V c j t h9)

theorem cut8 (i : grid0.Coords) (X : Vec Ideal S1x128 .f32) (y0 : Fin 1) (j : Fin 128) :
    (cfg0.win 8).cut i X (ix2 y0 j) = X (ix2 y0 j) := rfl

/-- The one write-back of the third result, after point 9, writes the column sums of squares. -/
theorem flushed8 (c : Dev nD) (t : Fin cfg0.N) (hf : (cfg0.win 8).flush t = true) :
    (dat0 V c).flushed 8 t = ((cfg0.win 8).blk t).view.read (Elt Ideal) (G8 V c) := by
  have ht : t.val < 10 := lt_of_lt_of_eq t.isLt hN
  have h9 : t.val = 9 := by have := (flush0_8 t).mp hf; omega
  obtain ⟨-, -, -, -, -, -, -, -, ⟨e0, e1⟩⟩ := idx_facts t
  show (cfg0.win 8).cut (grid0.coords t) ((dat0 V c).after 8 t) = _
  rw [after0_8]
  funext y
  obtain ⟨y0, j, rfl⟩ : ∃ (y0 : Fin 1) (j : Fin 128), y = ix2 y0 j := ⟨y 0, y 1, eq_ix2 y⟩
  obtain rfl : y0 = 0 := Subsingleton.elim _ _
  rw [View.read_apply]
  refine Eq.trans ?_ (cast_eq _ _).symm
  have he : ((cfg0.win 8).blk t).view.emb (ix2 (0 : Fin 1) j) = ix2 (0 : Fin 1) j :=
    funext fun a => Fin.ext (by
      match a with
      | ⟨0, _⟩ => show win0_8.index t 0 * 1 + 1 * 0 = 0; rw [e0]
      | ⟨1, _⟩ => show win0_8.index t 1 * 128 + 1 * j.val = j.val; rw [e1]; omega)
  rw [he, G8_apply]
  exact (cut8 _ _ _ _).trans (total8_at V c j t h9)

/-- Point 9's block of the second result is the whole row, and point 9 writes it back. -/
theorem cover7 (i : S1x128.Idx) : ∃ t : Fin cfg0.N, (cfg0.win 7).flush t = true ∧ i ∈ ((cfg0.win 7).blk t).view.set := by
  have h0 : (i 0).val < 1 := idx2_lt0 i
  have h1 : (i 1).val < 128 := idx2_lt1 i
  refine ⟨⟨9, by rw [hN]; decide⟩, (flush0_7 _).mpr rfl, ?_⟩
  obtain ⟨-, -, -, -, -, -, -, ⟨e0, e1⟩, -⟩ := idx_facts ⟨9, by rw [hN]; decide⟩
  rw [mem_blk7]
  intro a
  match a with
  | ⟨0, _⟩ =>
    show win0_7.index _ 0 * 1 ≤ (i 0).val ∧ (i 0).val < win0_7.index _ 0 * 1 + 1
    rw [e0]; omega
  | ⟨1, _⟩ =>
    show win0_7.index _ 1 * 128 ≤ (i 1).val ∧ (i 1).val < win0_7.index _ 1 * 128 + 128
    rw [e1]; omega

theorem cover8 (i : S1x128.Idx) : ∃ t : Fin cfg0.N, (cfg0.win 8).flush t = true ∧ i ∈ ((cfg0.win 8).blk t).view.set := by
  have h0 : (i 0).val < 1 := idx2_lt0 i
  have h1 : (i 1).val < 128 := idx2_lt1 i
  refine ⟨⟨9, by rw [hN]; decide⟩, (flush0_8 _).mpr rfl, ?_⟩
  obtain ⟨-, -, -, -, -, -, -, -, ⟨e0, e1⟩⟩ := idx_facts ⟨9, by rw [hN]; decide⟩
  rw [mem_blk8]
  intro a
  match a with
  | ⟨0, _⟩ =>
    show win0_8.index _ 0 * 1 ≤ (i 0).val ∧ (i 0).val < win0_8.index _ 0 * 1 + 1
    rw [e0]; omega
  | ⟨1, _⟩ =>
    show win0_8.index _ 1 * 128 ≤ (i 1).val ∧ (i 1).val < win0_8.index _ 1 * 128 + 128
    rw [e1]; omega

theorem final7 (c : Dev nD) : (dat0 V c).arrAt 7 cfg0.N = G7 V c :=
  (dat0 V c).arrAt_eq_of_cover 7 (G7 V c) (flushed7 V c) cover7

theorem final8 (c : Dev nD) : (dat0 V c).arrAt 8 cfg0.N = G8 V c :=
  (dat0 V c).arrAt_eq_of_cover 8 (G8 V c) (flushed8 V c) cover8

/-- THE COLUMN SUMS: entry (0, j) of the second result array is the sum over all 50000 rows of the first result
    array's channel `j`. -/
theorem sum_eq (c : Dev nD) (j : Fin 128) :
    (dat0 V c).arrAt 7 cfg0.N (ix2 0 j) = Cert.Spec.colSum (fun n j => (dat0 V c).arrAt 6 cfg0.N (ix2 n j)) j := by
  rw [final7, final6]
  exact G7_apply V c j

/-- THE COLUMN SUMS OF SQUARES: entry (0, j) of the third result array is the sum over all 50000 rows of the
    squares of the first result array's channel `j`. -/
theorem sumsq_eq (c : Dev nD) (j : Fin 128) :
    (dat0 V c).arrAt 8 cfg0.N (ix2 0 j) = Cert.Spec.colSumSq (fun n j => (dat0 V c).arrAt 6 cfg0.N (ix2 n j)) j := by
  rw [final8, final6]
  exact G8_apply V c j

end Sums

end Cert.KernelIdeal.LinValue0
-- ==== Proof.BnValue1.lean ====
/-
  The value of the first normalise-scale-shift-clamp region of the idealized kernel program.

  The region's grid has ten points; point `t` handles rows `5000 t … 5000 t + 4999` of a 50000 × 128 array. Its body is
  pointwise: at row `p` and channel `q` of the block it subtracts the channel's mean, multiplies by the reciprocal square
  root of the channel's variance plus a literal, multiplies by the channel's scale, adds the channel's shift and clamps at
  zero. The mean, variance, scale and shift are one-row arrays whose single block every point reads. Because the output
  block at point `t` covers exactly the rows the input block covers, and the ten blocks tile the array, the output array
  after the region is one function of the arrays the region found, index by index: `Cert.Spec.bnrelu`.

  Everything is stated at a parameter `V`, the buffer contents when the region is entered.
-/
import proofs.«122408_j28759101014107_2_alg».proof.Proof.Gen.KernelIdeal.Frame
import proofs.«122408_j28759101014107_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.BnValue1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at row `p`, channel `q` of a block: the row's entry minus the channel's mean, times the
    reciprocal square root of the channel's variance plus the literal, times the scale, plus the shift, clamped at zero. The
    four per-channel operands are one-row blocks, read at row 0. -/
theorem pay_apply (x0 : Vec Ideal S5000x128 .f32) (xv xm xg xb : Vec Ideal S1x128 .f32) (p : Fin 5000) (q : Fin 128) :
    k1_pay1 (F := Ideal) x0 xv xm xg xb (ix2 p q)
      = max ((((x0 (ix2 p q) - xm (ix2 (0 : Fin 1) q)) * Ideal.rsqrt (xv (ix2 (0 : Fin 1) q) + Ideal.ofBits .f32 0x3727C5AC#32)) * xg (ix2 (0 : Fin 1) q)) + xb (ix2 (0 : Fin 1) q)) 0 := by
  unfold k1_pay1
  simp only [shapeCast_self]
  rw [maximumf_apply, addf_apply, mulf_apply, mulf_apply, subf_apply,
    broadcastTo_1b_ab_apply, broadcastTo_1b_ab_apply, broadcastTo_1b_ab_apply, broadcastTo_1b_ab_apply, broadcast_apply]
  show max (_ * Ideal.rsqrt (xv (ix2 (0 : Fin 1) q) + Ideal.ofBits .f32 0x3727C5AC#32) * _ + _) (Ideal.ofBits .f32 0x00000000#32) = _
  rw [Ideal.ofBits_zero_f32]

/-- The printed index maps over the ten grid points: the row-blocked windows (input 0, output 5) sit at block row `t`,
    the four per-channel windows at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The region's six arrays as it finds them: the rows to normalise, scale, shift, mean, variance (and the output's). -/
abbrev A (c : Dev nD) (w : Fin cfg1.W) := (dat1 V c).A w

/-- What the output array ends holding: at node `i 0`, channel `i 1`, the normalised, scaled, shifted and clamped
    entry of the input array, with the per-channel operands read off their one-row arrays. -/
def bn (c : Dev nD) : S50000x128.Idx → EReal := fun i =>
  Cert.Spec.bnrelu (Ideal.ofBits .f32 0x3727C5AC#32)
    (fun n j => (V c main_v24_0 : S50000x128.Idx → EReal) (ix2 n j))
    (fun j => (V c main_v38 : S1x128.Idx → EReal) (ix2 (0 : Fin 1) j))
    (fun j => (V c main_v39 : S1x128.Idx → EReal) (ix2 (0 : Fin 1) j))
    (fun j => (V c main_v36 : S1x128.Idx → EReal) (ix2 (0 : Fin 1) j))
    (fun j => (V c main_v37 : S1x128.Idx → EReal) (ix2 (0 : Fin 1) j)) (i 0) (i 1)

/-- WHAT POINT `t` WRITES BACK is block `t` of `bn`: the body's arithmetic at row `p`, channel `q` of the block reads the
    input array at row `5000 t + p` — the output block's own row — and the four one-row arrays at channel `q`. -/
theorem flushed_eq (c : Dev nD) (t : Fin cfg1.N) :
    (dat1 V c).flushed 5 t = ((cfg1.win 5).blk t).view.read (Elt Ideal) (bn V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine (pay_apply (iblk1 V c 0 t) (iblk1 V c 4 t) (iblk1 V c 3 t) (iblk1 V c 1 t) (iblk1 V c 2 t) p q).trans ?_
  have h0 : ((cfg1.win 0).blk t).view.emb (ix2 p q)
      = ix2 ((((cfg1.win 5).blk t).view.emb (ix2 p q)) 0) ((((cfg1.win 5).blk t).view.emb (ix2 p q)) 1) := by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  have h1 : ((cfg1.win 1).blk t).view.emb (ix2 (0 : Fin 1) q)
      = ix2 (0 : Fin 1) ((((cfg1.win 5).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_5.index t (1 : Fin 2) * 128 + 1 * q.val; omega
  have h2 : ((cfg1.win 2).blk t).view.emb (ix2 (0 : Fin 1) q)
      = ix2 (0 : Fin 1) ((((cfg1.win 5).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_5.index t (1 : Fin 2) * 128 + 1 * q.val; omega
  have h3 : ((cfg1.win 3).blk t).view.emb (ix2 (0 : Fin 1) q)
      = ix2 (0 : Fin 1) ((((cfg1.win 5).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  have h4 : ((cfg1.win 4).blk t).view.emb (ix2 (0 : Fin 1) q)
      = ix2 (0 : Fin 1) ((((cfg1.win 5).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  have r0 : iblk1 V c 0 t (ix2 p q) = (V c main_v24_0 : S50000x128.Idx → EReal) _ := congrArg (V c main_v24_0 : S50000x128.Idx → EReal) h0
  have r1 : iblk1 V c 1 t (ix2 (0 : Fin 1) q) = (V c main_v36 : S1x128.Idx → EReal) _ := congrArg (V c main_v36 : S1x128.Idx → EReal) h1
  have r2 : iblk1 V c 2 t (ix2 (0 : Fin 1) q) = (V c main_v37 : S1x128.Idx → EReal) _ := congrArg (V c main_v37 : S1x128.Idx → EReal) h2
  have r3 : iblk1 V c 3 t (ix2 (0 : Fin 1) q) = (V c main_v38 : S1x128.Idx → EReal) _ := congrArg (V c main_v38 : S1x128.Idx → EReal) h3
  have r4 : iblk1 V c 4 t (ix2 (0 : Fin 1) q) = (V c main_v39 : S1x128.Idx → EReal) _ := congrArg (V c main_v39 : S1x128.Idx → EReal) h4
  rw [r0, r1, r2, r3, r4]
  rfl

/-- An index of the output array lies in point `t`'s block iff, on each axis, it lies in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- The ten row blocks tile the output array: row `r` is in the block of point `r / 5000`. -/
theorem cover (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region is `bn` of the arrays the region found. -/
theorem final (c : Dev nD) : (dat1 V c).arrAt 5 cfg1.N = bn V c :=
  (dat1 V c).arrAt_eq_of_cover 5 (bn V c) (fun t _ => flushed_eq V c t) cover

/-- The output array at node `r`, channel `j`, with the region's input arrays named by their buffers. -/
theorem bn_eq_V (c : Dev nD) (r : Fin 50000) (j : Fin 128) :
    ((dat1 V c).arrAt 5 cfg1.N : S50000x128.Idx → EReal) (ix2 r j)
      = Cert.Spec.bnrelu (Ideal.ofBits .f32 0x3727C5AC#32)
      (fun n j => (V c main_v24_0 : S50000x128.Idx → EReal) (ix2 n j))
      (fun j => (V c main_v38 : S1x128.Idx → EReal) (ix2 (0 : Fin 1) j))
      (fun j => (V c main_v39 : S1x128.Idx → EReal) (ix2 (0 : Fin 1) j))
      (fun j => (V c main_v36 : S1x128.Idx → EReal) (ix2 (0 : Fin 1) j))
      (fun j => (V c main_v37 : S1x128.Idx → EReal) (ix2 (0 : Fin 1) j)) r j := by
  rw [final]; rfl

/-- The output array at node `r`, channel `j`, with the region's input arrays named as the proof data's arrays
    (`(dat1 V c).A w`, which is `V c (Pipeline.arrRef spec1 w)`). -/
theorem bn_eq (c : Dev nD) (r : Fin 50000) (j : Fin 128) :
    ((dat1 V c).arrAt 5 cfg1.N : S50000x128.Idx → EReal) (ix2 r j)
      = Cert.Spec.bnrelu (Ideal.ofBits .f32 0x3727C5AC#32)
      (fun n j => ((dat1 V c).A 0 : S50000x128.Idx → EReal) (ix2 n j))
      (fun j => ((dat1 V c).A 3 : S1x128.Idx → EReal) (ix2 (0 : Fin 1) j))
      (fun j => ((dat1 V c).A 4 : S1x128.Idx → EReal) (ix2 (0 : Fin 1) j))
      (fun j => ((dat1 V c).A 1 : S1x128.Idx → EReal) (ix2 (0 : Fin 1) j))
      (fun j => ((dat1 V c).A 2 : S1x128.Idx → EReal) (ix2 (0 : Fin 1) j)) r j :=
  bn_eq_V V c r j

/-- The same with the arrays named through the window table. -/
theorem bn_eq_ref (c : Dev nD) (r : Fin 50000) (j : Fin 128) :
    ((dat1 V c).arrAt 5 cfg1.N : S50000x128.Idx → EReal) (ix2 r j)
      = Cert.Spec.bnrelu (Ideal.ofBits .f32 0x3727C5AC#32)
      (fun n j => (V c (Pipeline.arrRef spec1 0) : S50000x128.Idx → EReal) (ix2 n j))
      (fun j => (V c (Pipeline.arrRef spec1 3) : S1x128.Idx → EReal) (ix2 (0 : Fin 1) j))
      (fun j => (V c (Pipeline.arrRef spec1 4) : S1x128.Idx → EReal) (ix2 (0 : Fin 1) j))
      (fun j => (V c (Pipeline.arrRef spec1 1) : S1x128.Idx → EReal) (ix2 (0 : Fin 1) j))
      (fun j => (V c (Pipeline.arrRef spec1 2) : S1x128.Idx → EReal) (ix2 (0 : Fin 1) j)) r j :=
  bn_eq_V V c r j

end Cert.KernelIdeal.BnValue1

end
-- ==== Proof.Consts.lean ====
/-
  The float literals the two programs spell, as the extended reals their words denote: the node count
  50000, and the small positive number added to a variance before the inverse square root.
-/
import Idealize.ShloMosaic.PureOps.Ideal

noncomputable section

namespace Cert.Consts

open Idealize.ShloMosaic

/-- The word of `50000.0` denotes the real 50000. -/
theorem ofBits_50000 : Ideal.ofBits .f32 0x47435000#32 = ((50000 : ℝ) : EReal) := by
  simp [Ideal.ofBits, Ideal.ieee, -EReal.coe_mul]; norm_num

/-- The word of the single-precision number nearest `1e-5` denotes the real 10995116 · 2⁻⁴⁰. -/
theorem ofBits_eps : Ideal.ofBits .f32 0x3727C5AC#32 = ((10995116 * (2 : ℝ) ^ (-40 : ℤ) : ℝ) : EReal) := by
  simp [Ideal.ofBits, Ideal.ieee, -EReal.coe_mul]

theorem eps_pos : (0 : ℝ) < 10995116 * (2 : ℝ) ^ (-40 : ℤ) := by positivity

end Cert.Consts

end
-- ==== Proof.KernelValue0.lean ====
/-
  The first layer of the idealized kernel program, read off its run: the arrays its first region finds,
  what that region leaves, the statistics the host takes of it, and what the normalising region leaves.
-/
import proofs.«122408_j28759101014107_2_alg».proof.Proof.StagesK
import proofs.«122408_j28759101014107_2_alg».proof.Proof.LinValue0
import proofs.«122408_j28759101014107_2_alg».proof.Proof.BnValue1
import proofs.«122408_j28759101014107_2_alg».proof.Proof.Consts
import Idealize.ShloMosaic.Lib.ValueLayout
import Idealize.ShloMosaic.Lib.Pipeline.Value

noncomputable section

namespace Cert.KernelIdeal.KVal

open Idealize.ShloMosaic Idealize.ShloMosaic.TcCoe Idealize.SL.Sem Idealize.ShloMosaic.StableHlo
open Idealize.ShloMosaic.ValueIdx
open Cert.KernelIdeal Cert.KernelIdeal.Gen Cert.Alg Cert.Spec

variable (m : (ℓ : Loc nD τ sig) → Buf (Elt Ideal) ℓ) (ρ : Dev nD → PrngReg) (c : Dev nD)

/-! ## What the first linear region finds -/

theorem E1_agg : W1 m ρ c (Proc.devRef .tc main_v20)
    = aggA (m ((c : Thread nD τ).loc main_arg1)) (m ((c : Thread nD τ).loc main_arg0)) := by
  dsimp only [W1, hostOps0]
  after_results_simp
  try rfl

theorem E1_deg : W1 m ρ c (Proc.devRef .tc main_v10)
    = fun i => shapeCast S50000x1 (degA (m ((c : Thread nD τ).loc main_arg1))) Facts₀.shapeCasts_S50000_S50000x1 i := by
  dsimp only [W1, hostOps0]
  after_results_simp
  try rfl

theorem E1_wl : W1 m ρ c (Proc.devRef .tc main_v21)
    = transpose S128x128 [1, 0] (m ((c : Thread nD τ).loc main_arg2)) Facts₀.transposes_S128x128_S128x128_1_0 := by
  dsimp only [W1, hostOps0]
  after_results_simp
  try rfl

theorem E1_wr : W1 m ρ c (Proc.devRef .tc main_v22)
    = transpose S128x128 [1, 0] (m ((c : Thread nD τ).loc main_arg3)) Facts₀.transposes_S128x128_S128x128_1_0 := by
  dsimp only [W1, hostOps0]
  after_results_simp
  try rfl

theorem E1_b : W1 m ρ c (Proc.devRef .tc main_v23)
    = fun i => shapeCast S1x128 (m ((c : Thread nD τ).loc main_arg4)) Facts₀.shapeCasts_S128_S1x128 i := by
  dsimp only [W1, hostOps0]
  after_results_simp
  try rfl

theorem E1_x : W1 m ρ c (Proc.devRef .tc main_arg0) = m ((c : Thread nD τ).loc main_arg0) := by
  dsimp only [W1, hostOps0]
  after_results_simp
  try rfl

/-! ## Small layout readings -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The first linear region's operands and value -/

/-- The edge list. -/
abbrev eK : IVec S2x1600000 32 := m ((c : Thread nD τ).loc main_arg1)
/-- The node features. -/
abbrev xK : S50000x128.Idx → EReal := m ((c : Thread nD τ).loc main_arg0)

theorem hA0_0 : (fun r k => (dat0 (V1 m ρ) c).A 0 (ix2 r k)) = aggOpK (eK m c) (cur (xK m c)) := by
  funext r k
  show (dat0 (V1 m ρ) c).A 0 (ix2 r k) = aggA (eK m c) (unc (cur (xK m c))) (ix2 r k)
  rw [unc_cur]
  exact congrFun ((A_eq0 (V1 m ρ) c 0).trans (E1_agg m ρ c)) (ix2 r k)

theorem hA0_1 : (fun r k => (dat0 (V1 m ρ) c).A 1 (ix2 r k)) = cur (xK m c) := by
  funext r k
  exact congrFun ((A_eq0 (V1 m ρ) c 1).trans (E1_x m ρ c)) (ix2 r k)

theorem hA0_2 : (fun r => (dat0 (V1 m ρ) c).A 2 (ix2 r 0)) = degsK (eK m c) := by
  funext r
  exact (congrFun ((A_eq0 (V1 m ρ) c 2).trans (E1_deg m ρ c)) (ix2 r 0)).trans
    (shapeCast_a_a1_apply (degA (eK m c)) _ r 0)

theorem hA0_3 : (fun j k => (dat0 (V1 m ρ) c).A 3 (ix2 k j))
    = fun j k => (m ((c : Thread nD τ).loc main_arg2) : S128x128.Idx → EReal) (ix2 j k) := by
  funext j k
  exact (congrFun ((A_eq0 (V1 m ρ) c 3).trans (E1_wl m ρ c)) (ix2 k j)).trans
    (transpose_ix2_apply (m ((c : Thread nD τ).loc main_arg2) : S128x128.Idx → EReal) _ k j)

theorem hA0_4 : (fun j k => (dat0 (V1 m ρ) c).A 4 (ix2 k j))
    = fun j k => (m ((c : Thread nD τ).loc main_arg3) : S128x128.Idx → EReal) (ix2 j k) := by
  funext j k
  exact (congrFun ((A_eq0 (V1 m ρ) c 4).trans (E1_wr m ρ c)) (ix2 k j)).trans
    (transpose_ix2_apply (m ((c : Thread nD τ).loc main_arg3) : S128x128.Idx → EReal) _ k j)

theorem hA0_5 : (fun j => (dat0 (V1 m ρ) c).A 5 (ix2 0 j))
    = fun j => (m ((c : Thread nD τ).loc main_arg4) : S128.Idx → EReal) (ix1 j) := by
  funext j
  exact (congrFun ((A_eq0 (V1 m ρ) c 5).trans (E1_b m ρ c)) (ix2 0 j)).trans
    (shapeCast_a_1a_apply (m ((c : Thread nD τ).loc main_arg4) : S128.Idx → EReal) _ 0 j)

/-- The first layer's linear part, as the first region leaves it. -/
def lin0 : Fin 50000 → Fin 128 → EReal :=
  lin (aggOpK (eK m c) (cur (xK m c))) (cur (xK m c)) (degsK (eK m c))
    (fun j k => (m ((c : Thread nD τ).loc main_arg2) : S128x128.Idx → EReal) (ix2 j k))
    (fun j k => (m ((c : Thread nD τ).loc main_arg3) : S128x128.Idx → EReal) (ix2 j k))
    (fun j => (m ((c : Thread nD τ).loc main_arg4) : S128.Idx → EReal) (ix1 j))

theorem L0 : (dat0 (V1 m ρ) c).arrAt 6 cfg0.N = unc (lin0 m c) := by
  funext i
  obtain ⟨r, j, rfl⟩ : ∃ (r : Fin 50000) (j : Fin 128), i = ix2 r j := ⟨i 0, i 1, eq_ix2 i⟩
  rw [Cert.KernelIdeal.LinValue0.lin_eq, hA0_0, hA0_1, hA0_2, hA0_3, hA0_4, hA0_5]
  rfl

/-! ## The statistics the host takes of the first linear part -/

/-- A `[128]` row broadcast to `[1, 128]` reads, at `(u, j)`, the operand at `j`. -/
theorem bcast_row_apply {α : Type} (x : S128.Idx → α) (h : S128.BroadcastsInDim S1x128 ![1]) (u : Fin 1) (j : Fin 128) :
    broadcastInDim S1x128 ![1] h x (ix2 u j) = x (ix1 j) :=
  broadcastInDim_apply _ h x _ _ fun a => match a with | ⟨0, _⟩ => rfl

/-- A `[1, 128]` quotient by a broadcast scalar, cast to `[128]` and back, read at channel `j`. -/
theorem mean_read (s : S1x128.Idx → EReal) (hb : S_.BroadcastsInDim S1x128 ![]) (h1 : S1x128.ShapeCasts S128)
    (h2 : S128.ShapeCasts S1x128) (w : BitVec 32) (j : Fin 128) :
    shapeCast S1x128 (fun i => shapeCast S128 (Host.divf s (broadcastInDim S1x128 ![] hb (constant (F := Ideal) S_ FTy.f32 w))) h1 i) h2
        (ix2 (0 : Fin 1) j)
      = Ideal.div (s (ix2 (0 : Fin 1) j)) (Ideal.ofBits .f32 w) := by
  rw [shapeCast_a_1a_apply, shapeCast_1a_a_apply]
  show Ideal.div (s (ix2 (0 : Fin 1) j)) (broadcastInDim S1x128 ![] hb (constant (F := Ideal) S_ FTy.f32 w) (ix2 (0 : Fin 1) j)) = _
  rw [bcast_const_apply]

/-- The clamped moment form of the variance, as the host computes it, read at channel `j`. -/
theorem var_read (s ss : S1x128.Idx → EReal) (hb : S_.BroadcastsInDim S1x128 ![]) (h1 : S1x128.ShapeCasts S128)
    (h2 : S128.ShapeCasts S1x128) (hr : S128.BroadcastsInDim S1x128 ![1]) (w z : BitVec 32) (j : Fin 128) :
    shapeCast S1x128 (fun i => shapeCast S128
        (maximumf
          (subf (Host.divf ss (broadcastInDim S1x128 ![] hb (constant (F := Ideal) S_ FTy.f32 w)))
            (broadcastInDim S1x128 ![1] hr
              (mulf
                (fun i => shapeCast S128 (Host.divf s (broadcastInDim S1x128 ![] hb (constant (F := Ideal) S_ FTy.f32 w))) h1 i)
                fun i => shapeCast S128 (Host.divf s (broadcastInDim S1x128 ![] hb (constant (F := Ideal) S_ FTy.f32 w))) h1 i)))
          (broadcastInDim S1x128 ![] hb (constant (F := Ideal) S_ FTy.f32 z))) h1 i) h2
        (ix2 (0 : Fin 1) j)
      = max (Ideal.div (ss (ix2 (0 : Fin 1) j)) (Ideal.ofBits .f32 w)
            - Ideal.div (s (ix2 (0 : Fin 1) j)) (Ideal.ofBits .f32 w) * Ideal.div (s (ix2 (0 : Fin 1) j)) (Ideal.ofBits .f32 w))
          (Ideal.ofBits .f32 z) := by
  rw [shapeCast_a_1a_apply, shapeCast_1a_a_apply, maximumf_apply, subf_apply, bcast_const_apply, bcast_row_apply, mulf_apply,
    shapeCast_1a_a_apply]
  show max (Ideal.div (ss (ix2 (0 : Fin 1) j)) (broadcastInDim S1x128 ![] hb (constant (F := Ideal) S_ FTy.f32 w) (ix2 (0 : Fin 1) j))
      - Ideal.div (s (ix2 (0 : Fin 1) j)) (broadcastInDim S1x128 ![] hb (constant (F := Ideal) S_ FTy.f32 w) (ix2 (0 : Fin 1) j))
        * Ideal.div (s (ix2 (0 : Fin 1) j)) (broadcastInDim S1x128 ![] hb (constant (F := Ideal) S_ FTy.f32 w) (ix2 (0 : Fin 1) j))) _ = _
  rw [bcast_const_apply]

theorem W2_lin : W2 m ρ c (Proc.devRef .tc main_v24_0) = unc (lin0 m c) :=
  (W2_arr m ρ c 6).trans (L0 m ρ c)

theorem W2_sum (j : Fin 128) :
    (W2 m ρ c (Proc.devRef .tc main_v24_1) : S1x128.Idx → EReal) (ix2 (0 : Fin 1) j) = colSum (lin0 m c) j :=
  (congrFun (W2_arr m ρ c 7) (ix2 (0 : Fin 1) j)).trans
    ((Cert.KernelIdeal.LinValue0.sum_eq (V1 m ρ) c j).trans (by rw [L0 m ρ c]; rfl))

theorem W2_sumsq (j : Fin 128) :
    (W2 m ρ c (Proc.devRef .tc main_v24_2) : S1x128.Idx → EReal) (ix2 (0 : Fin 1) j) = colSumSq (lin0 m c) j :=
  (congrFun (W2_arr m ρ c 8) (ix2 (0 : Fin 1) j)).trans
    ((Cert.KernelIdeal.LinValue0.sumsq_eq (V1 m ρ) c j).trans (by rw [L0 m ρ c]; rfl))

/-! ## What the first normalising region finds, and leaves -/

theorem E3_mu : (W3 m ρ c (Proc.devRef .tc main_v38) : S1x128.Idx → EReal)
    = shapeCast S1x128 (fun i => shapeCast S128
        (Host.divf (F := Ideal) (φ := .f32) (W2 m ρ c (Proc.devRef .tc main_v24_1) : S1x128.Idx → EReal)
          (broadcastInDim S1x128 ![] Facts₀.bcast_S_S1x128 (constant (F := Ideal) S_ FTy.f32 1195593728#32)))
        Facts₀.shapeCasts_S1x128_S128 i) Facts₀.shapeCasts_S128_S1x128 := by
  dsimp only [W3, hostOps1]
  after_results_simp
  try rfl

theorem E3_var : (W3 m ρ c (Proc.devRef .tc main_v39) : S1x128.Idx → EReal)
    = shapeCast S1x128 (fun i => shapeCast S128
        (maximumf (F := Ideal) (φ := .f32)
          (subf (Host.divf (W2 m ρ c (Proc.devRef .tc main_v24_2) : S1x128.Idx → EReal)
              (broadcastInDim S1x128 ![] Facts₀.bcast_S_S1x128 (constant (F := Ideal) S_ FTy.f32 1195593728#32)))
            (broadcastInDim S1x128 ![1] Facts₀.bcast_S128_S1x128_1
              (mulf
                (fun i => shapeCast S128 (Host.divf (F := Ideal) (φ := .f32) (W2 m ρ c (Proc.devRef .tc main_v24_1) : S1x128.Idx → EReal)
                  (broadcastInDim S1x128 ![] Facts₀.bcast_S_S1x128 (constant (F := Ideal) S_ FTy.f32 1195593728#32))) Facts₀.shapeCasts_S1x128_S128 i)
                fun i => shapeCast S128 (Host.divf (F := Ideal) (φ := .f32) (W2 m ρ c (Proc.devRef .tc main_v24_1) : S1x128.Idx → EReal)
                  (broadcastInDim S1x128 ![] Facts₀.bcast_S_S1x128 (constant (F := Ideal) S_ FTy.f32 1195593728#32))) Facts₀.shapeCasts_S1x128_S128 i)))
          (broadcastInDim S1x128 ![] Facts₀.bcast_S_S1x128 (constant (F := Ideal) S_ FTy.f32 0#32)))
        Facts₀.shapeCasts_S1x128_S128 i) Facts₀.shapeCasts_S128_S1x128 := by
  dsimp only [W3, hostOps1]
  after_results_simp
  try rfl

theorem W2_arg5 : W2 m ρ c (Proc.devRef .tc main_arg5) = m ((c : Thread nD τ).loc main_arg5) :=
  (W2_of_ne m ρ c main_arg5 (by decide)).trans (by dsimp only [W1, hostOps0]; after_results_simp; try rfl)

theorem W2_arg6 : W2 m ρ c (Proc.devRef .tc main_arg6) = m ((c : Thread nD τ).loc main_arg6) :=
  (W2_of_ne m ρ c main_arg6 (by decide)).trans (by dsimp only [W1, hostOps0]; after_results_simp; try rfl)

theorem E3_g : W3 m ρ c (Proc.devRef .tc main_v36)
    = shapeCast S1x128 (m ((c : Thread nD τ).loc main_arg5) : S128.Idx → EReal) Facts₀.shapeCasts_S128_S1x128 := by
  rw [← W2_arg5 m ρ c]
  dsimp only [W3, hostOps1]
  after_results_simp
  try rfl

theorem E3_be : W3 m ρ c (Proc.devRef .tc main_v37)
    = shapeCast S1x128 (m ((c : Thread nD τ).loc main_arg6) : S128.Idx → EReal) Facts₀.shapeCasts_S128_S1x128 := by
  rw [← W2_arg6 m ρ c]
  dsimp only [W3, hostOps1]
  after_results_simp
  try rfl

theorem E3_lin : W3 m ρ c (Proc.devRef .tc main_v24_0) = unc (lin0 m c) := by
  rw [← W2_lin m ρ c]
  dsimp only [W3, hostOps1]
  after_results_simp
  try rfl

/-- The word of the node count. -/
abbrev Nw : EReal := Ideal.ofBits .f32 1195593728#32
/-- The word of the small number added to the variance. -/
abbrev epsw : EReal := Ideal.ofBits .f32 0x3727C5AC#32

/-- The first hidden layer, as the first normalising region leaves it. -/
def h0 : Fin 50000 → Fin 128 → EReal :=
  layer varMoments Nw epsw (aggOpK (eK m c) (cur (xK m c))) (cur (xK m c)) (degsK (eK m c))
    (fun j k => (m ((c : Thread nD τ).loc main_arg2) : S128x128.Idx → EReal) (ix2 j k))
    (fun j k => (m ((c : Thread nD τ).loc main_arg3) : S128x128.Idx → EReal) (ix2 j k))
    (fun j => (m ((c : Thread nD τ).loc main_arg4) : S128.Idx → EReal) (ix1 j))
    (fun j => (m ((c : Thread nD τ).loc main_arg5) : S128.Idx → EReal) (ix1 j))
    (fun j => (m ((c : Thread nD τ).loc main_arg6) : S128.Idx → EReal) (ix1 j))

theorem hB0 : (fun n j => (V3 m ρ c main_v24_0 : S50000x128.Idx → EReal) (ix2 n j)) = lin0 m c := by
  funext n j
  exact congrFun (E3_lin m ρ c) (ix2 n j)

theorem hB3 : (fun j => (V3 m ρ c main_v38 : S1x128.Idx → EReal) (ix2 (0 : Fin 1) j)) = mean Nw (lin0 m c) := by
  funext j
  refine (congrFun (E3_mu m ρ c) (ix2 (0 : Fin 1) j)).trans ((mean_read _ _ _ _ _ j).trans ?_)
  unfold mean
  rw [W2_sum m ρ c j]

theorem hB4 : (fun j => (V3 m ρ c main_v39 : S1x128.Idx → EReal) (ix2 (0 : Fin 1) j)) = varMoments Nw (lin0 m c) := by
  funext j
  refine (congrFun (E3_var m ρ c) (ix2 (0 : Fin 1) j)).trans ((var_read _ _ _ _ _ _ _ _ j).trans ?_)
  unfold varMoments mean
  rw [W2_sum m ρ c j, W2_sumsq m ρ c j, Ideal.ofBits_zero_f32]

theorem hB1 : (fun j => (V3 m ρ c main_v36 : S1x128.Idx → EReal) (ix2 (0 : Fin 1) j))
    = fun j => (m ((c : Thread nD τ).loc main_arg5) : S128.Idx → EReal) (ix1 j) := by
  funext j
  exact (congrFun (E3_g m ρ c) (ix2 (0 : Fin 1) j)).trans (shapeCast_a_1a_apply _ _ 0 j)

theorem hB2 : (fun j => (V3 m ρ c main_v37 : S1x128.Idx → EReal) (ix2 (0 : Fin 1) j))
    = fun j => (m ((c : Thread nD τ).loc main_arg6) : S128.Idx → EReal) (ix1 j) := by
  funext j
  exact (congrFun (E3_be m ρ c) (ix2 (0 : Fin 1) j)).trans (shapeCast_a_1a_apply _ _ 0 j)

theorem layer0 : W4 m ρ c (Proc.devRef .tc main_v40) = unc (h0 m c) := by
  refine (W4_arr m ρ c 5).trans ((Cert.KernelIdeal.BnValue1.final (V3 m ρ) c).trans ?_)
  unfold Cert.KernelIdeal.BnValue1.bn
  rw [hB0 m ρ c, hB3 m ρ c, hB4 m ρ c, hB1 m ρ c, hB2 m ρ c]
  rfl

end Cert.KernelIdeal.KVal

end
-- ==== Proof.KernelCarry.lean ====
/-
  Buffers the idealized kernel program computes once and carries through its run.

  The first host stretch slices the edge list into its source and destination rows and forms the clamped degree
  column; every later gather, scatter and linear region reads them again, and each layer's weights are read by the host
  stretch before that layer. No region writes them back and no later host operation writes them, so at every later
  boundary of the run they still hold what the first stretch (or the launch) put there. This module walks each of them
  back, boundary by boundary.
-/
import proofs.«122408_j28759101014107_2_alg».proof.Proof.StagesK

set_option maxRecDepth 16384

noncomputable section

namespace Cert.KernelIdeal.KVal.Carry

open Idealize.ShloMosaic Idealize.ShloMosaic.TcCoe Idealize.SL.Sem Idealize.ShloMosaic.StableHlo
open Idealize.ShloMosaic.ValueIdx
open Cert.KernelIdeal Cert.KernelIdeal.Gen Cert.KernelIdeal.KVal

variable (m : (ℓ : Loc nD τ sig) → Buf (Elt Ideal) ℓ) (ρ : Dev nD → PrngReg) (c : Dev nD)

/-- A stretch of host operations leaves a buffer none of them writes as it was. -/
macro "host_keeps" : tactic => `(tactic| (
  refine StableHlo.after_of_forall_not_mem _ _ (List.forall_iff_forall_mem.mp ?_)
  simp only [hostOps0, hostOps1, hostOps2, hostOps3, hostOps4, hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## What the first host stretch makes -/

/-- The source row of the edge list. -/
theorem W1_v1 : W1 m ρ c (Proc.devRef .tc main_v1) = srcL (m ((c : Thread nD τ).loc main_arg1)) := by
  dsimp only [W1, hostOps0]
  after_results_simp
  try rfl

/-- The destination row of the edge list. -/
theorem W1_v3 : W1 m ρ c (Proc.devRef .tc main_v3)
    = fun i => shapeCast S1600000 (extractStridedSlice S1x1600000 ![1, 0] (m ((c : Thread nD τ).loc main_arg1)) Facts₀.slices_S2x1600000_S1x1600000_1_0)
        Facts₀.shapeCasts_S1x1600000_S1600000 i := by
  dsimp only [W1, hostOps0]
  after_results_simp
  try rfl

/-- The clamped degree as a column. -/
theorem W1_v10 : W1 m ρ c (Proc.devRef .tc main_v10)
    = fun i => shapeCast S50000x1 (degA (m ((c : Thread nD τ).loc main_arg1))) Facts₀.shapeCasts_S50000_S50000x1 i := by
  dsimp only [W1, hostOps0]
  after_results_simp
  try rfl

/-! ## The same buffers at the later boundaries -/

theorem W4_v1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keeps
    _ = W1 m ρ c (Proc.devRef .tc main_v1) := W2_of_ne m ρ c main_v1 (by decide)

theorem W4_v3 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keeps
    _ = W1 m ρ c (Proc.devRef .tc main_v3) := W2_of_ne m ρ c main_v3 (by decide)

theorem W5_v10 : W5 m ρ c (Proc.devRef .tc main_v10) = W1 m ρ c (Proc.devRef .tc main_v10) :=
  calc W5 m ρ c (Proc.devRef .tc main_v10)
    _ = W4 m ρ c (Proc.devRef .tc main_v10) := by host_keeps
    _ = W3 m ρ c (Proc.devRef .tc main_v10) := W4_of_ne m ρ c main_v10 (by decide)
    _ = W2 m ρ c (Proc.devRef .tc main_v10) := by host_keeps
    _ = W1 m ρ c (Proc.devRef .tc main_v10) := (W2_arr m ρ c 2).trans (((dat0 (V1 m ρ) c).arrAt_in 2 rfl _).trans (A_eq0 (V1 m ρ) c 2))

theorem W8_v1 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keeps
    _ = W5 m ρ c (Proc.devRef .tc main_v1) := W6_of_ne m ρ c main_v1 (by decide)
    _ = W4 m ρ c (Proc.devRef .tc main_v1) := by host_keeps
    _ = W3 m ρ c (Proc.devRef .tc main_v1) := W4_of_ne m ρ c main_v1 (by decide)
    _ = W2 m ρ c (Proc.devRef .tc main_v1) := by host_keeps
    _ = W1 m ρ c (Proc.devRef .tc main_v1) := W2_of_ne m ρ c main_v1 (by decide)

theorem W8_v3 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keeps
    _ = W5 m ρ c (Proc.devRef .tc main_v3) := W6_of_ne m ρ c main_v3 (by decide)
    _ = W4 m ρ c (Proc.devRef .tc main_v3) := by host_keeps
    _ = W3 m ρ c (Proc.devRef .tc main_v3) := W4_of_ne m ρ c main_v3 (by decide)
    _ = W2 m ρ c (Proc.devRef .tc main_v3) := by host_keeps
    _ = W1 m ρ c (Proc.devRef .tc main_v3) := W2_of_ne m ρ c main_v3 (by decide)

theorem W9_v10 : W9 m ρ c (Proc.devRef .tc main_v10) = W1 m ρ c (Proc.devRef .tc main_v10) :=
  calc W9 m ρ c (Proc.devRef .tc main_v10)
    _ = W8 m ρ c (Proc.devRef .tc main_v10) := by host_keeps
    _ = W7 m ρ c (Proc.devRef .tc main_v10) := W8_of_ne m ρ c main_v10 (by decide)
    _ = W6 m ρ c (Proc.devRef .tc main_v10) := by host_keeps
    _ = W5 m ρ c (Proc.devRef .tc main_v10) := (W6_arr m ρ c 2).trans (((dat2 (V5 m ρ) c).arrAt_in 2 rfl _).trans (A_eq2 (V5 m ρ) c 2))
    _ = W4 m ρ c (Proc.devRef .tc main_v10) := by host_keeps
    _ = W3 m ρ c (Proc.devRef .tc main_v10) := W4_of_ne m ρ c main_v10 (by decide)
    _ = W2 m ρ c (Proc.devRef .tc main_v10) := by host_keeps
    _ = W1 m ρ c (Proc.devRef .tc main_v10) := (W2_arr m ρ c 2).trans (((dat0 (V1 m ρ) c).arrAt_in 2 rfl _).trans (A_eq0 (V1 m ρ) c 2))

/-- The clamped degree column as the second linear region finds it. -/
theorem W5_deg : W5 m ρ c (Proc.devRef .tc main_v10)
    = fun i => shapeCast S50000x1 (degA (m ((c : Thread nD τ).loc main_arg1))) Facts₀.shapeCasts_S50000_S50000x1 i :=
  (W5_v10 m ρ c).trans (W1_v10 m ρ c)

/-- The clamped degree column as the third linear region finds it. -/
theorem W9_deg : W9 m ρ c (Proc.devRef .tc main_v10)
    = fun i => shapeCast S50000x1 (degA (m ((c : Thread nD τ).loc main_arg1))) Facts₀.shapeCasts_S50000_S50000x1 i :=
  (W9_v10 m ρ c).trans (W1_v10 m ρ c)

/-! ## The weight arguments where their layer's host stretch reads them -/

theorem W4_arg7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by host_keeps
    _ = W1 m ρ c (Proc.devRef .tc main_arg7) := W2_of_ne m ρ c main_arg7 (by decide)
    _ = W0 m ρ c (Proc.devRef .tc main_arg7) := by host_keeps
    _ = m ((c : Thread nD τ).loc main_arg7) := rfl

theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keeps
    _ = W1 m ρ c (Proc.devRef .tc main_arg8) := W2_of_ne m ρ c main_arg8 (by decide)
    _ = W0 m ρ c (Proc.devRef .tc main_arg8) := by host_keeps
    _ = m ((c : Thread nD τ).loc main_arg8) := rfl

theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keeps
    _ = W1 m ρ c (Proc.devRef .tc main_arg9) := W2_of_ne m ρ c main_arg9 (by decide)
    _ = W0 m ρ c (Proc.devRef .tc main_arg9) := by host_keeps
    _ = m ((c : Thread nD τ).loc main_arg9) := rfl

theorem W6_arg10 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by host_keeps
    _ = W3 m ρ c (Proc.devRef .tc main_arg10) := W4_of_ne m ρ c main_arg10 (by decide)
    _ = W2 m ρ c (Proc.devRef .tc main_arg10) := by host_keeps
    _ = W1 m ρ c (Proc.devRef .tc main_arg10) := W2_of_ne m ρ c main_arg10 (by decide)
    _ = W0 m ρ c (Proc.devRef .tc main_arg10) := by host_keeps
    _ = m ((c : Thread nD τ).loc main_arg10) := rfl

theorem W6_arg11 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by host_keeps
    _ = W3 m ρ c (Proc.devRef .tc main_arg11) := W4_of_ne m ρ c main_arg11 (by decide)
    _ = W2 m ρ c (Proc.devRef .tc main_arg11) := by host_keeps
    _ = W1 m ρ c (Proc.devRef .tc main_arg11) := W2_of_ne m ρ c main_arg11 (by decide)
    _ = W0 m ρ c (Proc.devRef .tc main_arg11) := by host_keeps
    _ = m ((c : Thread nD τ).loc main_arg11) := rfl

theorem W8_arg12 : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := by host_keeps
    _ = W5 m ρ c (Proc.devRef .tc main_arg12) := W6_of_ne m ρ c main_arg12 (by decide)
    _ = W4 m ρ c (Proc.devRef .tc main_arg12) := by host_keeps
    _ = W3 m ρ c (Proc.devRef .tc main_arg12) := W4_of_ne m ρ c main_arg12 (by decide)
    _ = W2 m ρ c (Proc.devRef .tc main_arg12) := by host_keeps
    _ = W1 m ρ c (Proc.devRef .tc main_arg12) := W2_of_ne m ρ c main_arg12 (by decide)
    _ = W0 m ρ c (Proc.devRef .tc main_arg12) := by host_keeps
    _ = m ((c : Thread nD τ).loc main_arg12) := rfl

theorem W8_arg13 : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := by host_keeps
    _ = W5 m ρ c (Proc.devRef .tc main_arg13) := W6_of_ne m ρ c main_arg13 (by decide)
    _ = W4 m ρ c (Proc.devRef .tc main_arg13) := by host_keeps
    _ = W3 m ρ c (Proc.devRef .tc main_arg13) := W4_of_ne m ρ c main_arg13 (by decide)
    _ = W2 m ρ c (Proc.devRef .tc main_arg13) := by host_keeps
    _ = W1 m ρ c (Proc.devRef .tc main_arg13) := W2_of_ne m ρ c main_arg13 (by decide)
    _ = W0 m ρ c (Proc.devRef .tc main_arg13) := by host_keeps
    _ = m ((c : Thread nD τ).loc main_arg13) := rfl

theorem W8_arg14 : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := by host_keeps
    _ = W5 m ρ c (Proc.devRef .tc main_arg14) := W6_of_ne m ρ c main_arg14 (by decide)
    _ = W4 m ρ c (Proc.devRef .tc main_arg14) := by host_keeps
    _ = W3 m ρ c (Proc.devRef .tc main_arg14) := W4_of_ne m ρ c main_arg14 (by decide)
    _ = W2 m ρ c (Proc.devRef .tc main_arg14) := by host_keeps
    _ = W1 m ρ c (Proc.devRef .tc main_arg14) := W2_of_ne m ρ c main_arg14 (by decide)
    _ = W0 m ρ c (Proc.devRef .tc main_arg14) := by host_keeps
    _ = m ((c : Thread nD τ).loc main_arg14) := rfl

end Cert.KernelIdeal.KVal.Carry

end
-- ==== Proof.LinPay2.lean ====
/-
  The arithmetic of the fused linear layer's body (second layer), read entry by entry over the extended reals.

  The body receives a block of 5000 rows: the neighbour sums `x0`, the rows' own features `x1`, the clamped
  in-degrees `x2` (one column), the two weight matrices `x3`, `x4` indexed (input channel, output channel), and
  the bias row `x5`. It stores three things: the linear layer's block (`pay4_apply`), and into two [1,128]
  accumulators the block's column sums (`pay5_apply`) and column sums of squares (`pay1_apply`), each added to
  what the accumulator held; at the first grid point the accumulators are first set to zero (`pay2_apply`,
  `pay3_apply`). Changes of float format are the identity on extended reals, a matrix product into a zero
  accumulator is the sum over the contracted channel, and a reduction along the rows is the sum over the rows.
-/
import proofs.«122408_j28759101014107_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.LinPay2

open Idealize.ShloMosaic Idealize.ShloMosaic.ValueIdx
open Cert.KernelIdeal Cert.KernelIdeal.Gen

/-- The dimension numbers of the body's two matrix products: rows of the left operand against columns of the right. -/
abbrev D0 : DotDims S5000x128 S128x128 S5000x128 := dot_S5000x128_S128x128_S5000x128_1_0_0_1_n_n

theorem lhs0 (i : S5000x128.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem lhs1 (i : S5000x128.Idx) (q : D0.contr.Idx) : (D0.lhsIdx i q 1).val = (q ⟨0, by decide⟩).val :=
  D0.lhsIdx_val_of_single rfl i q
theorem rhs0 (i : S5000x128.Idx) (q : D0.contr.Idx) : (D0.rhsIdx i q 0).val = (q ⟨0, by decide⟩).val :=
  D0.rhsIdx_val_of_single rfl i q
theorem rhs1 (i : S5000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- A matrix product into the zero accumulator, at row `r` and column `j`: the sum over the 128 contracted
    channels of the row's entries times the column's. -/
theorem matmul_at (a : FVec Ideal S5000x128 .bf16) (b : FVec Ideal S128x128 .bf16) (r : Fin 5000) (j : Fin 128) :
    matmul D0 none a b (constant (F := Ideal) S5000x128 .f32 0x00000000#32) (ix2 r j)
      = ∑ k : Fin 128, a (ix2 r k) * b (ix2 k j) := by
  refine (Ideal.matmul_constant_zero_apply D0 none a b (ix2 r j)).trans ?_
  rw [← Equiv.sum_comp (contrEquiv1 D0 128 rfl rfl).symm]
  refine Finset.sum_congr rfl fun k _ => ?_
  have hk := contrEquiv1_symm_val D0 128 rfl rfl k
  have el : D0.lhsIdx (ix2 r j) ((contrEquiv1 D0 128 rfl rfl).symm k) = ix2 r k := funext fun a => Fin.ext (by
    match a with
    | ⟨0, _⟩ => exact lhs0 _ _
    | ⟨1, _⟩ => exact (lhs1 _ _).trans hk)
  have er : D0.rhsIdx (ix2 r j) ((contrEquiv1 D0 128 rfl rfl).symm k) = ix2 k j := funext fun a => Fin.ext (by
    match a with
    | ⟨0, _⟩ => exact (rhs0 _ _).trans hk
    | ⟨1, _⟩ => exact rhs1 _ _)
  rw [el, er]

/-- The degree column broadcast along the channels reads, at row `r` and any channel, the row's degree. -/
theorem bcast_col (x : FVec Ideal S5000x1 .f32) (r : Fin 5000) (k : Fin 128) :
    broadcastTo S5000x128 x broadcasts_S5000x1_S5000x128 (ix2 r k) = x (ix2 r 0) :=
  broadcastTo_apply x broadcasts_S5000x1_S5000x128 (ix2 r k) (ix2 r 0) fun a => by
    match a with
    | ⟨0, _⟩ => rfl
    | ⟨1, _⟩ => rfl

/-- The bias row broadcast along the rows reads, at any row and channel `j`, the bias of channel `j`. -/
theorem bcast_row (x : FVec Ideal S1x128 .f32) (r : Fin 5000) (j : Fin 128) :
    broadcastTo S5000x128 x broadcasts_S1x128_S5000x128 (ix2 r j) = x (ix2 0 j) :=
  broadcastTo_apply x broadcasts_S1x128_S5000x128 (ix2 r j) (ix2 0 j) fun a => by
    match a with
    | ⟨0, _⟩ => rfl
    | ⟨1, _⟩ => rfl

/-- The sum over the block's 5000 rows of a [5000,128] vector, at channel `j`. -/
theorem colsum_at (src : FVec Ideal S5000x128 .f32) (j : Fin 128) :
    multiReduction .add [0] S128 src 0x00000000#32 reduces_S5000x128_S128 (.inl rfl) rfl (ix1 j)
      = ∑ r : Fin 5000, src (ix2 r j) := by
  refine (Ideal.multiReduction_add_single src 0x00000000#32 reduces_S5000x128_S128 (.inl rfl) rfl (ix1 j)).trans ?_
  refine Finset.sum_congr rfl fun r _ => congrArg src (funext fun a => ?_)
  match a with
  | ⟨0, _⟩ => rfl
  | ⟨1, _⟩ => rfl

/-- A [128] vector viewed as a [1,128] row reads, at (0, j), its entry `j`. -/
theorem row_of_vec (v : FVec Ideal S128 .f32) (j : Fin 128) :
    shapeCast S1x128 v shapeCasts_S128_S1x128 (ix2 0 j) = v (ix1 j) := by
  refine (shapeCast_addUnit_apply ![128] v shapeCasts_S128_S1x128 (ix2 0 j)).trans (congrArg v (funext fun a => ?_))
  match a with
  | ⟨0, _⟩ => rfl

/-- THE LINEAR LAYER'S BLOCK at row `r`, output channel `j`: the degree-normalised neighbour sums through the first
    weight matrix, the rows themselves through the second, plus the bias. The weight blocks are indexed
    (input channel, output channel). -/
theorem pay4_apply (x0 : Vec Ideal S5000x128 .f32) (x2 : Vec Ideal S5000x1 .f32) (x1 : Vec Ideal S5000x128 .f32)
    (x3 x4 : Vec Ideal S128x128 .f32) (x5 : Vec Ideal S1x128 .f32) (r : Fin 5000) (j : Fin 128) :
    k2_pay4 (F := Ideal) x0 x2 x1 x3 x4 x5 (ix2 r j)
      = ((∑ k : Fin 128, Ideal.div (x0 (ix2 r k)) (x2 (ix2 r 0)) * x3 (ix2 k j)) + ∑ k : Fin 128, x1 (ix2 r k) * x4 (ix2 k j))
        + x5 (ix2 0 j) := by
  unfold k2_pay4
  simp only [shapeCast_self]
  show (matmul D0 none _ _ (constant (F := Ideal) S5000x128 .f32 0x00000000#32) (ix2 r j)
      + matmul D0 none _ _ (constant (F := Ideal) S5000x128 .f32 0x00000000#32) (ix2 r j))
      + broadcastTo S5000x128 x5 broadcasts_S1x128_S5000x128 (ix2 r j) = _
  rw [matmul_at, matmul_at, bcast_row]
  refine congrArg₂ (· + ·) (congrArg₂ (· + ·) (Finset.sum_congr rfl fun k _ => ?_) rfl) rfl
  show Ideal.div (x0 (ix2 r k)) (broadcastTo S5000x128 x2 broadcasts_S5000x1_S5000x128 (ix2 r k)) * x3 (ix2 k j) = _
  rw [bcast_col]

/-- THE COLUMN SUMS' BLOCK at channel `j`: what the accumulator held plus the sum of the linear layer's block over its
    5000 rows. -/
theorem pay5_apply (x0 : Vec Ideal S5000x128 .f32) (x2 : Vec Ideal S5000x1 .f32) (x1 : Vec Ideal S5000x128 .f32)
    (x3 x4 : Vec Ideal S128x128 .f32) (x5 : Vec Ideal S1x128 .f32) (acc : Vec Ideal S1x128 .f32) (j : Fin 128) :
    k2_pay5 (F := Ideal) x0 x2 x1 x3 x4 x5 acc (ix2 0 j)
      = acc (ix2 0 j) + ∑ r : Fin 5000, k2_pay4 (F := Ideal) x0 x2 x1 x3 x4 x5 (ix2 r j) := by
  unfold k2_pay5
  simp only [shapeCast_self]
  show acc (ix2 0 j) + shapeCast S1x128 _ shapeCasts_S128_S1x128 (ix2 0 j) = _
  refine congrArg (acc (ix2 0 j) + ·) ?_
  exact (row_of_vec _ j).trans (colsum_at _ j)

/-- THE COLUMN SUMS OF SQUARES' BLOCK at channel `j`: what the accumulator held plus the sum of the squares of a
    [5000,128] block's entries over its 5000 rows. -/
theorem pay1_apply (v : FVec Ideal S5000x128 .f32) (acc : Vec Ideal S1x128 .f32) (j : Fin 128) :
    k2_pay1 (F := Ideal) v acc (ix2 0 j) = acc (ix2 0 j) + ∑ r : Fin 5000, v (ix2 r j) * v (ix2 r j) := by
  unfold k2_pay1
  simp only [shapeCast_self]
  show acc (ix2 0 j) + shapeCast S1x128 _ shapeCasts_S128_S1x128 (ix2 0 j) = _
  refine congrArg (acc (ix2 0 j) + ·) ?_
  exact (row_of_vec _ j).trans (colsum_at _ j)

/-- The two zero blocks the first grid point stores into the accumulators read `0` everywhere. -/
theorem pay2_apply (i : S1x128.Idx) : k2_pay2 (F := Ideal) i = 0 := Ideal.ofBits_zero_f32
theorem pay3_apply (i : S1x128.Idx) : k2_pay3 (F := Ideal) i = 0 := Ideal.ofBits_zero_f32

end Cert.KernelIdeal.LinPay2
-- ==== Proof.LinValue2.lean ====
/-
  The second fused linear layer's three result arrays, as functions of the arrays the region finds.

  The grid has ten points; point `t` receives rows `5000 t … 5000 t + 4999` of the neighbour sums, of the
  features and of the clamped degrees, and the whole weight matrices and bias. It writes its block of the
  linear layer to rows `5000 t …` of the first result (`lin_eq`), and adds the block's column sums and column
  sums of squares into two [1,128] accumulators that are set to zero at point 0 and written to the second
  and third results after point 9. So the second result is the sum over the ten blocks of each block's
  column sums, which regrouped is the sum over all 50000 rows (`sum_eq`), and likewise the third for the
  squares (`sumsq_eq`). Regrouping a sum needs only commutativity and associativity, which hold over the
  extended reals without any finiteness.

  The case lemmas (`out_A_6` … `out_B_8`) say what one run of the body leaves in each output buffer, for
  any float instance: the stores' payloads of the loaded blocks. The block lemmas (`iblk_0` … `iblk_5`) read
  each input block entry by entry off its array.
-/
import proofs.«122408_j28759101014107_2_alg».proof.Proof.Gen.KernelIdeal.Frame
import proofs.«122408_j28759101014107_2_alg».proof.Proof.LinPay2
import proofs.«122408_j28759101014107_2_alg».proof.Proof.LibBlockSum
import proofs.«122408_j28759101014107_2_alg».proof.Proof.Spec
import Idealize.ShloMosaic.Lib.Pipeline.Value
import Idealize.ShloMosaic.Lib.Tactic

noncomputable section

namespace Cert.KernelIdeal.LinValue2

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

section Cases
variable {F : FTy → Type} [FloatOps F]

theorem out_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S5000x1 .f32) (x3 : Vec F S128x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 hc0 x0 x1 x2 x3 x4 x5 = k2_pay4 x0 x2 x1 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S5000x1 .f32) (x3 : Vec F S128x128 .f32) (x4 : Vec F S128x128 .f32) (x5 : Vec F S1x128 .f32) (xo7 : Vec F S1x128 .f32) (xo8 : Vec F S1x128 .f32) :
    out2_B_6 c i arg1 harg1 arg2 harg2 arg3 harg3 arg4 harg4 arg5 harg5 arg6 harg6 arg7 harg7 arg8 harg8 arg9 harg9 hc0 x0 x1 x2 x3 x4 x5 xo7 xo8 = k2_pay4 x0 x2 x1 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S5000x1 .f32) (x3 : Vec F S128x128 .f32) (x4 : Vec F S128x128 .f32) (x5 : Vec F S1x128 .f32) :
    out2_A_7 c i arg1 harg1 arg2 harg2 arg3 harg3 arg4 harg4 arg5 harg5 arg6 harg6 arg7 harg7 arg8 harg8 arg9 harg9 hc0 x0 x1 x2 x3 x4 x5 = k2_pay5 x0 x2 x1 x3 x4 x5 k2_pay2 := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S5000x1 .f32) (x3 : Vec F S128x128 .f32) (x4 : Vec F S128x128 .f32) (x5 : Vec F S1x128 .f32) (xo7 : Vec F S1x128 .f32) (xo8 : Vec F S1x128 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay5 x0 x2 x1 x3 x4 x5 xo7 := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x128 .f32) (x1 : Vec F S5000x128 .f32) (x2 : Vec F S5000x1 .f32) (x3 : Vec F S128x128 .f32) (x4 : Vec F S128x128 .f32) (x5 : Vec F S1x128 .f32) :
    out2_A_8 c i arg1 harg1 arg2 harg2 arg3 harg3 arg4 harg4 arg5 harg5 arg6 harg6 arg7 harg7 arg8 harg8 arg9 harg9 hc0 x0 x1 x2 x3 x4 x5 = k2_pay1 (k2_pay4 x0 x2 x1 x3 x4 x5) k2_pay3 := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

theorem out_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x128 .f32) (x1 : Vec F S5000x128 .f32) (x2 : Vec F S5000x1 .f32) (x3 : Vec F S128x128 .f32) (x4 : Vec F S128x128 .f32) (x5 : Vec F S1x128 .f32) (xo7 : Vec F S1x128 .f32) (xo8 : Vec F S1x128 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay1 (k2_pay4 x0 x2 x1 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x128) hz, View.ld_unit_zero (S := S1x128) hz]

end Cases

/-! ## The windows' blocks, read entry by entry off the arrays the region finds -/

/-- The printed index maps, decided over the ten grid points: the row-blocked windows (0, 1, 2 and the output 6) sit at
    block row `t`, the others at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

section Blocks
variable {F : FTy → Type} [FloatOps F]
variable (V : (c : Dev nD) → (b : Ref sig .tc) → Buf (Elt F) ((c : Thread nD τ).loc b))

/-- Row `r` of the neighbour-sum window's block at point `t` is row `5000 t + r` of its array. -/
theorem iblk_0 (c : Dev nD) (t : Fin cfg2.N) (r : Fin 5000) (n : Fin 50000) (hn : n.val = 5000 * t.val + r.val) (k : Fin 128) :
    (iblk2 V c 0 t : Vec F S5000x128 .f32) (ix2 r k) = (dat2 V c).A 0 (ix2 n k) := by
  obtain ⟨⟨e0, e1⟩, -⟩ := idx_facts t
  unfold iblk2
  rw [View.read_apply]
  show V c (Pipeline.arrRef spec2 0) _ = V c (Pipeline.arrRef spec2 0) _
  refine congrArg _ (funext fun a => Fin.ext ?_)
  match a with
  | ⟨0, _⟩ => show win2_0.index t 0 * 5000 + 1 * r.val = n.val; rw [e0, hn]; omega
  | ⟨1, _⟩ => show win2_0.index t 1 * 128 + 1 * k.val = k.val; rw [e1]; omega

/-- Row `r` of the feature window's block at point `t` is row `5000 t + r` of its array. -/
theorem iblk_1 (c : Dev nD) (t : Fin cfg2.N) (r : Fin 5000) (n : Fin 50000) (hn : n.val = 5000 * t.val + r.val) (k : Fin 128) :
    (iblk2 V c 1 t : Vec F S5000x128 .f32) (ix2 r k) = (dat2 V c).A 1 (ix2 n k) := by
  obtain ⟨-, ⟨e0, e1⟩, -⟩ := idx_facts t
  unfold iblk2
  rw [View.read_apply]
  show V c (Pipeline.arrRef spec2 1) _ = V c (Pipeline.arrRef spec2 1) _
  refine congrArg _ (funext fun a => Fin.ext ?_)
  match a with
  | ⟨0, _⟩ => show win2_1.index t 0 * 5000 + 1 * r.val = n.val; rw [e0, hn]; omega
  | ⟨1, _⟩ => show win2_1.index t 1 * 128 + 1 * k.val = k.val; rw [e1]; omega

/-- Row `r` of the degree window's block at point `t` is row `5000 t + r` of the degree column. -/
theorem iblk_2 (c : Dev nD) (t : Fin cfg2.N) (r : Fin 5000) (n : Fin 50000) (hn : n.val = 5000 * t.val + r.val) :
    (iblk2 V c 2 t : Vec F S5000x1 .f32) (ix2 r (0 : Fin 1)) = (dat2 V c).A 2 (ix2 n (0 : Fin 1)) := by
  obtain ⟨-, -, ⟨e0, e1⟩, -⟩ := idx_facts t
  unfold iblk2
  rw [View.read_apply]
  show V c (Pipeline.arrRef spec2 2) _ = V c (Pipeline.arrRef spec2 2) _
  refine congrArg _ (funext fun a => Fin.ext ?_)
  match a with
  | ⟨0, _⟩ => show win2_2.index t 0 * 5000 + 1 * r.val = n.val; rw [e0, hn]; omega
  | ⟨1, _⟩ => show win2_2.index t 1 * 1 + 1 * 0 = 0; rw [e1]

/-- The first weight window's one block is its whole array, at every point. -/
theorem iblk_3 (c : Dev nD) (t : Fin cfg2.N) (k j : Fin 128) :
    (iblk2 V c 3 t : Vec F S128x128 .f32) (ix2 k j) = (dat2 V c).A 3 (ix2 k j) := by
  obtain ⟨-, -, -, ⟨e0, e1⟩, -⟩ := idx_facts t
  unfold iblk2
  rw [View.read_apply]
  show V c (Pipeline.arrRef spec2 3) _ = V c (Pipeline.arrRef spec2 3) _
  refine congrArg _ (funext fun a => Fin.ext ?_)
  match a with
  | ⟨0, _⟩ => show win2_3.index t 0 * 128 + 1 * k.val = k.val; rw [e0]; omega
  | ⟨1, _⟩ => show win2_3.index t 1 * 128 + 1 * j.val = j.val; rw [e1]; omega

/-- The second weight window's one block is its whole array, at every point. -/
theorem iblk_4 (c : Dev nD) (t : Fin cfg2.N) (k j : Fin 128) :
    (iblk2 V c 4 t : Vec F S128x128 .f32) (ix2 k j) = (dat2 V c).A 4 (ix2 k j) := by
  obtain ⟨-, -, -, -, ⟨e0, e1⟩, -⟩ := idx_facts t
  unfold iblk2
  rw [View.read_apply]
  show V c (Pipeline.arrRef spec2 4) _ = V c (Pipeline.arrRef spec2 4) _
  refine congrArg _ (funext fun a => Fin.ext ?_)
  match a with
  | ⟨0, _⟩ => show win2_4.index t 0 * 128 + 1 * k.val = k.val; rw [e0]; omega
  | ⟨1, _⟩ => show win2_4.index t 1 * 128 + 1 * j.val = j.val; rw [e1]; omega

/-- The bias window's one block is its whole row, at every point. -/
theorem iblk_5 (c : Dev nD) (t : Fin cfg2.N) (j : Fin 128) :
    (iblk2 V c 5 t : Vec F S1x128 .f32) (ix2 (0 : Fin 1) j) = (dat2 V c).A 5 (ix2 (0 : Fin 1) j) := by
  obtain ⟨-, -, -, -, -, ⟨e0, e1⟩, -⟩ := idx_facts t
  unfold iblk2
  rw [View.read_apply]
  show V c (Pipeline.arrRef spec2 5) _ = V c (Pipeline.arrRef spec2 5) _
  refine congrArg _ (funext fun a => Fin.ext ?_)
  match a with
  | ⟨0, _⟩ => show win2_5.index t 0 * 1 + 1 * 0 = 0; rw [e0]
  | ⟨1, _⟩ => show win2_5.index t 1 * 128 + 1 * j.val = j.val; rw [e1]; omega

/-- The linear layer's block at point `t`: the body's payload of the six input blocks there. -/
def blk6 (c : Dev nD) (t : Fin cfg2.N) : Vec F S5000x128 .f32 :=
  k2_pay4 (iblk2 V c 0 t) (iblk2 V c 2 t) (iblk2 V c 1 t) (iblk2 V c 3 t) (iblk2 V c 4 t) (iblk2 V c 5 t)

/-- After every point the first output's buffer holds that point's block of the linear layer. -/
theorem outs6 (c : Dev nD) (t : Fin cfg2.N) : (outsAt2 V c t.val t.isLt).1 = blk6 V c t := by
  by_cases h0 : t.val % 10 = 0
  · rw [outsAt2_A V c t h0]; dsimp only; exact out_A_6 ..
  · rw [outsAt2_B V c t h0]; dsimp only; exact out_B_6 ..

end Blocks

section Accumulators
variable {F : FTy → Type} [FloatOps F]
variable (V : (c : Dev nD) → (b : Ref sig .tc) → Buf (Elt F) ((c : Thread nD τ).loc b))

/-- After point 0 the column-sum accumulator holds the zero block plus the block's column sums … -/
theorem outs7_A (c : Dev nD) (t : Fin cfg2.N) (h0 : t.val % 10 = 0) :
    (outsAt2 V c t.val t.isLt).2.1 = k2_pay5 (iblk2 V c 0 t) (iblk2 V c 2 t) (iblk2 V c 1 t) (iblk2 V c 3 t) (iblk2 V c 4 t) (iblk2 V c 5 t) k2_pay2 := by
  rw [outsAt2_A V c t h0]; dsimp only; exact out_A_7 ..

/-- … and after a later point what it held after the point before plus the block's column sums. -/
theorem outs7_B (c : Dev nD) (t : Fin cfg2.N) (h0 : ¬t.val % 10 = 0) :
    (outsAt2 V c t.val t.isLt).2.1
      = k2_pay5 (iblk2 V c 0 t) (iblk2 V c 2 t) (iblk2 V c 1 t) (iblk2 V c 3 t) (iblk2 V c 4 t) (iblk2 V c 5 t) (outsAt2 V c (t.val - 1) (Nat.lt_of_le_of_lt (Nat.sub_le _ _) t.isLt)).2.1 := by
  rw [outsAt2_B V c t h0]; dsimp only; exact out_B_7 ..

/-- The same for the accumulator of the column sums of squares. -/
theorem outs8_A (c : Dev nD) (t : Fin cfg2.N) (h0 : t.val % 10 = 0) :
    (outsAt2 V c t.val t.isLt).2.2 = k2_pay1 (blk6 V c t) k2_pay3 := by
  rw [outsAt2_A V c t h0]; dsimp only; exact out_A_8 ..

theorem outs8_B (c : Dev nD) (t : Fin cfg2.N) (h0 : ¬t.val % 10 = 0) :
    (outsAt2 V c t.val t.isLt).2.2
      = k2_pay1 (blk6 V c t) (outsAt2 V c (t.val - 1) (Nat.lt_of_le_of_lt (Nat.sub_le _ _) t.isLt)).2.2 := by
  rw [outsAt2_B V c t h0]; dsimp only; exact out_B_8 ..

end Accumulators

/-! ## At the extended reals: the three result arrays -/

section AtIdeal
variable (V : (c : Dev nD) → (b : Ref sig .tc) → Buf (Elt Ideal) ((c : Thread nD τ).loc b))

/-- The linear layer of the six arrays the region finds, as contents of the first result array. -/
def G6 (c : Dev nD) : S50000x128.Idx → EReal := fun i =>
  Cert.Spec.lin (fun r k => (dat2 V c).A 0 (ix2 r k)) (fun r k => (dat2 V c).A 1 (ix2 r k)) (fun r => (dat2 V c).A 2 (ix2 r 0))
    (fun j k => (dat2 V c).A 3 (ix2 k j)) (fun j k => (dat2 V c).A 4 (ix2 k j)) (fun j => (dat2 V c).A 5 (ix2 0 j)) (i 0) (i 1)

/-- Row `r` of point `t`'s block of the linear layer is row `5000 t + r` of `G6`. -/
theorem blk6_apply (c : Dev nD) (t : Fin cfg2.N) (r : Fin 5000) (j : Fin 128) (n : Fin 50000) (hn : n.val = 5000 * t.val + r.val) :
    blk6 V c t (ix2 r j) = G6 V c (ix2 n j) := by
  unfold blk6
  refine (LinPay2.pay4_apply (iblk2 V c 0 t) (iblk2 V c 2 t) (iblk2 V c 1 t) (iblk2 V c 3 t) (iblk2 V c 4 t) (iblk2 V c 5 t) r j).trans ?_
  unfold G6 Cert.Spec.lin
  refine congrArg₂ (· + ·) (congrArg₂ (· + ·) (Finset.sum_congr rfl fun k _ => ?_) (Finset.sum_congr rfl fun k _ => ?_)) ?_
  · rw [iblk_0 V c t r n hn k, iblk_2 V c t r n hn, iblk_3 V c t k j]
  · rw [iblk_1 V c t r n hn k, iblk_4 V c t k j]
  · exact iblk_5 V c t j

theorem hN : cfg2.N = 10 := N_2

/-- An index of the first result array is in point `t`'s block iff each coordinate is in the block's range. -/
theorem mem_blk6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v54_0).slice (win2_6.rect t)).set ↔ _
  rw [View.set_slice_whole, Rect.mem_set_unit]
  exact Iff.rfl

/-- What point `t` writes back to the first result array is its block of `G6`. -/
theorem flushed6 (c : Dev nD) (t : Fin cfg2.N) :
    (dat2 V c).flushed 6 t = ((cfg2.win 6).blk t).view.read (Elt Ideal) (G6 V c) := by
  have ht : t.val < 10 := lt_of_lt_of_eq t.isLt hN
  obtain ⟨-, -, -, -, -, -, ⟨e0, e1⟩, -⟩ := idx_facts t
  show (cfg2.win 6).cut (grid2.coords t) ((dat2 V c).after 6 t) = _
  rw [after2_6, outs6]
  funext y
  obtain ⟨r, j, rfl⟩ : ∃ (r : Fin 5000) (j : Fin 128), y = ix2 r j := ⟨y 0, y 1, eq_ix2 y⟩
  rw [View.read_apply]
  have he : ((cfg2.win 6).blk t).view.emb (ix2 r j) = ix2 (⟨5000 * t.val + r.val, by omega⟩ : Fin 50000) j :=
    funext fun a => Fin.ext (by
      match a with
      | ⟨0, _⟩ => show win2_6.index t 0 * 5000 + 1 * r.val = 5000 * t.val + r.val; rw [e0]; omega
      | ⟨1, _⟩ => show win2_6.index t 1 * 128 + 1 * j.val = j.val; rw [e1]; omega)
  rw [he]
  exact blk6_apply V c t r j _ rfl

/-- Every row of the first result array is in the block of the point `row / 5000`, which writes it back. -/
theorem cover6 (i : S50000x128.Idx) : ∃ t : Fin cfg2.N, (cfg2.win 6).flush t = true ∧ i ∈ ((cfg2.win 6).blk t).view.set := by
  have h0 : (i 0).val < 50000 := idx2_lt0 i
  have h1 : (i 1).val < 128 := idx2_lt1 i
  refine ⟨⟨(i 0).val / 5000, by rw [hN]; omega⟩, flush2_6 _, ?_⟩
  obtain ⟨-, -, -, -, -, -, ⟨e0, e1⟩, -⟩ := idx_facts ⟨(i 0).val / 5000, by rw [hN]; omega⟩
  rw [mem_blk6]
  intro a
  match a with
  | ⟨0, _⟩ =>
    show win2_6.index _ 0 * 5000 ≤ (i 0).val ∧ (i 0).val < win2_6.index _ 0 * 5000 + 5000
    rw [e0]; dsimp only; omega
  | ⟨1, _⟩ =>
    show win2_6.index _ 1 * 128 ≤ (i 1).val ∧ (i 1).val < win2_6.index _ 1 * 128 + 128
    rw [e1]; omega

/-- The first result array ends holding the linear layer. -/
theorem final6 (c : Dev nD) : (dat2 V c).arrAt 6 cfg2.N = G6 V c :=
  (dat2 V c).arrAt_eq_of_cover 6 (G6 V c) (fun t _ => flushed6 V c t) cover6

/-- THE LINEAR LAYER: entry (r, j) of the first result array. The inputs are the arrays the region finds,
    `(dat2 V c).A w` for window `w`; the weights are stored (input channel, output channel). -/
theorem lin_eq (c : Dev nD) (r : Fin 50000) (j : Fin 128) :
    (dat2 V c).arrAt 6 cfg2.N (ix2 r j)
      = Cert.Spec.lin (fun r k => (dat2 V c).A 0 (ix2 r k)) (fun r k => (dat2 V c).A 1 (ix2 r k)) (fun r => (dat2 V c).A 2 (ix2 r 0))
          (fun j k => (dat2 V c).A 3 (ix2 k j)) (fun j k => (dat2 V c).A 4 (ix2 k j)) (fun j => (dat2 V c).A 5 (ix2 0 j)) r j := by
  rw [final6]
  rfl

end AtIdeal

/-! ## The two accumulated results -/

section Sums
variable (V : (c : Dev nD) → (b : Ref sig .tc) → Buf (Elt Ideal) ((c : Thread nD τ).loc b))

/-- Block `t`'s column sum of the linear layer at channel `j` (zero past the grid). -/
def B7 (c : Dev nD) (j : Fin 128) (t : ℕ) : EReal :=
  if h : t < cfg2.N then ∑ r : Fin 5000, blk6 V c ⟨t, h⟩ (ix2 r j) else 0

/-- Block `t`'s column sum of squares at channel `j` (zero past the grid). -/
def B8 (c : Dev nD) (j : Fin 128) (t : ℕ) : EReal :=
  if h : t < cfg2.N then ∑ r : Fin 5000, blk6 V c ⟨t, h⟩ (ix2 r j) * blk6 V c ⟨t, h⟩ (ix2 r j) else 0

/-- After point `n` the first accumulator holds, at channel `j`, the sum of the column sums of blocks `0 … n`. -/
theorem inv7 (c : Dev nD) (j : Fin 128) : ∀ (n : ℕ) (h : n < cfg2.N),
    (outsAt2 V c n h).2.1 (ix2 0 j) = ∑ t ∈ Finset.range (n + 1), B7 V c j t
  | 0, h => by
    refine (congrFun (outs7_A V c ⟨0, h⟩ rfl) (ix2 0 j)).trans ?_
    refine (LinPay2.pay5_apply _ _ _ _ _ _ _ j).trans ?_
    show _ = ∑ t ∈ Finset.range 1, B7 V c j t
    rw [LinPay2.pay2_apply, zero_add, Finset.sum_range_one]
    unfold B7
    rw [dif_pos h]
    rfl
  | n + 1, h => by
    have hB : ¬(⟨n + 1, h⟩ : Fin cfg2.N).val % 10 = 0 := by have := hN ▸ h; dsimp only; omega
    refine (congrFun (outs7_B V c ⟨n + 1, h⟩ hB) (ix2 0 j)).trans ?_
    refine (LinPay2.pay5_apply _ _ _ _ _ _ _ j).trans ?_
    rw [Finset.sum_range_succ _ (n + 1)]
    refine congrArg₂ (· + ·) (inv7 c j n (Nat.lt_of_succ_lt h)) ?_
    unfold B7
    rw [dif_pos h]
    rfl

/-- After point `n` the second accumulator holds the sum of the column sums of squares of blocks `0 … n`. -/
theorem inv8 (c : Dev nD) (j : Fin 128) : ∀ (n : ℕ) (h : n < cfg2.N),
    (outsAt2 V c n h).2.2 (ix2 0 j) = ∑ t ∈ Finset.range (n + 1), B8 V c j t
  | 0, h => by
    refine (congrFun (outs8_A V c ⟨0, h⟩ rfl) (ix2 0 j)).trans ?_
    refine (LinPay2.pay1_apply _ _ j).trans ?_
    show _ = ∑ t ∈ Finset.range 1, B8 V c j t
    rw [LinPay2.pay3_apply, zero_add, Finset.sum_range_one]
    unfold B8
    rw [dif_pos h]
  | n + 1, h => by
    have hB : ¬(⟨n + 1, h⟩ : Fin cfg2.N).val % 10 = 0 := by have := hN ▸ h; dsimp only; omega
    refine (congrFun (outs8_B V c ⟨n + 1, h⟩ hB) (ix2 0 j)).trans ?_
    refine (LinPay2.pay1_apply _ _ j).trans ?_
    rw [Finset.sum_range_succ _ (n + 1)]
    refine congrArg₂ (· + ·) (inv8 c j n (Nat.lt_of_succ_lt h)) ?_
    unfold B8
    rw [dif_pos h]

/-- Row `r` of block `t`, as a row of the whole array. -/
def row (t : Fin 10) (r : Fin 5000) : Fin 50000 := ⟨5000 * t.val + r.val, by have := t.isLt; have := r.isLt; omega⟩

/-- After the last point (the tenth, `n = 9`) the first accumulator holds the column sums of the whole linear layer. -/
theorem total7 (c : Dev nD) (j : Fin 128) (n : ℕ) (h : n < cfg2.N) (h9 : n = 9) :
    (outsAt2 V c n h).2.1 (ix2 0 j) = Cert.Spec.colSum (fun n j => G6 V c (ix2 n j)) j := by
  rw [inv7 V c j n h]
  subst h9
  unfold Cert.Spec.colSum
  rw [Cert.BlockSum.sum_blocks (m := 10) (n := 5000) rfl row (fun _ _ => rfl) (fun n => G6 V c (ix2 n j))]
  show ∑ t ∈ Finset.range 10, B7 V c j t = _
  rw [Finset.sum_range (fun t => B7 V c j t)]
  refine Finset.sum_congr rfl fun t _ => ?_
  unfold B7
  rw [dif_pos (lt_of_lt_of_eq t.isLt hN.symm)]
  exact Finset.sum_congr rfl fun r _ => blk6_apply V c ⟨t.val, _⟩ r j (row t r) rfl

/-- After the last point (`n = 9`) the second accumulator holds the column sums of squares of the whole linear layer. -/
theorem total8 (c : Dev nD) (j : Fin 128) (n : ℕ) (h : n < cfg2.N) (h9 : n = 9) :
    (outsAt2 V c n h).2.2 (ix2 0 j) = Cert.Spec.colSumSq (fun n j => G6 V c (ix2 n j)) j := by
  rw [inv8 V c j n h]
  subst h9
  unfold Cert.Spec.colSumSq
  rw [Cert.BlockSum.sum_blocks (m := 10) (n := 5000) rfl row (fun _ _ => rfl) (fun n => G6 V c (ix2 n j) * G6 V c (ix2 n j))]
  show ∑ t ∈ Finset.range 10, B8 V c j t = _
  rw [Finset.sum_range (fun t => B8 V c j t)]
  refine Finset.sum_congr rfl fun t _ => ?_
  unfold B8
  rw [dif_pos (lt_of_lt_of_eq t.isLt hN.symm)]
  refine Finset.sum_congr rfl fun r _ => ?_
  rw [blk6_apply V c ⟨t.val, _⟩ r j (row t r) rfl]

/-- The same, at the grid's last point however it is written. -/
theorem total7_at (c : Dev nD) (j : Fin 128) (t : Fin cfg2.N) (h9 : t.val = 9) :
    (outsAt2 V c t.val t.isLt).2.1 (ix2 (0 : Fin 1) j) = Cert.Spec.colSum (fun n j => G6 V c (ix2 n j)) j :=
  total7 V c j t.val t.isLt h9

theorem total8_at (c : Dev nD) (j : Fin 128) (t : Fin cfg2.N) (h9 : t.val = 9) :
    (outsAt2 V c t.val t.isLt).2.2 (ix2 (0 : Fin 1) j) = Cert.Spec.colSumSq (fun n j => G6 V c (ix2 n j)) j :=
  total8 V c j t.val t.isLt h9

/-- The column sums of the linear layer, as contents of the second result array. -/
def G7 (c : Dev nD) : S1x128.Idx → EReal := fun i => Cert.Spec.colSum (fun n j => G6 V c (ix2 n j)) (i 1)

/-- The column sums of squares of the linear layer, as contents of the third result array. -/
def G8 (c : Dev nD) : S1x128.Idx → EReal := fun i => Cert.Spec.colSumSq (fun n j => G6 V c (ix2 n j)) (i 1)

theorem G7_apply (c : Dev nD) (j : Fin 128) :
    G7 V c (ix2 (0 : Fin 1) j) = Cert.Spec.colSum (fun n j => G6 V c (ix2 n j)) j := rfl

theorem G8_apply (c : Dev nD) (j : Fin 128) :
    G8 V c (ix2 (0 : Fin 1) j) = Cert.Spec.colSumSq (fun n j => G6 V c (ix2 n j)) j := rfl

theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v54_1).slice (win2_7.rect t)).set ↔ _
  rw [View.set_slice_whole, Rect.mem_set_unit]
  exact Iff.rfl

theorem mem_blk8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v54_2).slice (win2_8.rect t)).set ↔ _
  rw [View.set_slice_whole, Rect.mem_set_unit]
  exact Iff.rfl

/-- Reading the accumulator's one block through the write-back's leading part changes nothing. -/
theorem cut7 (i : grid2.Coords) (X : Vec Ideal S1x128 .f32) (y0 : Fin 1) (j : Fin 128) :
    (cfg2.win 7).cut i X (ix2 y0 j) = X (ix2 y0 j) := rfl

/-- The one write-back of the second result, after point 9, writes the column sums. -/
theorem flushed7 (c : Dev nD) (t : Fin cfg2.N) (hf : (cfg2.win 7).flush t = true) :
    (dat2 V c).flushed 7 t = ((cfg2.win 7).blk t).view.read (Elt Ideal) (G7 V c) := by
  have ht : t.val < 10 := lt_of_lt_of_eq t.isLt hN
  have h9 : t.val = 9 := by have := (flush2_7 t).mp hf; omega
  obtain ⟨-, -, -, -, -, -, -, ⟨e0, e1⟩, -⟩ := idx_facts t
  show (cfg2.win 7).cut (grid2.coords t) ((dat2 V c).after 7 t) = _
  rw [after2_7]
  funext y
  obtain ⟨y0, j, rfl⟩ : ∃ (y0 : Fin 1) (j : Fin 128), y = ix2 y0 j := ⟨y 0, y 1, eq_ix2 y⟩
  obtain rfl : y0 = 0 := Subsingleton.elim _ _
  rw [View.read_apply]
  refine Eq.trans ?_ (cast_eq _ _).symm
  have he : ((cfg2.win 7).blk t).view.emb (ix2 (0 : Fin 1) j) = ix2 (0 : Fin 1) j :=
    funext fun a => Fin.ext (by
      match a with
      | ⟨0, _⟩ => show win2_7.index t 0 * 1 + 1 * 0 = 0; rw [e0]
      | ⟨1, _⟩ => show win2_7.index t 1 * 128 + 1 * j.val = j.val; rw [e1]; omega)
  rw [he, G7_apply]
  exact (cut7 _ _ _ _).trans (total7_at V c j t h9)

theorem cut8 (i : grid2.Coords) (X : Vec Ideal S1x128 .f32) (y0 : Fin 1) (j : Fin 128) :
    (cfg2.win 8).cut i X (ix2 y0 j) = X (ix2 y0 j) := rfl

/-- The one write-back of the third result, after point 9, writes the column sums of squares. -/
theorem flushed8 (c : Dev nD) (t : Fin cfg2.N) (hf : (cfg2.win 8).flush t = true) :
    (dat2 V c).flushed 8 t = ((cfg2.win 8).blk t).view.read (Elt Ideal) (G8 V c) := by
  have ht : t.val < 10 := lt_of_lt_of_eq t.isLt hN
  have h9 : t.val = 9 := by have := (flush2_8 t).mp hf; omega
  obtain ⟨-, -, -, -, -, -, -, -, ⟨e0, e1⟩⟩ := idx_facts t
  show (cfg2.win 8).cut (grid2.coords t) ((dat2 V c).after 8 t) = _
  rw [after2_8]
  funext y
  obtain ⟨y0, j, rfl⟩ : ∃ (y0 : Fin 1) (j : Fin 128), y = ix2 y0 j := ⟨y 0, y 1, eq_ix2 y⟩
  obtain rfl : y0 = 0 := Subsingleton.elim _ _
  rw [View.read_apply]
  refine Eq.trans ?_ (cast_eq _ _).symm
  have he : ((cfg2.win 8).blk t).view.emb (ix2 (0 : Fin 1) j) = ix2 (0 : Fin 1) j :=
    funext fun a => Fin.ext (by
      match a with
      | ⟨0, _⟩ => show win2_8.index t 0 * 1 + 1 * 0 = 0; rw [e0]
      | ⟨1, _⟩ => show win2_8.index t 1 * 128 + 1 * j.val = j.val; rw [e1]; omega)
  rw [he, G8_apply]
  exact (cut8 _ _ _ _).trans (total8_at V c j t h9)

/-- Point 9's block of the second result is the whole row, and point 9 writes it back. -/
theorem cover7 (i : S1x128.Idx) : ∃ t : Fin cfg2.N, (cfg2.win 7).flush t = true ∧ i ∈ ((cfg2.win 7).blk t).view.set := by
  have h0 : (i 0).val < 1 := idx2_lt0 i
  have h1 : (i 1).val < 128 := idx2_lt1 i
  refine ⟨⟨9, by rw [hN]; decide⟩, (flush2_7 _).mpr rfl, ?_⟩
  obtain ⟨-, -, -, -, -, -, -, ⟨e0, e1⟩, -⟩ := idx_facts ⟨9, by rw [hN]; decide⟩
  rw [mem_blk7]
  intro a
  match a with
  | ⟨0, _⟩ =>
    show win2_7.index _ 0 * 1 ≤ (i 0).val ∧ (i 0).val < win2_7.index _ 0 * 1 + 1
    rw [e0]; omega
  | ⟨1, _⟩ =>
    show win2_7.index _ 1 * 128 ≤ (i 1).val ∧ (i 1).val < win2_7.index _ 1 * 128 + 128
    rw [e1]; omega

theorem cover8 (i : S1x128.Idx) : ∃ t : Fin cfg2.N, (cfg2.win 8).flush t = true ∧ i ∈ ((cfg2.win 8).blk t).view.set := by
  have h0 : (i 0).val < 1 := idx2_lt0 i
  have h1 : (i 1).val < 128 := idx2_lt1 i
  refine ⟨⟨9, by rw [hN]; decide⟩, (flush2_8 _).mpr rfl, ?_⟩
  obtain ⟨-, -, -, -, -, -, -, -, ⟨e0, e1⟩⟩ := idx_facts ⟨9, by rw [hN]; decide⟩
  rw [mem_blk8]
  intro a
  match a with
  | ⟨0, _⟩ =>
    show win2_8.index _ 0 * 1 ≤ (i 0).val ∧ (i 0).val < win2_8.index _ 0 * 1 + 1
    rw [e0]; omega
  | ⟨1, _⟩ =>
    show win2_8.index _ 1 * 128 ≤ (i 1).val ∧ (i 1).val < win2_8.index _ 1 * 128 + 128
    rw [e1]; omega

theorem final7 (c : Dev nD) : (dat2 V c).arrAt 7 cfg2.N = G7 V c :=
  (dat2 V c).arrAt_eq_of_cover 7 (G7 V c) (flushed7 V c) cover7

theorem final8 (c : Dev nD) : (dat2 V c).arrAt 8 cfg2.N = G8 V c :=
  (dat2 V c).arrAt_eq_of_cover 8 (G8 V c) (flushed8 V c) cover8

/-- THE COLUMN SUMS: entry (0, j) of the second result array is the sum over all 50000 rows of the first result
    array's channel `j`. -/
theorem sum_eq (c : Dev nD) (j : Fin 128) :
    (dat2 V c).arrAt 7 cfg2.N (ix2 0 j) = Cert.Spec.colSum (fun n j => (dat2 V c).arrAt 6 cfg2.N (ix2 n j)) j := by
  rw [final7, final6]
  exact G7_apply V c j

/-- THE COLUMN SUMS OF SQUARES: entry (0, j) of the third result array is the sum over all 50000 rows of the
    squares of the first result array's channel `j`. -/
theorem sumsq_eq (c : Dev nD) (j : Fin 128) :
    (dat2 V c).arrAt 8 cfg2.N (ix2 0 j) = Cert.Spec.colSumSq (fun n j => (dat2 V c).arrAt 6 cfg2.N (ix2 n j)) j := by
  rw [final8, final6]
  exact G8_apply V c j

end Sums

end Cert.KernelIdeal.LinValue2
-- ==== Proof.BnValue3.lean ====
/-
  The value of the second normalise-scale-shift-clamp region of the idealized kernel program.

  The region's grid has ten points; point `t` handles rows `5000 t … 5000 t + 4999` of a 50000 × 128 array. Its body is
  pointwise: at row `p` and channel `q` of the block it subtracts the channel's mean, multiplies by the reciprocal square
  root of the channel's variance plus a literal, multiplies by the channel's scale, adds the channel's shift and clamps at
  zero. The mean, variance, scale and shift are one-row arrays whose single block every point reads. Because the output
  block at point `t` covers exactly the rows the input block covers, and the ten blocks tile the array, the output array
  after the region is one function of the arrays the region found, index by index: `Cert.Spec.bnrelu`.

  Everything is stated at a parameter `V`, the buffer contents when the region is entered.
-/
import proofs.«122408_j28759101014107_2_alg».proof.Proof.Gen.KernelIdeal.Frame
import proofs.«122408_j28759101014107_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.BnValue3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at row `p`, channel `q` of a block: the row's entry minus the channel's mean, times the
    reciprocal square root of the channel's variance plus the literal, times the scale, plus the shift, clamped at zero. The
    four per-channel operands are one-row blocks, read at row 0. -/
theorem pay_apply (x0 : Vec Ideal S5000x128 .f32) (xv xm xg xb : Vec Ideal S1x128 .f32) (p : Fin 5000) (q : Fin 128) :
    k3_pay1 (F := Ideal) x0 xv xm xg xb (ix2 p q)
      = max ((((x0 (ix2 p q) - xm (ix2 (0 : Fin 1) q)) * Ideal.rsqrt (xv (ix2 (0 : Fin 1) q) + Ideal.ofBits .f32 0x3727C5AC#32)) * xg (ix2 (0 : Fin 1) q)) + xb (ix2 (0 : Fin 1) q)) 0 := by
  unfold k3_pay1
  simp only [shapeCast_self]
  rw [maximumf_apply, addf_apply, mulf_apply, mulf_apply, subf_apply,
    broadcastTo_1b_ab_apply, broadcastTo_1b_ab_apply, broadcastTo_1b_ab_apply, broadcastTo_1b_ab_apply, broadcast_apply]
  show max (_ * Ideal.rsqrt (xv (ix2 (0 : Fin 1) q) + Ideal.ofBits .f32 0x3727C5AC#32) * _ + _) (Ideal.ofBits .f32 0x00000000#32) = _
  rw [Ideal.ofBits_zero_f32]

/-- The printed index maps over the ten grid points: the row-blocked windows (input 0, output 5) sit at block row `t`,
    the four per-channel windows at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The region's six arrays as it finds them: the rows to normalise, scale, shift, mean, variance (and the output's). -/
abbrev A (c : Dev nD) (w : Fin cfg3.W) := (dat3 V c).A w

/-- What the output array ends holding: at node `i 0`, channel `i 1`, the normalised, scaled, shifted and clamped
    entry of the input array, with the per-channel operands read off their one-row arrays. -/
def bn (c : Dev nD) : S50000x128.Idx → EReal := fun i =>
  Cert.Spec.bnrelu (Ideal.ofBits .f32 0x3727C5AC#32)
    (fun n j => (V c main_v54_0 : S50000x128.Idx → EReal) (ix2 n j))
    (fun j => (V c main_v68 : S1x128.Idx → EReal) (ix2 (0 : Fin 1) j))
    (fun j => (V c main_v69 : S1x128.Idx → EReal) (ix2 (0 : Fin 1) j))
    (fun j => (V c main_v66 : S1x128.Idx → EReal) (ix2 (0 : Fin 1) j))
    (fun j => (V c main_v67 : S1x128.Idx → EReal) (ix2 (0 : Fin 1) j)) (i 0) (i 1)

/-- WHAT POINT `t` WRITES BACK is block `t` of `bn`: the body's arithmetic at row `p`, channel `q` of the block reads the
    input array at row `5000 t + p` — the output block's own row — and the four one-row arrays at channel `q`. -/
theorem flushed_eq (c : Dev nD) (t : Fin cfg3.N) :
    (dat3 V c).flushed 5 t = ((cfg3.win 5).blk t).view.read (Elt Ideal) (bn V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine (pay_apply (iblk3 V c 0 t) (iblk3 V c 4 t) (iblk3 V c 3 t) (iblk3 V c 1 t) (iblk3 V c 2 t) p q).trans ?_
  have h0 : ((cfg3.win 0).blk t).view.emb (ix2 p q)
      = ix2 ((((cfg3.win 5).blk t).view.emb (ix2 p q)) 0) ((((cfg3.win 5).blk t).view.emb (ix2 p q)) 1) := by
    funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * q.val = win3_5.index t (1 : Fin 2) * 128 + 1 * q.val; omega
  have h1 : ((cfg3.win 1).blk t).view.emb (ix2 (0 : Fin 1) q)
      = ix2 (0 : Fin 1) ((((cfg3.win 5).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_5.index t (1 : Fin 2) * 128 + 1 * q.val; omega
  have h2 : ((cfg3.win 2).blk t).view.emb (ix2 (0 : Fin 1) q)
      = ix2 (0 : Fin 1) ((((cfg3.win 5).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_5.index t (1 : Fin 2) * 128 + 1 * q.val; omega
  have h3 : ((cfg3.win 3).blk t).view.emb (ix2 (0 : Fin 1) q)
      = ix2 (0 : Fin 1) ((((cfg3.win 5).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 128 + 1 * q.val = win3_5.index t (1 : Fin 2) * 128 + 1 * q.val; omega
  have h4 : ((cfg3.win 4).blk t).view.emb (ix2 (0 : Fin 1) q)
      = ix2 (0 : Fin 1) ((((cfg3.win 5).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega
  have r0 : iblk3 V c 0 t (ix2 p q) = (V c main_v54_0 : S50000x128.Idx → EReal) _ := congrArg (V c main_v54_0 : S50000x128.Idx → EReal) h0
  have r1 : iblk3 V c 1 t (ix2 (0 : Fin 1) q) = (V c main_v66 : S1x128.Idx → EReal) _ := congrArg (V c main_v66 : S1x128.Idx → EReal) h1
  have r2 : iblk3 V c 2 t (ix2 (0 : Fin 1) q) = (V c main_v67 : S1x128.Idx → EReal) _ := congrArg (V c main_v67 : S1x128.Idx → EReal) h2
  have r3 : iblk3 V c 3 t (ix2 (0 : Fin 1) q) = (V c main_v68 : S1x128.Idx → EReal) _ := congrArg (V c main_v68 : S1x128.Idx → EReal) h3
  have r4 : iblk3 V c 4 t (ix2 (0 : Fin 1) q) = (V c main_v69 : S1x128.Idx → EReal) _ := congrArg (V c main_v69 : S1x128.Idx → EReal) h4
  rw [r0, r1, r2, r3, r4]
  rfl

/-- An index of the output array lies in point `t`'s block iff, on each axis, it lies in the block's range. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v70).slice (win3_5.rect t)).set ↔ _
  rw [View.set_slice_whole, Rect.mem_set_unit]
  exact Iff.rfl

/-- The ten row blocks tile the output array: row `r` is in the block of point `r / 5000`. -/
theorem cover (i : S50000x128.Idx) :
    ∃ t : Fin cfg3.N, (cfg3.win 5).flush t = true ∧ i ∈ ((cfg3.win 5).blk t).view.set := by
  have hN : cfg3.N = 10 := N_3
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [hN]; omega⟩, rfl⟩
  obtain ⟨-, -, -, -, -, -, -, -, -, -, e50, e51⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE OUTPUT ARRAY after the region is `bn` of the arrays the region found. -/
theorem final (c : Dev nD) : (dat3 V c).arrAt 5 cfg3.N = bn V c :=
  (dat3 V c).arrAt_eq_of_cover 5 (bn V c) (fun t _ => flushed_eq V c t) cover

/-- The output array at node `r`, channel `j`, with the region's input arrays named by their buffers. -/
theorem bn_eq_V (c : Dev nD) (r : Fin 50000) (j : Fin 128) :
    ((dat3 V c).arrAt 5 cfg3.N : S50000x128.Idx → EReal) (ix2 r j)
      = Cert.Spec.bnrelu (Ideal.ofBits .f32 0x3727C5AC#32)
      (fun n j => (V c main_v54_0 : S50000x128.Idx → EReal) (ix2 n j))
      (fun j => (V c main_v68 : S1x128.Idx → EReal) (ix2 (0 : Fin 1) j))
      (fun j => (V c main_v69 : S1x128.Idx → EReal) (ix2 (0 : Fin 1) j))
      (fun j => (V c main_v66 : S1x128.Idx → EReal) (ix2 (0 : Fin 1) j))
      (fun j => (V c main_v67 : S1x128.Idx → EReal) (ix2 (0 : Fin 1) j)) r j := by
  rw [final]; rfl

/-- The output array at node `r`, channel `j`, with the region's input arrays named as the proof data's arrays
    (`(dat3 V c).A w`, which is `V c (Pipeline.arrRef spec3 w)`). -/
theorem bn_eq (c : Dev nD) (r : Fin 50000) (j : Fin 128) :
    ((dat3 V c).arrAt 5 cfg3.N : S50000x128.Idx → EReal) (ix2 r j)
      = Cert.Spec.bnrelu (Ideal.ofBits .f32 0x3727C5AC#32)
      (fun n j => ((dat3 V c).A 0 : S50000x128.Idx → EReal) (ix2 n j))
      (fun j => ((dat3 V c).A 3 : S1x128.Idx → EReal) (ix2 (0 : Fin 1) j))
      (fun j => ((dat3 V c).A 4 : S1x128.Idx → EReal) (ix2 (0 : Fin 1) j))
      (fun j => ((dat3 V c).A 1 : S1x128.Idx → EReal) (ix2 (0 : Fin 1) j))
      (fun j => ((dat3 V c).A 2 : S1x128.Idx → EReal) (ix2 (0 : Fin 1) j)) r j :=
  bn_eq_V V c r j

/-- The same with the arrays named through the window table. -/
theorem bn_eq_ref (c : Dev nD) (r : Fin 50000) (j : Fin 128) :
    ((dat3 V c).arrAt 5 cfg3.N : S50000x128.Idx → EReal) (ix2 r j)
      = Cert.Spec.bnrelu (Ideal.ofBits .f32 0x3727C5AC#32)
      (fun n j => (V c (Pipeline.arrRef spec3 0) : S50000x128.Idx → EReal) (ix2 n j))
      (fun j => (V c (Pipeline.arrRef spec3 3) : S1x128.Idx → EReal) (ix2 (0 : Fin 1) j))
      (fun j => (V c (Pipeline.arrRef spec3 4) : S1x128.Idx → EReal) (ix2 (0 : Fin 1) j))
      (fun j => (V c (Pipeline.arrRef spec3 1) : S1x128.Idx → EReal) (ix2 (0 : Fin 1) j))
      (fun j => (V c (Pipeline.arrRef spec3 2) : S1x128.Idx → EReal) (ix2 (0 : Fin 1) j)) r j :=
  bn_eq_V V c r j

end Cert.KernelIdeal.BnValue3

end
-- ==== Proof.KernelValue1.lean ====
/-
  The second hidden layer of the idealized kernel program, read off its run.

  The run's boundary after the first layer holds that layer's output `h0`; it is kept as the run leaves it. From there:
  the host stretch gathers the rows of `h0` along the edges and adds them onto their destinations, transposes the two
  weight matrices and reshapes the bias; the linear region leaves the linear part of the layer and, accumulated over its
  ten row blocks, the column sums of it and of its squares; the next host stretch divides those by the node count to get
  the channel mean and the clamped moment variance; the normalising region subtracts the mean, scales by the reciprocal
  square root of the variance plus a literal, scales, shifts and clamps. Composed, the boundary after the second layer
  holds the hidden-layer function `Cert.Alg.layer` of `h0`, the edge list and the layer's weights.
-/
import proofs.«122408_j28759101014107_2_alg».proof.Proof.KernelCarry
import proofs.«122408_j28759101014107_2_alg».proof.Proof.LinValue2
import proofs.«122408_j28759101014107_2_alg».proof.Proof.BnValue3
import Idealize.ShloMosaic.Lib.ValueLayout
import Idealize.ShloMosaic.Lib.Pipeline.Value

set_option maxRecDepth 16384

noncomputable section

namespace Cert.KernelIdeal.KVal.L1

open Idealize.ShloMosaic Idealize.ShloMosaic.TcCoe Idealize.SL.Sem Idealize.ShloMosaic.StableHlo
open Idealize.ShloMosaic.ValueIdx
open Cert.KernelIdeal Cert.KernelIdeal.Gen Cert.KernelIdeal.KVal Cert.KernelIdeal.KVal.Carry Cert.Alg Cert.Spec

variable (m : (ℓ : Loc nD τ sig) → Buf (Elt Ideal) ℓ) (ρ : Dev nD → PrngReg) (c : Dev nD)

/-! ## Layout and host operations read at an index -/

/-- A `[50000]` column cast to `[50000, 1]` reads, at `(r, 0)`, the operand at `r`. -/
theorem col_apply (d : S50000.Idx → EReal) (h : S50000.ShapeCasts S50000x1) (r : Fin 50000) :
    shapeCast S50000x1 d h (ix2 r (0 : Fin 1)) = d (ix1 r) :=
  shapeCast_apply d h _ _ (by
    rw [Shape.rowMajor_val_two, Shape.rowMajor_val_one]
    show r.val = r.val * 1 + 0
    omega)

/-- A `[C]` vector laid along the channel axis of a `[1, C]` array reads, at `(0, j)`, the operand at `j`. -/
theorem bcast_row_apply {C : ℕ} (v : (⟨1, ![C]⟩ : Shape).Idx → EReal)
    (h : (⟨1, ![C]⟩ : Shape).BroadcastsInDim ⟨2, ![1, C]⟩ ![1]) (j : Fin C) :
    broadcastInDim ⟨2, ![1, C]⟩ ![1] h v (ix2 (0 : Fin 1) j) = v (ix1 j) := by
  refine broadcastInDim_apply ![1] h v _ (ix1 j) (fun a => ?_)
  match a with
  | ⟨0, _⟩ =>
    show j.val = if C = 1 then 0 else j.val
    split
    · have := j.isLt; omega
    · rfl

/-- The host's quotient of two arrays, at an index, is the quotient of the entries. -/
theorem hdivf_apply {s : Shape} (a b : FVec Ideal s .f32) (i : s.Idx) : Host.divf a b i = Ideal.div (a i) (b i) := rfl

/-- The channel mean as the host takes it: the column-sum row divided by the node count, through a cast to `[128]` and
    back. -/
def muK (S1 : FVec Ideal S1x128 .f32) : FVec Ideal S1x128 .f32 := fun i =>
  shapeCast S1x128
    (fun i => shapeCast S128 (Host.divf S1 (broadcastInDim S1x128 ![] Facts₀.bcast_S_S1x128 (constant S_ FTy.f32 0x47435000#32)))
      Facts₀.shapeCasts_S1x128_S128 i)
    Facts₀.shapeCasts_S128_S1x128 i

theorem muK_apply (S1 : FVec Ideal S1x128 .f32) (j : Fin 128) :
    muK S1 (ix2 (0 : Fin 1) j) = Ideal.div (S1 (ix2 (0 : Fin 1) j)) (Ideal.ofBits .f32 0x47435000#32) := by
  unfold muK
  rw [shapeCast_a_1a_apply, shapeCast_1a_a_apply, hdivf_apply, bcast_const_apply]

/-- The channel variance as the host takes it: mean of squares minus squared mean, clamped at zero. -/
def varK (S1 S2 : FVec Ideal S1x128 .f32) : FVec Ideal S1x128 .f32 := fun i =>
  shapeCast S1x128
    (fun i => shapeCast S128
      (maximumf
        (subf (Host.divf S2 (broadcastInDim S1x128 ![] Facts₀.bcast_S_S1x128 (constant S_ FTy.f32 0x47435000#32)))
          (broadcastInDim S1x128 ![1] Facts₀.bcast_S128_S1x128_1
            (mulf
              (fun i => shapeCast S128 (Host.divf S1 (broadcastInDim S1x128 ![] Facts₀.bcast_S_S1x128 (constant S_ FTy.f32 0x47435000#32)))
                Facts₀.shapeCasts_S1x128_S128 i)
              (fun i => shapeCast S128 (Host.divf S1 (broadcastInDim S1x128 ![] Facts₀.bcast_S_S1x128 (constant S_ FTy.f32 0x47435000#32)))
                Facts₀.shapeCasts_S1x128_S128 i))))
        (broadcastInDim S1x128 ![] Facts₀.bcast_S_S1x128 (constant S_ FTy.f32 0x00000000#32)))
      Facts₀.shapeCasts_S1x128_S128 i)
    Facts₀.shapeCasts_S128_S1x128 i

theorem varK_apply (S1 S2 : FVec Ideal S1x128 .f32) (j : Fin 128) :
    varK S1 S2 (ix2 (0 : Fin 1) j)
      = max (Ideal.div (S2 (ix2 (0 : Fin 1) j)) (Ideal.ofBits .f32 0x47435000#32)
          - Ideal.div (S1 (ix2 (0 : Fin 1) j)) (Ideal.ofBits .f32 0x47435000#32) * Ideal.div (S1 (ix2 (0 : Fin 1) j)) (Ideal.ofBits .f32 0x47435000#32)) 0 := by
  unfold varK
  rw [shapeCast_a_1a_apply, shapeCast_1a_a_apply, maximumf_apply, subf_apply, bcast_row_apply, mulf_apply,
    shapeCast_1a_a_apply, hdivf_apply, hdivf_apply, bcast_const_apply, bcast_const_apply, Ideal.ofBits_zero_f32]

theorem lin_congr {C : ℕ} {a a' x x' : Fin 50000 → Fin 128 → EReal} {d d' : Fin 50000 → EReal}
    {Wl Wl' Wr Wr' : Fin C → Fin 128 → EReal} {b b' : Fin C → EReal}
    (h0 : a = a') (h1 : x = x') (h2 : d = d') (h3 : Wl = Wl') (h4 : Wr = Wr') (h5 : b = b') :
    Cert.Spec.lin a x d Wl Wr b = Cert.Spec.lin a' x' d' Wl' Wr' b' := by
  subst h0 h1 h2 h3 h4 h5; rfl

theorem bnrelu_congr {C : ℕ} {eps : EReal} {f f' : Fin 50000 → Fin C → EReal} {mu mu' var var' g g' be be' : Fin C → EReal}
    (h0 : f = f') (h1 : mu = mu') (h2 : var = var') (h3 : g = g') (h4 : be = be') :
    Cert.Spec.bnrelu eps f mu var g be = Cert.Spec.bnrelu eps f' mu' var' g' be' := by
  subst h0 h1 h2 h3 h4; rfl

/-! ## What the second linear region finds -/

/-- The neighbour sum of the previous layer's output. -/
theorem E5_agg : W5 m ρ c (Proc.devRef .tc main_v50) = aggA (m ((c : Thread nD τ).loc main_arg1)) (W4 m ρ c (Proc.devRef .tc main_v40)) := by
  dsimp only [W5, hostOps2]
  after_results_simp
  rw [W4_v1, W1_v1, W4_v3, W1_v3]
  rfl

theorem E5_x : W5 m ρ c (Proc.devRef .tc main_v40) = W4 m ρ c (Proc.devRef .tc main_v40) := by host_keeps

theorem E5_deg : W5 m ρ c (Proc.devRef .tc main_v10)
    = fun i => shapeCast S50000x1 (degA (m ((c : Thread nD τ).loc main_arg1))) Facts₀.shapeCasts_S50000_S50000x1 i := W5_deg m ρ c

theorem E5_wl : W5 m ρ c (Proc.devRef .tc main_v51)
    = transpose S128x128 [1, 0] (m ((c : Thread nD τ).loc main_arg7)) Facts₀.transposes_S128x128_S128x128_1_0 := by
  dsimp only [W5, hostOps2]
  after_results_simp
  rw [W4_arg7]

theorem E5_wr : W5 m ρ c (Proc.devRef .tc main_v52)
    = transpose S128x128 [1, 0] (m ((c : Thread nD τ).loc main_arg8)) Facts₀.transposes_S128x128_S128x128_1_0 := by
  dsimp only [W5, hostOps2]
  after_results_simp
  rw [W4_arg8]

theorem E5_b : W5 m ρ c (Proc.devRef .tc main_v53)
    = fun i => shapeCast S1x128 (m ((c : Thread nD τ).loc main_arg9)) Facts₀.shapeCasts_S128_S1x128 i := by
  dsimp only [W5, hostOps2]
  after_results_simp
  rw [W4_arg9]
  rfl

/-! ## The second linear region's value -/

/-- The linear part of the second layer, as a function of the first layer's output (kept as the run leaves it), the
    edge list and the second layer's weights. -/
def lin1K : Fin 50000 → Fin 128 → EReal :=
  Cert.Spec.lin (aggOpK (m ((c : Thread nD τ).loc main_arg1)) (cur (W4 m ρ c (Proc.devRef .tc main_v40) : S50000x128.Idx → EReal))) (cur (W4 m ρ c (Proc.devRef .tc main_v40) : S50000x128.Idx → EReal)) (degsK (m ((c : Thread nD τ).loc main_arg1)))
    (fun j k => (m ((c : Thread nD τ).loc main_arg7) : S128x128.Idx → EReal) (ix2 j k))
    (fun j k => (m ((c : Thread nD τ).loc main_arg8) : S128x128.Idx → EReal) (ix2 j k))
    (fun j => (m ((c : Thread nD τ).loc main_arg9) : S128.Idx → EReal) (ix1 j))

set_option maxHeartbeats 1000000 in
theorem opnd2_0 : (fun (r : Fin 50000) (k : Fin 128) => (dat2 (V5 m ρ) c).A 0 (ix2 r k)) = aggOpK (m ((c : Thread nD τ).loc main_arg1)) (cur (W4 m ρ c (Proc.devRef .tc main_v40) : S50000x128.Idx → EReal)) := by
  have a : (dat2 (V5 m ρ) c).A 0 = aggA (m ((c : Thread nD τ).loc main_arg1)) (W4 m ρ c (Proc.devRef .tc main_v40)) := (A_eq2 (V5 m ρ) c 0).trans (E5_agg m ρ c)
  rw [a]; unfold aggOpK; rw [unc_cur]; rfl

set_option maxHeartbeats 1000000 in
theorem opnd2_1 : (fun (r : Fin 50000) (k : Fin 128) => (dat2 (V5 m ρ) c).A 1 (ix2 r k)) = cur (W4 m ρ c (Proc.devRef .tc main_v40) : S50000x128.Idx → EReal) := by
  have a : (dat2 (V5 m ρ) c).A 1 = W4 m ρ c (Proc.devRef .tc main_v40) := (A_eq2 (V5 m ρ) c 1).trans (E5_x m ρ c)
  rw [a]; rfl

set_option maxHeartbeats 1000000 in
theorem opnd2_2 : (fun (r : Fin 50000) => (dat2 (V5 m ρ) c).A 2 (ix2 r 0)) = degsK (m ((c : Thread nD τ).loc main_arg1)) := by
  have a : (dat2 (V5 m ρ) c).A 2 = fun i => shapeCast S50000x1 (degA (m ((c : Thread nD τ).loc main_arg1))) Facts₀.shapeCasts_S50000_S50000x1 i := (A_eq2 (V5 m ρ) c 2).trans (E5_deg m ρ c)
  rw [a]; funext r; exact col_apply _ _ r

set_option maxHeartbeats 1000000 in
theorem opnd2_3 : (fun (j k : Fin 128) => (dat2 (V5 m ρ) c).A 3 (ix2 k j)) = fun j k => (m ((c : Thread nD τ).loc main_arg7) : S128x128.Idx → EReal) (ix2 j k) := by
  have a : (dat2 (V5 m ρ) c).A 3 = transpose S128x128 [1, 0] (m ((c : Thread nD τ).loc main_arg7)) Facts₀.transposes_S128x128_S128x128_1_0 := (A_eq2 (V5 m ρ) c 3).trans (E5_wl m ρ c)
  rw [a]; funext j k; exact transpose_ix2_apply _ _ k j

set_option maxHeartbeats 1000000 in
theorem opnd2_4 : (fun (j k : Fin 128) => (dat2 (V5 m ρ) c).A 4 (ix2 k j)) = fun j k => (m ((c : Thread nD τ).loc main_arg8) : S128x128.Idx → EReal) (ix2 j k) := by
  have a : (dat2 (V5 m ρ) c).A 4 = transpose S128x128 [1, 0] (m ((c : Thread nD τ).loc main_arg8)) Facts₀.transposes_S128x128_S128x128_1_0 := (A_eq2 (V5 m ρ) c 4).trans (E5_wr m ρ c)
  rw [a]; funext j k; exact transpose_ix2_apply _ _ k j

set_option maxHeartbeats 1000000 in
theorem opnd2_5 : (fun (j : Fin 128) => (dat2 (V5 m ρ) c).A 5 (ix2 0 j)) = fun j => (m ((c : Thread nD τ).loc main_arg9) : S128.Idx → EReal) (ix1 j) := by
  have a : (dat2 (V5 m ρ) c).A 5 = fun i => shapeCast S1x128 (m ((c : Thread nD τ).loc main_arg9)) Facts₀.shapeCasts_S128_S1x128 i := (A_eq2 (V5 m ρ) c 5).trans (E5_b m ρ c)
  rw [a]; funext j; exact shapeCast_a_1a_apply _ _ 0 j

set_option maxHeartbeats 1000000 in
theorem lin1_val (r : Fin 50000) (j : Fin 128) :
    (dat2 (V5 m ρ) c).arrAt 6 cfg2.N (ix2 r j) = lin1K m ρ c r j :=
  (LinValue2.lin_eq (V5 m ρ) c r j).trans (congrFun (congrFun (lin_congr (opnd2_0 m ρ c) (opnd2_1 m ρ c) (opnd2_2 m ρ c) (opnd2_3 m ρ c) (opnd2_4 m ρ c) (opnd2_5 m ρ c)) r) j)

set_option maxHeartbeats 1000000

theorem W6_lin (r : Fin 50000) (j : Fin 128) :
    (W6 m ρ c (Proc.devRef .tc main_v54_0) : S50000x128.Idx → EReal) (ix2 r j) = lin1K m ρ c r j :=
  (congrFun (W6_arr m ρ c 6) (ix2 r j)).trans (lin1_val m ρ c r j)

theorem W6_sum (j : Fin 128) :
    (W6 m ρ c (Proc.devRef .tc main_v54_1) : S1x128.Idx → EReal) (ix2 (0 : Fin 1) j) = Cert.Spec.colSum (lin1K m ρ c) j :=
  (congrFun (W6_arr m ρ c 7) (ix2 (0 : Fin 1) j)).trans ((LinValue2.sum_eq (V5 m ρ) c j).trans
    (congrArg (fun f => Cert.Spec.colSum f j) (funext fun n => funext fun k => lin1_val m ρ c n k)))

theorem W6_sumsq (j : Fin 128) :
    (W6 m ρ c (Proc.devRef .tc main_v54_2) : S1x128.Idx → EReal) (ix2 (0 : Fin 1) j) = Cert.Spec.colSumSq (lin1K m ρ c) j :=
  (congrFun (W6_arr m ρ c 8) (ix2 (0 : Fin 1) j)).trans ((LinValue2.sumsq_eq (V5 m ρ) c j).trans
    (congrArg (fun f => Cert.Spec.colSumSq f j) (funext fun n => funext fun k => lin1_val m ρ c n k)))
/-! ## What the second normalising region finds -/

theorem E7_lin : W7 m ρ c (Proc.devRef .tc main_v54_0) = W6 m ρ c (Proc.devRef .tc main_v54_0) := by host_keeps

theorem E7_mu : W7 m ρ c (Proc.devRef .tc main_v68) = muK (W6 m ρ c (Proc.devRef .tc main_v54_1)) := by
  dsimp only [W7, hostOps3]
  after_results_simp
  rfl

theorem E7_var : W7 m ρ c (Proc.devRef .tc main_v69) = varK (W6 m ρ c (Proc.devRef .tc main_v54_1)) (W6 m ρ c (Proc.devRef .tc main_v54_2)) := by
  dsimp only [W7, hostOps3]
  after_results_simp
  rfl

theorem E7_g : W7 m ρ c (Proc.devRef .tc main_v66)
    = fun i => shapeCast S1x128 (m ((c : Thread nD τ).loc main_arg10)) Facts₀.shapeCasts_S128_S1x128 i := by
  dsimp only [W7, hostOps3]
  after_results_simp
  rw [W6_arg10]
  rfl

theorem E7_be : W7 m ρ c (Proc.devRef .tc main_v67)
    = fun i => shapeCast S1x128 (m ((c : Thread nD τ).loc main_arg11)) Facts₀.shapeCasts_S128_S1x128 i := by
  dsimp only [W7, hostOps3]
  after_results_simp
  rw [W6_arg11]
  rfl

end Cert.KernelIdeal.KVal.L1

namespace Cert.KernelIdeal.KVal

open Idealize.ShloMosaic Idealize.ShloMosaic.TcCoe Idealize.SL.Sem Idealize.ShloMosaic.StableHlo
open Idealize.ShloMosaic.ValueIdx
open Cert.KernelIdeal Cert.KernelIdeal.Gen Cert.KernelIdeal.KVal.Carry Cert.KernelIdeal.KVal.L1 Cert.Alg Cert.Spec

variable (m : (ℓ : Loc nD τ sig) → Buf (Elt Ideal) ℓ) (ρ : Dev nD → PrngReg) (c : Dev nD)

/-! ## The second hidden layer -/

/-- THE SECOND LAYER'S OUTPUT, as the run leaves it, is the hidden-layer function of the first layer's output. -/
theorem layer1 : W8 m ρ c (Proc.devRef .tc main_v70)
    = unc (Cert.Alg.layer Cert.Spec.varMoments (Ideal.ofBits .f32 0x47435000#32) (Ideal.ofBits .f32 0x3727C5AC#32)
        (aggOpK (m ((c : Thread nD τ).loc main_arg1)) (cur (W4 m ρ c (Proc.devRef .tc main_v40) : S50000x128.Idx → EReal))) (cur (W4 m ρ c (Proc.devRef .tc main_v40) : S50000x128.Idx → EReal)) (degsK (m ((c : Thread nD τ).loc main_arg1)))
    (fun j k => (m ((c : Thread nD τ).loc main_arg7) : S128x128.Idx → EReal) (ix2 j k))
    (fun j k => (m ((c : Thread nD τ).loc main_arg8) : S128x128.Idx → EReal) (ix2 j k))
    (fun j => (m ((c : Thread nD τ).loc main_arg9) : S128.Idx → EReal) (ix1 j))
        (fun j => (m ((c : Thread nD τ).loc main_arg10) : S128.Idx → EReal) (ix1 j))
        (fun j => (m ((c : Thread nD τ).loc main_arg11) : S128.Idx → EReal) (ix1 j))) := by
  refine ((W8_arr m ρ c 5).trans (BnValue3.final (V7 m ρ) c)).trans ?_
  have g0 : (fun (n : Fin 50000) (j : Fin 128) => (V7 m ρ c main_v54_0 : S50000x128.Idx → EReal) (ix2 n j)) = lin1K m ρ c := by
    funext n j
    show (W7 m ρ c (Proc.devRef .tc main_v54_0) : S50000x128.Idx → EReal) (ix2 n j) = _
    rw [E7_lin]; exact W6_lin m ρ c n j
  have g1 : (fun (j : Fin 128) => (V7 m ρ c main_v68 : S1x128.Idx → EReal) (ix2 (0 : Fin 1) j)) = Cert.Spec.mean (Ideal.ofBits .f32 0x47435000#32) (lin1K m ρ c) := by
    funext j
    show (W7 m ρ c (Proc.devRef .tc main_v68) : S1x128.Idx → EReal) (ix2 (0 : Fin 1) j) = _
    rw [E7_mu, muK_apply, W6_sum]; rfl
  have g2 : (fun (j : Fin 128) => (V7 m ρ c main_v69 : S1x128.Idx → EReal) (ix2 (0 : Fin 1) j)) = Cert.Spec.varMoments (Ideal.ofBits .f32 0x47435000#32) (lin1K m ρ c) := by
    funext j
    show (W7 m ρ c (Proc.devRef .tc main_v69) : S1x128.Idx → EReal) (ix2 (0 : Fin 1) j) = _
    rw [E7_var, varK_apply, W6_sum, W6_sumsq]; rfl
  have g3 : (fun (j : Fin 128) => (V7 m ρ c main_v66 : S1x128.Idx → EReal) (ix2 (0 : Fin 1) j)) = fun j => (m ((c : Thread nD τ).loc main_arg10) : S128.Idx → EReal) (ix1 j) := by
    funext j
    show (W7 m ρ c (Proc.devRef .tc main_v66) : S1x128.Idx → EReal) (ix2 (0 : Fin 1) j) = _
    rw [E7_g]; exact shapeCast_a_1a_apply _ _ 0 j
  have g4 : (fun (j : Fin 128) => (V7 m ρ c main_v67 : S1x128.Idx → EReal) (ix2 (0 : Fin 1) j)) = fun j => (m ((c : Thread nD τ).loc main_arg11) : S128.Idx → EReal) (ix1 j) := by
    funext j
    show (W7 m ρ c (Proc.devRef .tc main_v67) : S1x128.Idx → EReal) (ix2 (0 : Fin 1) j) = _
    rw [E7_be]; exact shapeCast_a_1a_apply _ _ 0 j
  funext i
  unfold BnValue3.bn
  refine (congrFun (congrFun (bnrelu_congr g0 g1 g2 g3 g4) (i 0)) (i 1)).trans ?_
  rfl

end Cert.KernelIdeal.KVal

end
-- ==== Proof.LinPay4.lean ====
/-
  The arithmetic of the fused linear layer's body (output layer), read entry by entry over the extended reals.

  The body receives a block of 5000 rows: the neighbour sums `x0`, the rows' own features `x1`, the clamped
  in-degrees `x2` (one column), the two weight matrices `x3`, `x4` indexed (input channel, output channel), and
  the bias row `x5`. It stores three things: the linear layer's block (`pay4_apply`), and into two [1,64]
  accumulators the block's column sums (`pay5_apply`) and column sums of squares (`pay1_apply`), each added to
  what the accumulator held; at the first grid point the accumulators are first set to zero (`pay2_apply`,
  `pay3_apply`). Changes of float format are the identity on extended reals, a matrix product into a zero
  accumulator is the sum over the contracted channel, and a reduction along the rows is the sum over the rows.
-/
import proofs.«122408_j28759101014107_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.LinPay4

open Idealize.ShloMosaic Idealize.ShloMosaic.ValueIdx
open Cert.KernelIdeal Cert.KernelIdeal.Gen

/-- The dimension numbers of the body's two matrix products: rows of the left operand against columns of the right. -/
abbrev D0 : DotDims S5000x128 S128x64 S5000x64 := dot_S5000x128_S128x64_S5000x64_1_0_0_1_n_n

theorem lhs0 (i : S5000x64.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem lhs1 (i : S5000x64.Idx) (q : D0.contr.Idx) : (D0.lhsIdx i q 1).val = (q ⟨0, by decide⟩).val :=
  D0.lhsIdx_val_of_single rfl i q
theorem rhs0 (i : S5000x64.Idx) (q : D0.contr.Idx) : (D0.rhsIdx i q 0).val = (q ⟨0, by decide⟩).val :=
  D0.rhsIdx_val_of_single rfl i q
theorem rhs1 (i : S5000x64.Idx) (q : D0.contr.Idx) : (D0.rhsIdx i q 1).val = (i 1).val := by
  unfold DotDims.rhsIdx
  rw [dif_neg (show ¬(1 : Fin S128x64.rank) ∈ D0.rhsBatch by decide), dif_pos (show (1 : Fin S128x64.rank) ∈ D0.rhsNonContracting by decide)]
  rfl

/-- A matrix product into the zero accumulator, at row `r` and column `j`: the sum over the 128 contracted
    channels of the row's entries times the column's. -/
theorem matmul_at (a : FVec Ideal S5000x128 .bf16) (b : FVec Ideal S128x64 .bf16) (r : Fin 5000) (j : Fin 64) :
    matmul D0 none a b (constant (F := Ideal) S5000x64 .f32 0x00000000#32) (ix2 r j)
      = ∑ k : Fin 128, a (ix2 r k) * b (ix2 k j) := by
  refine (Ideal.matmul_constant_zero_apply D0 none a b (ix2 r j)).trans ?_
  rw [← Equiv.sum_comp (contrEquiv1 D0 128 rfl rfl).symm]
  refine Finset.sum_congr rfl fun k _ => ?_
  have hk := contrEquiv1_symm_val D0 128 rfl rfl k
  have el : D0.lhsIdx (ix2 r j) ((contrEquiv1 D0 128 rfl rfl).symm k) = ix2 r k := funext fun a => Fin.ext (by
    match a with
    | ⟨0, _⟩ => exact lhs0 _ _
    | ⟨1, _⟩ => exact (lhs1 _ _).trans hk)
  have er : D0.rhsIdx (ix2 r j) ((contrEquiv1 D0 128 rfl rfl).symm k) = ix2 k j := funext fun a => Fin.ext (by
    match a with
    | ⟨0, _⟩ => exact (rhs0 _ _).trans hk
    | ⟨1, _⟩ => exact rhs1 _ _)
  rw [el, er]

/-- The degree column broadcast along the channels reads, at row `r` and any channel, the row's degree. -/
theorem bcast_col (x : FVec Ideal S5000x1 .f32) (r : Fin 5000) (k : Fin 128) :
    broadcastTo S5000x128 x broadcasts_S5000x1_S5000x128 (ix2 r k) = x (ix2 r 0) :=
  broadcastTo_apply x broadcasts_S5000x1_S5000x128 (ix2 r k) (ix2 r 0) fun a => by
    match a with
    | ⟨0, _⟩ => rfl
    | ⟨1, _⟩ => rfl

/-- The bias row broadcast along the rows reads, at any row and channel `j`, the bias of channel `j`. -/
theorem bcast_row (x : FVec Ideal S1x64 .f32) (r : Fin 5000) (j : Fin 64) :
    broadcastTo S5000x64 x broadcasts_S1x64_S5000x64 (ix2 r j) = x (ix2 0 j) :=
  broadcastTo_apply x broadcasts_S1x64_S5000x64 (ix2 r j) (ix2 0 j) fun a => by
    match a with
    | ⟨0, _⟩ => rfl
    | ⟨1, _⟩ => rfl

/-- The sum over the block's 5000 rows of a [5000,64] vector, at channel `j`. -/
theorem colsum_at (src : FVec Ideal S5000x64 .f32) (j : Fin 64) :
    multiReduction .add [0] S64 src 0x00000000#32 reduces_S5000x64_S64 (.inl rfl) rfl (ix1 j)
      = ∑ r : Fin 5000, src (ix2 r j) := by
  refine (Ideal.multiReduction_add_single src 0x00000000#32 reduces_S5000x64_S64 (.inl rfl) rfl (ix1 j)).trans ?_
  refine Finset.sum_congr rfl fun r _ => congrArg src (funext fun a => ?_)
  match a with
  | ⟨0, _⟩ => rfl
  | ⟨1, _⟩ => rfl

/-- A [64] vector viewed as a [1,64] row reads, at (0, j), its entry `j`. -/
theorem row_of_vec (v : FVec Ideal S64 .f32) (j : Fin 64) :
    shapeCast S1x64 v shapeCasts_S64_S1x64 (ix2 0 j) = v (ix1 j) := by
  refine (shapeCast_addUnit_apply ![64] v shapeCasts_S64_S1x64 (ix2 0 j)).trans (congrArg v (funext fun a => ?_))
  match a with
  | ⟨0, _⟩ => rfl

/-- THE LINEAR LAYER'S BLOCK at row `r`, output channel `j`: the degree-normalised neighbour sums through the first
    weight matrix, the rows themselves through the second, plus the bias. The weight blocks are indexed
    (input channel, output channel). -/
theorem pay4_apply (x0 : Vec Ideal S5000x128 .f32) (x2 : Vec Ideal S5000x1 .f32) (x1 : Vec Ideal S5000x128 .f32)
    (x3 x4 : Vec Ideal S128x64 .f32) (x5 : Vec Ideal S1x64 .f32) (r : Fin 5000) (j : Fin 64) :
    k4_pay4 (F := Ideal) x0 x2 x1 x3 x4 x5 (ix2 r j)
      = ((∑ k : Fin 128, Ideal.div (x0 (ix2 r k)) (x2 (ix2 r 0)) * x3 (ix2 k j)) + ∑ k : Fin 128, x1 (ix2 r k) * x4 (ix2 k j))
        + x5 (ix2 0 j) := by
  unfold k4_pay4
  simp only [shapeCast_self]
  show (matmul D0 none _ _ (constant (F := Ideal) S5000x64 .f32 0x00000000#32) (ix2 r j)
      + matmul D0 none _ _ (constant (F := Ideal) S5000x64 .f32 0x00000000#32) (ix2 r j))
      + broadcastTo S5000x64 x5 broadcasts_S1x64_S5000x64 (ix2 r j) = _
  rw [matmul_at, matmul_at, bcast_row]
  refine congrArg₂ (· + ·) (congrArg₂ (· + ·) (Finset.sum_congr rfl fun k _ => ?_) rfl) rfl
  show Ideal.div (x0 (ix2 r k)) (broadcastTo S5000x128 x2 broadcasts_S5000x1_S5000x128 (ix2 r k)) * x3 (ix2 k j) = _
  rw [bcast_col]

/-- THE COLUMN SUMS' BLOCK at channel `j`: what the accumulator held plus the sum of the linear layer's block over its
    5000 rows. -/
theorem pay5_apply (x0 : Vec Ideal S5000x128 .f32) (x2 : Vec Ideal S5000x1 .f32) (x1 : Vec Ideal S5000x128 .f32)
    (x3 x4 : Vec Ideal S128x64 .f32) (x5 : Vec Ideal S1x64 .f32) (acc : Vec Ideal S1x64 .f32) (j : Fin 64) :
    k4_pay5 (F := Ideal) x0 x2 x1 x3 x4 x5 acc (ix2 0 j)
      = acc (ix2 0 j) + ∑ r : Fin 5000, k4_pay4 (F := Ideal) x0 x2 x1 x3 x4 x5 (ix2 r j) := by
  unfold k4_pay5
  simp only [shapeCast_self]
  show acc (ix2 0 j) + shapeCast S1x64 _ shapeCasts_S64_S1x64 (ix2 0 j) = _
  refine congrArg (acc (ix2 0 j) + ·) ?_
  exact (row_of_vec _ j).trans (colsum_at _ j)

/-- THE COLUMN SUMS OF SQUARES' BLOCK at channel `j`: what the accumulator held plus the sum of the squares of a
    [5000,64] block's entries over its 5000 rows. -/
theorem pay1_apply (v : FVec Ideal S5000x64 .f32) (acc : Vec Ideal S1x64 .f32) (j : Fin 64) :
    k4_pay1 (F := Ideal) v acc (ix2 0 j) = acc (ix2 0 j) + ∑ r : Fin 5000, v (ix2 r j) * v (ix2 r j) := by
  unfold k4_pay1
  simp only [shapeCast_self]
  show acc (ix2 0 j) + shapeCast S1x64 _ shapeCasts_S64_S1x64 (ix2 0 j) = _
  refine congrArg (acc (ix2 0 j) + ·) ?_
  exact (row_of_vec _ j).trans (colsum_at _ j)

/-- The two zero blocks the first grid point stores into the accumulators read `0` everywhere. -/
theorem pay2_apply (i : S1x64.Idx) : k4_pay2 (F := Ideal) i = 0 := Ideal.ofBits_zero_f32
theorem pay3_apply (i : S1x64.Idx) : k4_pay3 (F := Ideal) i = 0 := Ideal.ofBits_zero_f32

end Cert.KernelIdeal.LinPay4
-- ==== Proof.LinValue4.lean ====
/-
  The output layer's fused linear region: its first result array as a function of the arrays the region finds.

  The grid has ten points; point `t` receives rows `5000 t … 5000 t + 4999` of the neighbour sums, of the
  features and of the clamped degrees, and the whole weight matrices and bias. It writes its block of the
  linear layer to rows `5000 t …` of the first result (`lin_eq`).

  The case lemmas (`out_A_6`, `out_B_6`) say what one run of the body leaves in the first output buffer, for
  any float instance: the store's payload of the loaded blocks. The block lemmas (`iblk_0` … `iblk_5`) read
  each input block entry by entry off its array.
-/
import proofs.«122408_j28759101014107_2_alg».proof.Proof.Gen.KernelIdeal.Frame
import proofs.«122408_j28759101014107_2_alg».proof.Proof.LinPay4
import proofs.«122408_j28759101014107_2_alg».proof.Proof.Spec
import Idealize.ShloMosaic.Lib.Pipeline.Value
import Idealize.ShloMosaic.Lib.Tactic

noncomputable section

namespace Cert.KernelIdeal.LinValue4

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

section Cases
variable {F : FTy → Type} [FloatOps F]

theorem out_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond4_0 i) (x0 : Vec F S5000x128 .f32) (x1 : Vec F S5000x128 .f32) (x2 : Vec F S5000x1 .f32) (x3 : Vec F S128x64 .f32) (x4 : Vec F S128x64 .f32) (x5 : Vec F S1x64 .f32) :
    out4_A_6 c i arg1 harg1 arg2 harg2 arg3 harg3 arg4 harg4 arg5 harg5 arg6 harg6 arg7 harg7 arg8 harg8 arg9 harg9 hc0 x0 x1 x2 x3 x4 x5 = k4_pay4 x0 x2 x1 x3 x4 x5 := by
  unfold out4_A_6
  rw [View.read_writes_eq_canon _ _ _ (cover4_A_6 c i arg1 harg1 arg2 harg2 arg3 harg3 arg4 harg4 arg5 harg5 arg6 harg6 arg7 harg7 arg8 harg8 arg9 harg9 hc0 x0 x1 x2 x3 x4 x5)]
  unfold kernelRun4_A
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x64) hz, View.ld_unit_zero (S := S1x64) hz]

theorem out_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (x0 : Vec F S5000x128 .f32) (x1 : Vec F S5000x128 .f32) (x2 : Vec F S5000x1 .f32) (x3 : Vec F S128x64 .f32) (x4 : Vec F S128x64 .f32) (x5 : Vec F S1x64 .f32) (xo7 : Vec F S1x64 .f32) (xo8 : Vec F S1x64 .f32) :
    out4_B_6 c i arg1 harg1 arg2 harg2 arg3 harg3 arg4 harg4 arg5 harg5 arg6 harg6 arg7 harg7 arg8 harg8 arg9 harg9 hc0 x0 x1 x2 x3 x4 x5 xo7 xo8 = k4_pay4 x0 x2 x1 x3 x4 x5 := by
  unfold out4_B_6
  rw [View.read_writes_eq_canon _ _ _ (cover4_B_6 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  try sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S128x64) hz, View.ld_unit_zero (S := S1x64) hz]

end Cases

/-! ## The windows' blocks, read entry by entry off the arrays the region finds -/

/-- The printed index maps, decided over the ten grid points: the row-blocked windows (0, 1, 2 and the output 6) sit at
    block row `t`, the others at block (0, 0). -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0) :=
  (by decide +kernel : ∀ t : Fin grid4.N, _)

section Blocks
variable {F : FTy → Type} [FloatOps F]
variable (V : (c : Dev nD) → (b : Ref sig .tc) → Buf (Elt F) ((c : Thread nD τ).loc b))

/-- Row `r` of the neighbour-sum window's block at point `t` is row `5000 t + r` of its array. -/
theorem iblk_0 (c : Dev nD) (t : Fin cfg4.N) (r : Fin 5000) (n : Fin 50000) (hn : n.val = 5000 * t.val + r.val) (k : Fin 128) :
    (iblk4 V c 0 t : Vec F S5000x128 .f32) (ix2 r k) = (dat4 V c).A 0 (ix2 n k) := by
  obtain ⟨⟨e0, e1⟩, -⟩ := idx_facts t
  unfold iblk4
  rw [View.read_apply]
  show V c (Pipeline.arrRef spec4 0) _ = V c (Pipeline.arrRef spec4 0) _
  refine congrArg _ (funext fun a => Fin.ext ?_)
  match a with
  | ⟨0, _⟩ => show win4_0.index t 0 * 5000 + 1 * r.val = n.val; rw [e0, hn]; omega
  | ⟨1, _⟩ => show win4_0.index t 1 * 128 + 1 * k.val = k.val; rw [e1]; omega

/-- Row `r` of the feature window's block at point `t` is row `5000 t + r` of its array. -/
theorem iblk_1 (c : Dev nD) (t : Fin cfg4.N) (r : Fin 5000) (n : Fin 50000) (hn : n.val = 5000 * t.val + r.val) (k : Fin 128) :
    (iblk4 V c 1 t : Vec F S5000x128 .f32) (ix2 r k) = (dat4 V c).A 1 (ix2 n k) := by
  obtain ⟨-, ⟨e0, e1⟩, -⟩ := idx_facts t
  unfold iblk4
  rw [View.read_apply]
  show V c (Pipeline.arrRef spec4 1) _ = V c (Pipeline.arrRef spec4 1) _
  refine congrArg _ (funext fun a => Fin.ext ?_)
  match a with
  | ⟨0, _⟩ => show win4_1.index t 0 * 5000 + 1 * r.val = n.val; rw [e0, hn]; omega
  | ⟨1, _⟩ => show win4_1.index t 1 * 128 + 1 * k.val = k.val; rw [e1]; omega

/-- Row `r` of the degree window's block at point `t` is row `5000 t + r` of the degree column. -/
theorem iblk_2 (c : Dev nD) (t : Fin cfg4.N) (r : Fin 5000) (n : Fin 50000) (hn : n.val = 5000 * t.val + r.val) :
    (iblk4 V c 2 t : Vec F S5000x1 .f32) (ix2 r (0 : Fin 1)) = (dat4 V c).A 2 (ix2 n (0 : Fin 1)) := by
  obtain ⟨-, -, ⟨e0, e1⟩, -⟩ := idx_facts t
  unfold iblk4
  rw [View.read_apply]
  show V c (Pipeline.arrRef spec4 2) _ = V c (Pipeline.arrRef spec4 2) _
  refine congrArg _ (funext fun a => Fin.ext ?_)
  match a with
  | ⟨0, _⟩ => show win4_2.index t 0 * 5000 + 1 * r.val = n.val; rw [e0, hn]; omega
  | ⟨1, _⟩ => show win4_2.index t 1 * 1 + 1 * 0 = 0; rw [e1]

/-- The first weight window's one block is its whole array, at every point. -/
theorem iblk_3 (c : Dev nD) (t : Fin cfg4.N) (k : Fin 128) (j : Fin 64) :
    (iblk4 V c 3 t : Vec F S128x64 .f32) (ix2 k j) = (dat4 V c).A 3 (ix2 k j) := by
  obtain ⟨-, -, -, ⟨e0, e1⟩, -⟩ := idx_facts t
  unfold iblk4
  rw [View.read_apply]
  show V c (Pipeline.arrRef spec4 3) _ = V c (Pipeline.arrRef spec4 3) _
  refine congrArg _ (funext fun a => Fin.ext ?_)
  match a with
  | ⟨0, _⟩ => show win4_3.index t 0 * 128 + 1 * k.val = k.val; rw [e0]; omega
  | ⟨1, _⟩ => show win4_3.index t 1 * 64 + 1 * j.val = j.val; rw [e1]; omega

/-- The second weight window's one block is its whole array, at every point. -/
theorem iblk_4 (c : Dev nD) (t : Fin cfg4.N) (k : Fin 128) (j : Fin 64) :
    (iblk4 V c 4 t : Vec F S128x64 .f32) (ix2 k j) = (dat4 V c).A 4 (ix2 k j) := by
  obtain ⟨-, -, -, -, ⟨e0, e1⟩, -⟩ := idx_facts t
  unfold iblk4
  rw [View.read_apply]
  show V c (Pipeline.arrRef spec4 4) _ = V c (Pipeline.arrRef spec4 4) _
  refine congrArg _ (funext fun a => Fin.ext ?_)
  match a with
  | ⟨0, _⟩ => show win4_4.index t 0 * 128 + 1 * k.val = k.val; rw [e0]; omega
  | ⟨1, _⟩ => show win4_4.index t 1 * 64 + 1 * j.val = j.val; rw [e1]; omega

/-- The bias window's one block is its whole row, at every point. -/
theorem iblk_5 (c : Dev nD) (t : Fin cfg4.N) (j : Fin 64) :
    (iblk4 V c 5 t : Vec F S1x64 .f32) (ix2 (0 : Fin 1) j) = (dat4 V c).A 5 (ix2 (0 : Fin 1) j) := by
  obtain ⟨-, -, -, -, -, ⟨e0, e1⟩, -⟩ := idx_facts t
  unfold iblk4
  rw [View.read_apply]
  show V c (Pipeline.arrRef spec4 5) _ = V c (Pipeline.arrRef spec4 5) _
  refine congrArg _ (funext fun a => Fin.ext ?_)
  match a with
  | ⟨0, _⟩ => show win4_5.index t 0 * 1 + 1 * 0 = 0; rw [e0]
  | ⟨1, _⟩ => show win4_5.index t 1 * 64 + 1 * j.val = j.val; rw [e1]; omega

/-- The linear layer's block at point `t`: the body's payload of the six input blocks there. -/
def blk6 (c : Dev nD) (t : Fin cfg4.N) : Vec F S5000x64 .f32 :=
  k4_pay4 (iblk4 V c 0 t) (iblk4 V c 2 t) (iblk4 V c 1 t) (iblk4 V c 3 t) (iblk4 V c 4 t) (iblk4 V c 5 t)

/-- After every point the first output's buffer holds that point's block of the linear layer. -/
theorem outs6 (c : Dev nD) (t : Fin cfg4.N) : (outsAt4 V c t.val t.isLt).1 = blk6 V c t := by
  by_cases h0 : t.val % 10 = 0
  · rw [outsAt4_A V c t h0]; dsimp only; exact out_A_6 ..
  · rw [outsAt4_B V c t h0]; dsimp only; exact out_B_6 ..

end Blocks

/-! ## At the extended reals: the three result arrays -/

section AtIdeal
variable (V : (c : Dev nD) → (b : Ref sig .tc) → Buf (Elt Ideal) ((c : Thread nD τ).loc b))

/-- The linear layer of the six arrays the region finds, as contents of the first result array. -/
def G6 (c : Dev nD) : S50000x64.Idx → EReal := fun i =>
  Cert.Spec.lin (fun r k => (dat4 V c).A 0 (ix2 r k)) (fun r k => (dat4 V c).A 1 (ix2 r k)) (fun r => (dat4 V c).A 2 (ix2 r 0))
    (fun j k => (dat4 V c).A 3 (ix2 k j)) (fun j k => (dat4 V c).A 4 (ix2 k j)) (fun j => (dat4 V c).A 5 (ix2 0 j)) (i 0) (i 1)

/-- Row `r` of point `t`'s block of the linear layer is row `5000 t + r` of `G6`. -/
theorem blk6_apply (c : Dev nD) (t : Fin cfg4.N) (r : Fin 5000) (j : Fin 64) (n : Fin 50000) (hn : n.val = 5000 * t.val + r.val) :
    blk6 V c t (ix2 r j) = G6 V c (ix2 n j) := by
  unfold blk6
  refine (LinPay4.pay4_apply (iblk4 V c 0 t) (iblk4 V c 2 t) (iblk4 V c 1 t) (iblk4 V c 3 t) (iblk4 V c 4 t) (iblk4 V c 5 t) r j).trans ?_
  unfold G6 Cert.Spec.lin
  refine congrArg₂ (· + ·) (congrArg₂ (· + ·) (Finset.sum_congr rfl fun k _ => ?_) (Finset.sum_congr rfl fun k _ => ?_)) ?_
  · rw [iblk_0 V c t r n hn k, iblk_2 V c t r n hn, iblk_3 V c t k j]
  · rw [iblk_1 V c t r n hn k, iblk_4 V c t k j]
  · exact iblk_5 V c t j

theorem hN : cfg4.N = 10 := N_4

/-- An index of the first result array is in point `t`'s block iff each coordinate is in the block's range. -/
theorem mem_blk6 (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v84_0).slice (win4_6.rect t)).set ↔ _
  rw [View.set_slice_whole, Rect.mem_set_unit]
  exact Iff.rfl

/-- What point `t` writes back to the first result array is its block of `G6`. -/
theorem flushed6 (c : Dev nD) (t : Fin cfg4.N) :
    (dat4 V c).flushed 6 t = ((cfg4.win 6).blk t).view.read (Elt Ideal) (G6 V c) := by
  have ht : t.val < 10 := lt_of_lt_of_eq t.isLt hN
  obtain ⟨-, -, -, -, -, -, ⟨e0, e1⟩, -⟩ := idx_facts t
  show (cfg4.win 6).cut (grid4.coords t) ((dat4 V c).after 6 t) = _
  rw [after4_6, outs6]
  funext y
  obtain ⟨r, j, rfl⟩ : ∃ (r : Fin 5000) (j : Fin 64), y = ix2 r j := ⟨y 0, y 1, eq_ix2 y⟩
  rw [View.read_apply]
  have he : ((cfg4.win 6).blk t).view.emb (ix2 r j) = ix2 (⟨5000 * t.val + r.val, by omega⟩ : Fin 50000) j :=
    funext fun a => Fin.ext (by
      match a with
      | ⟨0, _⟩ => show win4_6.index t 0 * 5000 + 1 * r.val = 5000 * t.val + r.val; rw [e0]; omega
      | ⟨1, _⟩ => show win4_6.index t 1 * 64 + 1 * j.val = j.val; rw [e1]; omega)
  rw [he]
  exact blk6_apply V c t r j _ rfl

/-- Every row of the first result array is in the block of the point `row / 5000`, which writes it back. -/
theorem cover6 (i : S50000x64.Idx) : ∃ t : Fin cfg4.N, (cfg4.win 6).flush t = true ∧ i ∈ ((cfg4.win 6).blk t).view.set := by
  have h0 : (i 0).val < 50000 := idx2_lt0 i
  have h1 : (i 1).val < 64 := idx2_lt1 i
  refine ⟨⟨(i 0).val / 5000, by rw [hN]; omega⟩, flush4_6 _, ?_⟩
  obtain ⟨-, -, -, -, -, -, ⟨e0, e1⟩, -⟩ := idx_facts ⟨(i 0).val / 5000, by rw [hN]; omega⟩
  rw [mem_blk6]
  intro a
  match a with
  | ⟨0, _⟩ =>
    show win4_6.index _ 0 * 5000 ≤ (i 0).val ∧ (i 0).val < win4_6.index _ 0 * 5000 + 5000
    rw [e0]; dsimp only; omega
  | ⟨1, _⟩ =>
    show win4_6.index _ 1 * 64 ≤ (i 1).val ∧ (i 1).val < win4_6.index _ 1 * 64 + 64
    rw [e1]; omega

/-- The first result array ends holding the linear layer. -/
theorem final6 (c : Dev nD) : (dat4 V c).arrAt 6 cfg4.N = G6 V c :=
  (dat4 V c).arrAt_eq_of_cover 6 (G6 V c) (fun t _ => flushed6 V c t) cover6

/-- THE OUTPUT LAYER'S LINEAR PART: entry (r, j) of the first result array. The inputs are the arrays the region finds,
    `(dat4 V c).A w` for window `w`; the weights are stored (input channel, output channel). -/
theorem lin_eq (c : Dev nD) (r : Fin 50000) (j : Fin 64) :
    (dat4 V c).arrAt 6 cfg4.N (ix2 r j)
      = Cert.Spec.lin (fun r k => (dat4 V c).A 0 (ix2 r k)) (fun r k => (dat4 V c).A 1 (ix2 r k)) (fun r => (dat4 V c).A 2 (ix2 r 0))
          (fun j k => (dat4 V c).A 3 (ix2 k j)) (fun j k => (dat4 V c).A 4 (ix2 k j)) (fun j => (dat4 V c).A 5 (ix2 0 j)) r j := by
  rw [final6]
  rfl

end AtIdeal

end Cert.KernelIdeal.LinValue4

end
-- ==== Proof.KernelValue2.lean ====
/-
  The output layer of the idealized kernel program, read off its run: the arrays its last linear region
  finds — the neighbour sums of the second hidden layer, that layer itself, the clamped degrees computed
  once at the start, the transposed output weights and the bias row — and what the region leaves.
-/
import proofs.«122408_j28759101014107_2_alg».proof.Proof.StagesK
import proofs.«122408_j28759101014107_2_alg».proof.Proof.LinValue4
import proofs.«122408_j28759101014107_2_alg».proof.Proof.KernelValue0
import proofs.«122408_j28759101014107_2_alg».proof.Proof.Consts
import Idealize.ShloMosaic.Lib.ValueLayout
import Idealize.ShloMosaic.Lib.Pipeline.Value
import Idealize.ShloMosaic.Lib.StableHlo.Run

noncomputable section

namespace Cert.KernelIdeal.KVal

open Idealize.ShloMosaic Idealize.ShloMosaic.TcCoe Idealize.SL.Sem Idealize.ShloMosaic.StableHlo
open Idealize.ShloMosaic.ValueIdx
open Cert.KernelIdeal Cert.KernelIdeal.Gen Cert.Alg Cert.Spec

namespace K2

/-! ## What each host stretch leaves untouched -/

section Keep
variable {F : FTy → Type} [FloatOps F]

/-- A buffer listed among `W` is, as a singleton, inside the set of `W`'s buffers. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers each host stretch after the first writes. -/
def WH1 : List (Ref sig .tc) := [main_cst_4, main_v25, main_v26, main_v27, main_cst_5, main_v28, main_v29, main_v30, main_v31, main_v32, main_cst_6, main_v33, main_v34, main_v35, main_v36, main_v37, main_v38, main_v39]
def WH2 : List (Ref sig .tc) := [main_c_7, main_v41, main_v42, main_c_8, main_v43, main_v44, main_v45, main_v46, main_v47, main_cst_9, main_v48, main_v49, main_v50, main_v51, main_v52, main_v53]
def WH3 : List (Ref sig .tc) := [main_cst_10, main_v55, main_v56, main_v57, main_cst_11, main_v58, main_v59, main_v60, main_v61, main_v62, main_cst_12, main_v63, main_v64, main_v65, main_v66, main_v67, main_v68, main_v69]
def WH4 : List (Ref sig .tc) := [main_c_13, main_v71, main_v72, main_c_14, main_v73, main_v74, main_v75, main_v76, main_v77, main_cst_15, main_v78, main_v79, main_v80, main_v81, main_v82, main_v83]
def WH5 : List (Ref sig .tc) := [main_cst_16, main_v85, main_v86, main_v87, main_cst_17, main_v88, main_v89, main_v90, main_v91, main_v92, main_cst_18, main_v93, main_v94, main_v95]

theorem hostOps1_writes : (hostOps1 : List (HloOp τ sig (Elt F))).Forall fun op => op.writes ⊆ ((WH1).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem hostOps2_writes : (hostOps2 : List (HloOp τ sig (Elt F))).Forall fun op => op.writes ⊆ ((WH2).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem hostOps3_writes : (hostOps3 : List (HloOp τ sig (Elt F))).Forall fun op => op.writes ⊆ ((WH3).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem hostOps4_writes : (hostOps4 : List (HloOp τ sig (Elt F))).Forall fun op => op.writes ⊆ ((WH4).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
theorem hostOps5_writes : (hostOps5 : List (HloOp τ sig (Elt F))).Forall fun op => op.writes ⊆ ((WH5).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide)⟩

/-- A buffer a host stretch does not write keeps its contents. -/
theorem keepH1 (V : Valuation τ sig (Elt F)) {r : Ref sig .tc} (hr : r ∉ WH1) :
    StableHlo.after hostOps1 V (Proc.devRef .tc r) = V (Proc.devRef .tc r) := StableHlo.after_of_writes_sub hostOps1 V hostOps1_writes hr
theorem keepH2 (V : Valuation τ sig (Elt F)) {r : Ref sig .tc} (hr : r ∉ WH2) :
    StableHlo.after hostOps2 V (Proc.devRef .tc r) = V (Proc.devRef .tc r) := StableHlo.after_of_writes_sub hostOps2 V hostOps2_writes hr
theorem keepH3 (V : Valuation τ sig (Elt F)) {r : Ref sig .tc} (hr : r ∉ WH3) :
    StableHlo.after hostOps3 V (Proc.devRef .tc r) = V (Proc.devRef .tc r) := StableHlo.after_of_writes_sub hostOps3 V hostOps3_writes hr
theorem keepH4 (V : Valuation τ sig (Elt F)) {r : Ref sig .tc} (hr : r ∉ WH4) :
    StableHlo.after hostOps4 V (Proc.devRef .tc r) = V (Proc.devRef .tc r) := StableHlo.after_of_writes_sub hostOps4 V hostOps4_writes hr
theorem keepH5 (V : Valuation τ sig (Elt F)) {r : Ref sig .tc} (hr : r ∉ WH5) :
    StableHlo.after hostOps5 V (Proc.devRef .tc r) = V (Proc.devRef .tc r) := StableHlo.after_of_writes_sub hostOps5 V hostOps5_writes hr

end Keep

variable (m : (ℓ : Loc nD τ sig) → Buf (Elt Ideal) ℓ) (ρ : Dev nD → PrngReg) (c : Dev nD)

/-! ## Walking a buffer back to the first region's entry -/

/-- A buffer that no host stretch after the first writes and that is no array of the first four regions holds,
    at the last normalising region's exit, what it held at the first region's entry. -/
theorem back (r : Ref sig .tc) (h3 : ∀ w, Pipeline.arrRef spec3 w ≠ r) (h2 : ∀ w, Pipeline.arrRef spec2 w ≠ r)
    (h1 : ∀ w, Pipeline.arrRef spec1 w ≠ r) (h0 : ∀ w, Pipeline.arrRef spec0 w ≠ r)
    (k3 : r ∉ WH3) (k2 : r ∉ WH2) (k1 : r ∉ WH1) :
    W8 m ρ c (Proc.devRef .tc r) = W1 m ρ c (Proc.devRef .tc r) :=
  calc W8 m ρ c (Proc.devRef .tc r)
    _ = W7 m ρ c (Proc.devRef .tc r) := W8_of_ne m ρ c r h3
    _ = W6 m ρ c (Proc.devRef .tc r) := keepH3 _ k3
    _ = W5 m ρ c (Proc.devRef .tc r) := W6_of_ne m ρ c r h2
    _ = W4 m ρ c (Proc.devRef .tc r) := keepH2 _ k2
    _ = W3 m ρ c (Proc.devRef .tc r) := W4_of_ne m ρ c r h1
    _ = W2 m ρ c (Proc.devRef .tc r) := keepH1 _ k1
    _ = W1 m ρ c (Proc.devRef .tc r) := W2_of_ne m ρ c r h0

/-- The clamped degree column is an input array of the first two linear regions, which leave it as they find it. -/
theorem back_deg : W8 m ρ c (Proc.devRef .tc main_v10) = W1 m ρ c (Proc.devRef .tc main_v10) :=
  calc W8 m ρ c (Proc.devRef .tc main_v10)
    _ = W7 m ρ c (Proc.devRef .tc main_v10) := W8_of_ne m ρ c main_v10 (by decide)
    _ = W6 m ρ c (Proc.devRef .tc main_v10) := keepH3 _ (by decide)
    _ = W5 m ρ c (Proc.devRef .tc main_v10) := (W6_arr m ρ c 2).trans (((dat2 (V5 m ρ) c).arrAt_in 2 rfl _).trans (A_eq2 (V5 m ρ) c 2))
    _ = W4 m ρ c (Proc.devRef .tc main_v10) := keepH2 _ (by decide)
    _ = W3 m ρ c (Proc.devRef .tc main_v10) := W4_of_ne m ρ c main_v10 (by decide)
    _ = W2 m ρ c (Proc.devRef .tc main_v10) := keepH1 _ (by decide)
    _ = W1 m ρ c (Proc.devRef .tc main_v10) := (W2_arr m ρ c 2).trans (((dat0 (V1 m ρ) c).arrAt_in 2 rfl _).trans (A_eq0 (V1 m ρ) c 2))

/-! ## What the first host stretch leaves in the buffers the last one reads -/

theorem E1_src : W1 m ρ c (Proc.devRef .tc main_v1) = srcL (eK m c) := by
  dsimp only [W1, hostOps0]
  after_results_simp
  try rfl

theorem E1_dst : W1 m ρ c (Proc.devRef .tc main_v3)
    = fun i => shapeCast S1600000 (extractStridedSlice S1x1600000 ![1, 0] (eK m c) Facts₀.slices_S2x1600000_S1x1600000_1_0)
        Facts₀.shapeCasts_S1x1600000_S1600000 i := by
  dsimp only [W1, hostOps0]
  after_results_simp
  try rfl

theorem E1_arg12 : W1 m ρ c (Proc.devRef .tc main_arg12) = m ((c : Thread nD τ).loc main_arg12) := by
  dsimp only [W1, hostOps0]
  after_results_simp
  try rfl

theorem E1_arg13 : W1 m ρ c (Proc.devRef .tc main_arg13) = m ((c : Thread nD τ).loc main_arg13) := by
  dsimp only [W1, hostOps0]
  after_results_simp
  try rfl

theorem E1_arg14 : W1 m ρ c (Proc.devRef .tc main_arg14) = m ((c : Thread nD τ).loc main_arg14) := by
  dsimp only [W1, hostOps0]
  after_results_simp
  try rfl

theorem W8_src : W8 m ρ c (Proc.devRef .tc main_v1) = srcL (eK m c) :=
  (back m ρ c main_v1 (by decide) (by decide) (by decide) (by decide) (by decide) (by decide) (by decide)).trans (E1_src m ρ c)

theorem W8_dst : W8 m ρ c (Proc.devRef .tc main_v3)
    = fun i => shapeCast S1600000 (extractStridedSlice S1x1600000 ![1, 0] (eK m c) Facts₀.slices_S2x1600000_S1x1600000_1_0)
        Facts₀.shapeCasts_S1x1600000_S1600000 i :=
  (back m ρ c main_v3 (by decide) (by decide) (by decide) (by decide) (by decide) (by decide) (by decide)).trans (E1_dst m ρ c)

theorem W8_arg12 : W8 m ρ c (Proc.devRef .tc main_arg12) = m ((c : Thread nD τ).loc main_arg12) :=
  (back m ρ c main_arg12 (by decide) (by decide) (by decide) (by decide) (by decide) (by decide) (by decide)).trans (E1_arg12 m ρ c)

theorem W8_arg13 : W8 m ρ c (Proc.devRef .tc main_arg13) = m ((c : Thread nD τ).loc main_arg13) :=
  (back m ρ c main_arg13 (by decide) (by decide) (by decide) (by decide) (by decide) (by decide) (by decide)).trans (E1_arg13 m ρ c)

theorem W8_arg14 : W8 m ρ c (Proc.devRef .tc main_arg14) = m ((c : Thread nD τ).loc main_arg14) :=
  (back m ρ c main_arg14 (by decide) (by decide) (by decide) (by decide) (by decide) (by decide) (by decide)).trans (E1_arg14 m ρ c)

theorem W8_deg : W8 m ρ c (Proc.devRef .tc main_v10)
    = fun i => shapeCast S50000x1 (degA (eK m c)) Facts₀.shapeCasts_S50000_S50000x1 i :=
  (back_deg m ρ c).trans (E1_deg m ρ c)

/-! ## The last host stretch before the output region, over any contents -/

/-- The neighbour sums from the source vector, the target vector and the feature array. -/
def aggSD (s d : IVec S1600000 32) (X : FVec Ideal S50000x128 .f32) : FVec Ideal S50000x128 .f32 :=
  Host.scatterAdd scatter_S50000x128_S1600000x1_S1600000x128_1_0_0_1
    (broadcastInDim S50000x128 ![] Facts₀.bcast_S_S50000x128 (constant S_ FTy.f32 0#32))
    (broadcastInDim S1600000x1 ![0] Facts₀.bcast_S1600000_S1600000x1_0 d)
    (Host.gather gather_S50000x128_S1600000x1_S1600000x128_1_0_n_n_0_1_1128 X
      (broadcastInDim S1600000x1 ![0] Facts₀.bcast_S1600000_S1600000x1_0
        (select (cmpi CmpIPredicate.slt s (broadcastInDim S1600000 ![] Facts₀.bcast_S_S1600000 (constantI S_ 32 0#32)))
          (addi s (broadcastInDim S1600000 ![] Facts₀.bcast_S_S1600000 (constantI S_ 32 50000#32))) s)))

theorem H4_agg (V : Valuation τ sig (Elt Ideal)) :
    StableHlo.after hostOps4 V (Proc.devRef .tc main_v80)
      = aggSD (V (Proc.devRef .tc main_v1)) (V (Proc.devRef .tc main_v3)) (V (Proc.devRef .tc main_v70)) := by
  after_results_simp
  try rfl

theorem H4_wl (V : Valuation τ sig (Elt Ideal)) :
    StableHlo.after hostOps4 V (Proc.devRef .tc main_v81)
      = transpose S128x64 [1, 0] (V (Proc.devRef .tc main_arg12)) Facts₀.transposes_S64x128_S128x64_1_0 := by
  after_results_simp
  try rfl

theorem H4_wr (V : Valuation τ sig (Elt Ideal)) :
    StableHlo.after hostOps4 V (Proc.devRef .tc main_v82)
      = transpose S128x64 [1, 0] (V (Proc.devRef .tc main_arg13)) Facts₀.transposes_S64x128_S128x64_1_0 := by
  after_results_simp
  try rfl

theorem H4_b (V : Valuation τ sig (Elt Ideal)) :
    StableHlo.after hostOps4 V (Proc.devRef .tc main_v83)
      = fun i => shapeCast S1x64 (V (Proc.devRef .tc main_arg14)) Facts₀.shapeCasts_S64_S1x64 i := by
  after_results_simp
  try rfl

/-! ## What the output region finds -/

/-- The second hidden layer, as the last normalising region leaves it. -/
abbrev h1K : S50000x128.Idx → EReal := W8 m ρ c (Proc.devRef .tc main_v70)

theorem E9_agg : W9 m ρ c (Proc.devRef .tc main_v80) = aggA (eK m c) (h1K m ρ c) := by
  show StableHlo.after hostOps4 (W8 m ρ c) (Proc.devRef .tc main_v80) = _
  rw [H4_agg, W8_src, W8_dst]
  rfl

theorem E9_h : W9 m ρ c (Proc.devRef .tc main_v70) = h1K m ρ c := keepH4 _ (by decide)

theorem E9_deg : W9 m ρ c (Proc.devRef .tc main_v10)
    = fun i => shapeCast S50000x1 (degA (eK m c)) Facts₀.shapeCasts_S50000_S50000x1 i :=
  (keepH4 _ (by decide)).trans (W8_deg m ρ c)

theorem E9_wl : W9 m ρ c (Proc.devRef .tc main_v81)
    = transpose S128x64 [1, 0] (m ((c : Thread nD τ).loc main_arg12)) Facts₀.transposes_S64x128_S128x64_1_0 := by
  show StableHlo.after hostOps4 (W8 m ρ c) (Proc.devRef .tc main_v81) = _
  rw [H4_wl, W8_arg12]

theorem E9_wr : W9 m ρ c (Proc.devRef .tc main_v82)
    = transpose S128x64 [1, 0] (m ((c : Thread nD τ).loc main_arg13)) Facts₀.transposes_S64x128_S128x64_1_0 := by
  show StableHlo.after hostOps4 (W8 m ρ c) (Proc.devRef .tc main_v82) = _
  rw [H4_wr, W8_arg13]

theorem E9_b : W9 m ρ c (Proc.devRef .tc main_v83)
    = fun i => shapeCast S1x64 (m ((c : Thread nD τ).loc main_arg14)) Facts₀.shapeCasts_S64_S1x64 i := by
  show StableHlo.after hostOps4 (W8 m ρ c) (Proc.devRef .tc main_v83) = _
  rw [H4_b, W8_arg14]

/-! ## The output region's operands and value -/

theorem hA4_0 : (fun r k => (dat4 (V9 m ρ) c).A 0 (ix2 r k)) = aggOpK (eK m c) (cur (h1K m ρ c)) := by
  funext r k
  show (dat4 (V9 m ρ) c).A 0 (ix2 r k) = aggA (eK m c) (unc (cur (h1K m ρ c))) (ix2 r k)
  rw [unc_cur]
  exact congrFun ((A_eq4 (V9 m ρ) c 0).trans (E9_agg m ρ c)) (ix2 r k)

theorem hA4_1 : (fun r k => (dat4 (V9 m ρ) c).A 1 (ix2 r k)) = cur (h1K m ρ c) := by
  funext r k
  exact congrFun ((A_eq4 (V9 m ρ) c 1).trans (E9_h m ρ c)) (ix2 r k)

theorem hA4_2 : (fun r => (dat4 (V9 m ρ) c).A 2 (ix2 r 0)) = degsK (eK m c) := by
  funext r
  exact (congrFun ((A_eq4 (V9 m ρ) c 2).trans (E9_deg m ρ c)) (ix2 r 0)).trans
    (shapeCast_a_a1_apply (degA (eK m c)) _ r 0)

theorem hA4_3 : (fun j k => (dat4 (V9 m ρ) c).A 3 (ix2 k j))
    = fun j k => (m ((c : Thread nD τ).loc main_arg12) : S64x128.Idx → EReal) (ix2 j k) := by
  funext j k
  exact (congrFun ((A_eq4 (V9 m ρ) c 3).trans (E9_wl m ρ c)) (ix2 k j)).trans
    (transpose_ix2_apply (m ((c : Thread nD τ).loc main_arg12) : S64x128.Idx → EReal) _ k j)

theorem hA4_4 : (fun j k => (dat4 (V9 m ρ) c).A 4 (ix2 k j))
    = fun j k => (m ((c : Thread nD τ).loc main_arg13) : S64x128.Idx → EReal) (ix2 j k) := by
  funext j k
  exact (congrFun ((A_eq4 (V9 m ρ) c 4).trans (E9_wr m ρ c)) (ix2 k j)).trans
    (transpose_ix2_apply (m ((c : Thread nD τ).loc main_arg13) : S64x128.Idx → EReal) _ k j)

theorem hA4_5 : (fun j => (dat4 (V9 m ρ) c).A 5 (ix2 0 j))
    = fun j => (m ((c : Thread nD τ).loc main_arg14) : S64.Idx → EReal) (ix1 j) := by
  funext j
  exact (congrFun ((A_eq4 (V9 m ρ) c 5).trans (E9_b m ρ c)) (ix2 0 j)).trans
    (shapeCast_a_1a_apply (m ((c : Thread nD τ).loc main_arg14) : S64.Idx → EReal) _ 0 j)

end K2

variable (m : (ℓ : Loc nD τ sig) → Buf (Elt Ideal) ℓ) (ρ : Dev nD → PrngReg) (c : Dev nD)

/-- The output layer's linear part, as the last region leaves it, over the second hidden layer as the region
    before it left it. -/
def lin2 : Fin 50000 → Fin 64 → EReal :=
  lin (aggOpK (eK m c) (cur (K2.h1K m ρ c))) (cur (K2.h1K m ρ c)) (degsK (eK m c))
    (fun j k => (m ((c : Thread nD τ).loc main_arg12) : S64x128.Idx → EReal) (ix2 j k))
    (fun j k => (m ((c : Thread nD τ).loc main_arg13) : S64x128.Idx → EReal) (ix2 j k))
    (fun j => (m ((c : Thread nD τ).loc main_arg14) : S64.Idx → EReal) (ix1 j))

theorem L4 : (dat4 (V9 m ρ) c).arrAt 6 cfg4.N = unc (lin2 m ρ c) := by
  funext i
  obtain ⟨r, j, rfl⟩ : ∃ (r : Fin 50000) (j : Fin 64), i = ix2 r j := ⟨i 0, i 1, eq_ix2 i⟩
  rw [Cert.KernelIdeal.LinValue4.lin_eq, K2.hA4_0, K2.hA4_1, K2.hA4_2, K2.hA4_3, K2.hA4_4, K2.hA4_5]
  rfl

/-- The program's result buffer at the end of the run is the output layer's linear part. -/
theorem layer2 : W11 m ρ c (Proc.devRef .tc main_v84_0)
    = unc (Cert.Spec.lin (aggOpK (eK m c) (cur (W8 m ρ c (Proc.devRef .tc main_v70) : S50000x128.Idx → EReal)))
        (cur (W8 m ρ c (Proc.devRef .tc main_v70) : S50000x128.Idx → EReal)) (degsK (eK m c))
        (fun j k => (m ((c : Thread nD τ).loc main_arg12) : S64x128.Idx → EReal) (ix2 j k))
        (fun j k => (m ((c : Thread nD τ).loc main_arg13) : S64x128.Idx → EReal) (ix2 j k))
        (fun j => (m ((c : Thread nD τ).loc main_arg14) : S64.Idx → EReal) (ix1 j))) :=
  calc W11 m ρ c (Proc.devRef .tc main_v84_0)
    _ = W10 m ρ c (Proc.devRef .tc main_v84_0) := K2.keepH5 _ (by decide)
    _ = (dat4 (V9 m ρ) c).arrAt 6 cfg4.N := W10_arr m ρ c 6
    _ = unc (lin2 m ρ c) := L4 m ρ c

end Cert.KernelIdeal.KVal

end
-- ==== Proof.KernelRun.lean ====
/-
  The whole run of the idealized kernel program with its result buffer named.

  The program is eleven segments: six stretches of host operations and, between them, five kernel regions. The
  generated frame threads one valuation of the unscoped buffers through the segments — `W0` at launch, `W1` after the
  first host stretch, `W2` after the first region's write-backs, … , `W11` at the return — and concludes that the
  argument arrays end as launched. Here the same launch is applied once more, keeping in the post ONE more buffer of the
  final valuation: the result `main_v84_0` ends at `W11 m ρ c` of itself. What `W11` holds there is read separately,
  segment by segment.
-/
import proofs.«122408_j28759101014107_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; the result buffer ends holding the
    final valuation `W11 m ρ c` at the result's reference, and every argument array ends as launched. -/
theorem run_out : θ_run defs (onTc (τ := τ) (main (F := F))) ⟨m, fun _ => 0, ρ⟩ (fun r => ∀ c : Dev nD,
      r.2.mem ((c.tc : Thread nD τ).loc main_v84_0) = W11 m ρ c (Proc.devRef .tc main_v84_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v84_0 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c)⟩)

end Cert.KernelIdeal.KRun

end
-- ==== Proof.PreReal.lean ====
import proofs.«122408_j28759101014107_2_alg».proof.Defs
import Idealize.ShloMosaic.Lib.ReduceAll
import Idealize.ShloMosaic.Lib.ValueIdx

noncomputable section

namespace Cert.KernelIdeal.PreReal

open Cert.KernelIdeal Idealize.ShloMosaic Idealize.ShloMosaic.ValueIdx Idealize.SL.Sem

/-- The rank-0 shape has a single index. -/
instance : Subsingleton Cert.Pre_finite_inputs.S_.Idx := ⟨fun a b => funext fun d => d.elim0⟩

/-- The word `0x7F800000` is the extended real `+∞`. -/
theorem inf_word : Ideal.ofBits .f32 0x7F800000#32 = ⊤ := by simp [Ideal.ofBits, Ideal.ieee]

/-- An extended real whose absolute value `max x (-x)` is strictly below `+∞` is a real number. -/
theorem real_of_abs_lt_top (x : EReal) (h : Ideal.cmp .olt (max x (-x)) (Ideal.ofBits .f32 0x7F800000#32) = 1#1) :
    ∃ r : ℝ, x = (r : EReal) := by
  rw [inf_word] at h
  induction x with
  | bot => exfalso; revert h; simp [Ideal.cmp]
  | coe r => exact ⟨r, rfl⟩
  | top => exfalso; revert h; simp [Ideal.cmp]

/-- One `isfinite`-and-`all` conjunct of the precondition, read back: if the reduction by `and` of `|x| < +∞` over the
    whole array is `1`, every entry of `x` is a real number. -/
theorem all_real {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hS : 0 < Cert.Pre_finite_inputs.S_.numel)
    (h : Host.reduce IntOp.andi (cmpf .olt (Host.absf x) (broadcastInDim S ![] hb (constant (F := Ideal) Cert.Pre_finite_inputs.S_ .f32 0x7F800000#32)))
        (constantI Cert.Pre_finite_inputs.S_ 1 1#1) hr hS ix0 = 1#1) (i : S.Idx) : ∃ r : ℝ, x i = (r : EReal) :=
  real_of_abs_lt_top (x i) (Host.reduce_andi_all _ _ hr hS ix0 h i)

variable [hF : Cert.Pre_finite_inputs.Facts]
variable (m : (ℓ : Loc nD τ sig) → Buf (Elt Ideal) ℓ)

/-- THE PRECONDITION OPENED: the predicate is the conjunction, over the fourteen float arguments, of "all entries have
    absolute value below `+∞`"; so under it every entry of every float argument is a real number. -/
theorem pre_real (h : Cert.Pre_KernelIdeal m) (c : Dev nD) :
    (∀ i, ∃ x : ℝ, m ((c.tc : Thread nD τ).loc main_arg0) i = (x : EReal))
    ∧ (∀ i, ∃ x : ℝ, m ((c.tc : Thread nD τ).loc main_arg2) i = (x : EReal))
    ∧ (∀ i, ∃ x : ℝ, m ((c.tc : Thread nD τ).loc main_arg3) i = (x : EReal))
    ∧ (∀ i, ∃ x : ℝ, m ((c.tc : Thread nD τ).loc main_arg4) i = (x : EReal))
    ∧ (∀ i, ∃ x : ℝ, m ((c.tc : Thread nD τ).loc main_arg5) i = (x : EReal))
    ∧ (∀ i, ∃ x : ℝ, m ((c.tc : Thread nD τ).loc main_arg6) i = (x : EReal))
    ∧ (∀ i, ∃ x : ℝ, m ((c.tc : Thread nD τ).loc main_arg7) i = (x : EReal))
    ∧ (∀ i, ∃ x : ℝ, m ((c.tc : Thread nD τ).loc main_arg8) i = (x : EReal))
    ∧ (∀ i, ∃ x : ℝ, m ((c.tc : Thread nD τ).loc main_arg9) i = (x : EReal))
    ∧ (∀ i, ∃ x : ℝ, m ((c.tc : Thread nD τ).loc main_arg10) i = (x : EReal))
    ∧ (∀ i, ∃ x : ℝ, m ((c.tc : Thread nD τ).loc main_arg11) i = (x : EReal))
    ∧ (∀ i, ∃ x : ℝ, m ((c.tc : Thread nD τ).loc main_arg12) i = (x : EReal))
    ∧ (∀ i, ∃ x : ℝ, m ((c.tc : Thread nD τ).loc main_arg13) i = (x : EReal))
    ∧ (∀ i, ∃ x : ℝ, m ((c.tc : Thread nD τ).loc main_arg14) i = (x : EReal)) := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at e
  dsimp only [andi] at e
  simp only [IntOp.andi_eq_one] at e
  obtain ⟨⟨⟨⟨⟨⟨⟨⟨⟨⟨⟨⟨⟨h0, h2⟩, h3⟩, h4⟩, h5⟩, h6⟩, h7⟩, h8⟩, h9⟩, h10⟩, h11⟩, h12⟩, h13⟩, h14⟩ := e
  exact ⟨fun i => all_real _ _ _ _ h0 i,
    fun i => all_real _ _ _ _ h2 i,
    fun i => all_real _ _ _ _ h3 i,
    fun i => all_real _ _ _ _ h4 i,
    fun i => all_real _ _ _ _ h5 i,
    fun i => all_real _ _ _ _ h6 i,
    fun i => all_real _ _ _ _ h7 i,
    fun i => all_real _ _ _ _ h8 i,
    fun i => all_real _ _ _ _ h9 i,
    fun i => all_real _ _ _ _ h10 i,
    fun i => all_real _ _ _ _ h11 i,
    fun i => all_real _ _ _ _ h12 i,
    fun i => all_real _ _ _ _ h13 i,
    fun i => all_real _ _ _ _ h14 i⟩

/-- Every entry of argument 0 is a real number. -/
theorem real_arg0 (h : Cert.Pre_KernelIdeal m) (c : Dev nD) :
    ∀ i, ∃ x : ℝ, m ((c.tc : Thread nD τ).loc main_arg0) i = (x : EReal) := (pre_real m h c).1

/-- Every entry of argument 2 is a real number. -/
theorem real_arg2 (h : Cert.Pre_KernelIdeal m) (c : Dev nD) :
    ∀ i, ∃ x : ℝ, m ((c.tc : Thread nD τ).loc main_arg2) i = (x : EReal) := (pre_real m h c).2.1

/-- Every entry of argument 3 is a real number. -/
theorem real_arg3 (h : Cert.Pre_KernelIdeal m) (c : Dev nD) :
    ∀ i, ∃ x : ℝ, m ((c.tc : Thread nD τ).loc main_arg3) i = (x : EReal) := (pre_real m h c).2.2.1

/-- Every entry of argument 4 is a real number. -/
theorem real_arg4 (h : Cert.Pre_KernelIdeal m) (c : Dev nD) :
    ∀ i, ∃ x : ℝ, m ((c.tc : Thread nD τ).loc main_arg4) i = (x : EReal) := (pre_real m h c).2.2.2.1

/-- Every entry of argument 5 is a real number. -/
theorem real_arg5 (h : Cert.Pre_KernelIdeal m) (c : Dev nD) :
    ∀ i, ∃ x : ℝ, m ((c.tc : Thread nD τ).loc main_arg5) i = (x : EReal) := (pre_real m h c).2.2.2.2.1

/-- Every entry of argument 6 is a real number. -/
theorem real_arg6 (h : Cert.Pre_KernelIdeal m) (c : Dev nD) :
    ∀ i, ∃ x : ℝ, m ((c.tc : Thread nD τ).loc main_arg6) i = (x : EReal) := (pre_real m h c).2.2.2.2.2.1

/-- Every entry of argument 7 is a real number. -/
theorem real_arg7 (h : Cert.Pre_KernelIdeal m) (c : Dev nD) :
    ∀ i, ∃ x : ℝ, m ((c.tc : Thread nD τ).loc main_arg7) i = (x : EReal) := (pre_real m h c).2.2.2.2.2.2.1

/-- Every entry of argument 8 is a real number. -/
theorem real_arg8 (h : Cert.Pre_KernelIdeal m) (c : Dev nD) :
    ∀ i, ∃ x : ℝ, m ((c.tc : Thread nD τ).loc main_arg8) i = (x : EReal) := (pre_real m h c).2.2.2.2.2.2.2.1

/-- Every entry of argument 9 is a real number. -/
theorem real_arg9 (h : Cert.Pre_KernelIdeal m) (c : Dev nD) :
    ∀ i, ∃ x : ℝ, m ((c.tc : Thread nD τ).loc main_arg9) i = (x : EReal) := (pre_real m h c).2.2.2.2.2.2.2.2.1

/-- Every entry of argument 10 is a real number. -/
theorem real_arg10 (h : Cert.Pre_KernelIdeal m) (c : Dev nD) :
    ∀ i, ∃ x : ℝ, m ((c.tc : Thread nD τ).loc main_arg10) i = (x : EReal) := (pre_real m h c).2.2.2.2.2.2.2.2.2.1

/-- Every entry of argument 11 is a real number. -/
theorem real_arg11 (h : Cert.Pre_KernelIdeal m) (c : Dev nD) :
    ∀ i, ∃ x : ℝ, m ((c.tc : Thread nD τ).loc main_arg11) i = (x : EReal) := (pre_real m h c).2.2.2.2.2.2.2.2.2.2.1

/-- Every entry of argument 12 is a real number. -/
theorem real_arg12 (h : Cert.Pre_KernelIdeal m) (c : Dev nD) :
    ∀ i, ∃ x : ℝ, m ((c.tc : Thread nD τ).loc main_arg12) i = (x : EReal) := (pre_real m h c).2.2.2.2.2.2.2.2.2.2.2.1

/-- Every entry of argument 13 is a real number. -/
theorem real_arg13 (h : Cert.Pre_KernelIdeal m) (c : Dev nD) :
    ∀ i, ∃ x : ℝ, m ((c.tc : Thread nD τ).loc main_arg13) i = (x : EReal) := (pre_real m h c).2.2.2.2.2.2.2.2.2.2.2.2.1

/-- Every entry of argument 14 is a real number. -/
theorem real_arg14 (h : Cert.Pre_KernelIdeal m) (c : Dev nD) :
    ∀ i, ∃ x : ℝ, m ((c.tc : Thread nD τ).loc main_arg14) i = (x : EReal) := (pre_real m h c).2.2.2.2.2.2.2.2.2.2.2.2.2

end Cert.KernelIdeal.PreReal

end
-- ==== Proof.RefRunOps.lean ====
import proofs.«122408_j28759101014107_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations

The program's statements in three consecutive stretches, each the list of its operations in order; where a
statement calls one of the module's helper functions (the variance, its selection, the clamp at zero) the
helper's operations stand in its place, over the buffers of that call. -/

/-- Statements 1 to 60: the edge vectors, the first layer's linear part, its mean and variance, its normalisation. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_c (constantI S_ 32 0#32),
    StableHlo.unary main_c main_v8 (broadcastInDim S1600000 ![] bcast_S_S1600000 : (⟨S_, .i32⟩ : BufTy).Contents (Elt F) → (⟨S1600000, .i32⟩ : BufTy).Contents (Elt F)),
    StableHlo.binary main_v1 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 50000#32),
    StableHlo.unary main_c_1 main_v10 (broadcastInDim S1600000 ![] bcast_S_S1600000 : (⟨S_, .i32⟩ : BufTy).Contents (Elt F) → (⟨S1600000, .i32⟩ : BufTy).Contents (Elt F)),
    StableHlo.binary main_v1 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_arg0 main_v13 main_v14 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_2 (constant S_ .f32 0x00000000#32),
    StableHlo.unary main_cst_2 main_v15 (broadcastInDim S50000x128 ![] bcast_S_S50000x128 : (⟨S_, .f32⟩ : BufTy).Contents (Elt F) → (⟨S50000x128, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v7 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v17 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.unary main_arg2 main_v23 ((transpose S128x128 [1, 0] · transposes_S128x128_S128x128_1_0) : (⟨S128x128, .f32⟩ : BufTy).Contents (Elt F) → (⟨S128x128, .f32⟩ : BufTy).Contents (Elt F)),
    StableHlo.binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v25 ((transpose S128x128 [1, 0] · transposes_S128x128_S128x128_1_0) : (⟨S128x128, .f32⟩ : BufTy).Contents (Elt F) → (⟨S128x128, .f32⟩ : BufTy).Contents (Elt F)),
    StableHlo.binary main_arg0 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v24 main_v26 main_v27 (addf : (⟨S50000x128, .f32⟩ : BufTy).Contents (Elt F) → (⟨S50000x128, .f32⟩ : BufTy).Contents (Elt F) → (⟨S50000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.binary main_v30 main_cst_4 main_v31 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call0.cst (constant S_ .f32 0x00000000#32),
    StableHlo.TRef.binary (.of main_v30) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v30) main_call0.v4 main_call0.v5 subf,
    StableHlo.TRef.binary main_call0.v5 main_call0.v5 main_call0.v6 mulf,
    StableHlo.TRef.unary (.of main_c_6) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v36 main_v37 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v38 (broadcastInDim S128 ![] bcast_S_S128 : (⟨S_, .f32⟩ : BufTy).Contents (Elt F) → (⟨S128, .f32⟩ : BufTy).Contents (Elt F)),
    StableHlo.binary main_v34 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v42 main_v43 (mulf : (⟨S50000x128, .f32⟩ : BufTy).Contents (Elt F) → (⟨S50000x128, .f32⟩ : BufTy).Contents (Elt F) → (⟨S50000x128, .f32⟩ : BufTy).Contents (Elt F)),
    StableHlo.unary main_arg5 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (mulf : (⟨S50000x128, .f32⟩ : BufTy).Contents (Elt F) → (⟨S50000x128, .f32⟩ : BufTy).Contents (Elt F) → (⟨S50000x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)) ]

/-- Statements 61 to 120: the first clamp, the second layer whole, the ones of the third degree count. -/
abbrev ops1 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v49) main_call1.v0 main_call1.v1 maximumf,
    StableHlo.nullary main_cst_8 (constant S_ .f32 0x3F800000#32),
    StableHlo.unary main_cst_8 main_v51 (broadcastInDim S1600000 ![] bcast_S_S1600000 : (⟨S_, .f32⟩ : BufTy).Contents (Elt F) → (⟨S1600000, .f32⟩ : BufTy).Contents (Elt F)),
    StableHlo.nullary main_cst_9 (constant S_ .f32 0x00000000#32),
    StableHlo.unary main_cst_9 main_v52 (broadcastInDim S50000 ![] bcast_S_S50000 : (⟨S_, .f32⟩ : BufTy).Contents (Elt F) → (⟨S50000, .f32⟩ : BufTy).Contents (Elt F)),
    StableHlo.unary main_v3 main_v53 (broadcastInDim S1600000x1 ![0] bcast_S1600000_S1600000x1_0 : (⟨S1600000, .i32⟩ : BufTy).Contents (Elt F) → (⟨S1600000x1, .i32⟩ : BufTy).Contents (Elt F)),
    StableHlo.ternary main_v52 main_v53 main_v51 main_v54 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_c_10 (constantI S_ 32 0#32),
    StableHlo.unary main_c_10 main_v55 (broadcastInDim S1600000 ![] bcast_S_S1600000 : (⟨S_, .i32⟩ : BufTy).Contents (Elt F) → (⟨S1600000, .i32⟩ : BufTy).Contents (Elt F)),
    StableHlo.binary main_v1 main_v55 main_v56 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 50000#32),
    StableHlo.unary main_c_11 main_v57 (broadcastInDim S1600000 ![] bcast_S_S1600000 : (⟨S_, .i32⟩ : BufTy).Contents (Elt F) → (⟨S1600000, .i32⟩ : BufTy).Contents (Elt F)),
    StableHlo.binary main_v1 main_v57 main_v58 (addi : (⟨S1600000, .i32⟩ : BufTy).Contents (Elt F) → (⟨S1600000, .i32⟩ : BufTy).Contents (Elt F) → (⟨S1600000, .i32⟩ : BufTy).Contents (Elt F)),
    StableHlo.ternary main_v56 main_v58 main_v1 main_v59 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v59 main_v60 (broadcastInDim S1600000x1 ![0] bcast_S1600000_S1600000x1_0 : (⟨S1600000, .i32⟩ : BufTy).Contents (Elt F) → (⟨S1600000x1, .i32⟩ : BufTy).Contents (Elt F)),
    StableHlo.binary main_v50 main_v60 main_v61 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_12 (constant S_ .f32 0x00000000#32),
    StableHlo.unary main_cst_12 main_v62 (broadcastInDim S50000x128 ![] bcast_S_S50000x128 : (⟨S_, .f32⟩ : BufTy).Contents (Elt F) → (⟨S50000x128, .f32⟩ : BufTy).Contents (Elt F)),
    StableHlo.unary main_v3 main_v63 (broadcastInDim S1600000x1 ![0] bcast_S1600000_S1600000x1_0 : (⟨S1600000, .i32⟩ : BufTy).Contents (Elt F) → (⟨S1600000x1, .i32⟩ : BufTy).Contents (Elt F)),
    StableHlo.ternary main_v62 main_v63 main_v61 main_v64 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.nullary main_cst_13 (constant S_ .f32 0x3F800000#32),
    StableHlo.unary main_cst_13 main_v65 (broadcastInDim S50000 ![] bcast_S_S50000 : (⟨S_, .f32⟩ : BufTy).Contents (Elt F) → (⟨S50000, .f32⟩ : BufTy).Contents (Elt F)),
    StableHlo.binary main_v54 main_v65 main_v66 (maximumf : (⟨S50000, .f32⟩ : BufTy).Contents (Elt F) → (⟨S50000, .f32⟩ : BufTy).Contents (Elt F) → (⟨S50000, .f32⟩ : BufTy).Contents (Elt F)),
    StableHlo.unary main_v66 main_v67 (broadcastInDim S50000x1 ![0] bcast_S50000_S50000x1_0 : (⟨S50000, .f32⟩ : BufTy).Contents (Elt F) → (⟨S50000x1, .f32⟩ : BufTy).Contents (Elt F)),
    StableHlo.unary main_v67 main_v68 (broadcastInDim S50000x128 ![0, 1] bcast_S50000x1_S50000x128_0_1 : (⟨S50000x1, .f32⟩ : BufTy).Contents (Elt F) → (⟨S50000x128, .f32⟩ : BufTy).Contents (Elt F)),
    StableHlo.binary main_v64 main_v68 main_v69 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v70 ((transpose S128x128 [1, 0] · transposes_S128x128_S128x128_1_0) : (⟨S128x128, .f32⟩ : BufTy).Contents (Elt F) → (⟨S128x128, .f32⟩ : BufTy).Contents (Elt F)),
    StableHlo.binary main_v69 main_v70 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v72 ((transpose S128x128 [1, 0] · transposes_S128x128_S128x128_1_0) : (⟨S128x128, .f32⟩ : BufTy).Contents (Elt F) → (⟨S128x128, .f32⟩ : BufTy).Contents (Elt F)),
    StableHlo.binary main_v50 main_v72 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)),
    StableHlo.unary main_arg9 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v77 main_cst_14 main_v78 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call2.cst (constant S_ .f32 0x00000000#32),
    StableHlo.TRef.binary (.of main_v77) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v77) main_call2.v4 main_call2.v5 subf,
    StableHlo.TRef.binary main_call2.v5 main_call2.v5 main_call2.v6 mulf,
    StableHlo.TRef.unary (.of main_c_16) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v83 main_v84 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v85 (broadcastInDim S128 ![] bcast_S_S128 : (⟨S_, .f32⟩ : BufTy).Contents (Elt F) → (⟨S128, .f32⟩ : BufTy).Contents (Elt F)),
    StableHlo.binary main_v81 main_v85 main_v86 (addf : (⟨S128, .f32⟩ : BufTy).Contents (Elt F) → (⟨S128, .f32⟩ : BufTy).Contents (Elt F) → (⟨S128, .f32⟩ : BufTy).Contents (Elt F)),
    StableHlo.unary main_v86 main_v87 (Host.rsqrt : (⟨S128, .f32⟩ : BufTy).Contents (Elt F) → (⟨S128, .f32⟩ : BufTy).Contents (Elt F)),
    StableHlo.unary main_v87 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v89 main_v90 (mulf : (⟨S50000x128, .f32⟩ : BufTy).Contents (Elt F) → (⟨S50000x128, .f32⟩ : BufTy).Contents (Elt F) → (⟨S50000x128, .f32⟩ : BufTy).Contents (Elt F)),
    StableHlo.unary main_arg10 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v92 main_v93 (mulf : (⟨S50000x128, .f32⟩ : BufTy).Contents (Elt F) → (⟨S50000x128, .f32⟩ : BufTy).Contents (Elt F) → (⟨S50000x128, .f32⟩ : BufTy).Contents (Elt F)),
    StableHlo.unary main_arg11 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v96) main_call3.v0 main_call3.v1 maximumf,
    StableHlo.nullary main_cst_18 (constant S_ .f32 0x3F800000#32),
    StableHlo.unary main_cst_18 main_v98 (broadcastInDim S1600000 ![] bcast_S_S1600000 : (⟨S_, .f32⟩ : BufTy).Contents (Elt F) → (⟨S1600000, .f32⟩ : BufTy).Contents (Elt F)) ]

/-- Statements 121 to 152: the third layer's linear part. -/
abbrev ops2 : List (HloOp τ sig (Elt F)) :=
  [ StableHlo.nullary main_cst_19 (constant S_ .f32 0x00000000#32),
    StableHlo.unary main_cst_19 main_v99 (broadcastInDim S50000 ![] bcast_S_S50000 : (⟨S_, .f32⟩ : BufTy).Contents (Elt F) → (⟨S50000, .f32⟩ : BufTy).Contents (Elt F)),
    StableHlo.unary main_v3 main_v100 (broadcastInDim S1600000x1 ![0] bcast_S1600000_S1600000x1_0 : (⟨S1600000, .i32⟩ : BufTy).Contents (Elt F) → (⟨S1600000x1, .i32⟩ : BufTy).Contents (Elt F)),
    StableHlo.ternary main_v99 main_v100 main_v98 main_v101 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_c_20 (constantI S_ 32 0#32),
    StableHlo.unary main_c_20 main_v102 (broadcastInDim S1600000 ![] bcast_S_S1600000 : (⟨S_, .i32⟩ : BufTy).Contents (Elt F) → (⟨S1600000, .i32⟩ : BufTy).Contents (Elt F)),
    StableHlo.binary main_v1 main_v102 main_v103 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 50000#32),
    StableHlo.unary main_c_21 main_v104 (broadcastInDim S1600000 ![] bcast_S_S1600000 : (⟨S_, .i32⟩ : BufTy).Contents (Elt F) → (⟨S1600000, .i32⟩ : BufTy).Contents (Elt F)),
    StableHlo.binary main_v1 main_v104 main_v105 (addi : (⟨S1600000, .i32⟩ : BufTy).Contents (Elt F) → (⟨S1600000, .i32⟩ : BufTy).Contents (Elt F) → (⟨S1600000, .i32⟩ : BufTy).Contents (Elt F)),
    StableHlo.ternary main_v103 main_v105 main_v1 main_v106 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v106 main_v107 (broadcastInDim S1600000x1 ![0] bcast_S1600000_S1600000x1_0 : (⟨S1600000, .i32⟩ : BufTy).Contents (Elt F) → (⟨S1600000x1, .i32⟩ : BufTy).Contents (Elt F)),
    StableHlo.binary main_v97 main_v107 main_v108 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_22 (constant S_ .f32 0x00000000#32),
    StableHlo.unary main_cst_22 main_v109 (broadcastInDim S50000x128 ![] bcast_S_S50000x128 : (⟨S_, .f32⟩ : BufTy).Contents (Elt F) → (⟨S50000x128, .f32⟩ : BufTy).Contents (Elt F)),
    StableHlo.unary main_v3 main_v110 (broadcastInDim S1600000x1 ![0] bcast_S1600000_S1600000x1_0 : (⟨S1600000, .i32⟩ : BufTy).Contents (Elt F) → (⟨S1600000x1, .i32⟩ : BufTy).Contents (Elt F)),
    StableHlo.ternary main_v109 main_v110 main_v108 main_v111 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.nullary main_cst_23 (constant S_ .f32 0x3F800000#32),
    StableHlo.unary main_cst_23 main_v112 (broadcastInDim S50000 ![] bcast_S_S50000 : (⟨S_, .f32⟩ : BufTy).Contents (Elt F) → (⟨S50000, .f32⟩ : BufTy).Contents (Elt F)),
    StableHlo.binary main_v101 main_v112 main_v113 (maximumf : (⟨S50000, .f32⟩ : BufTy).Contents (Elt F) → (⟨S50000, .f32⟩ : BufTy).Contents (Elt F) → (⟨S50000, .f32⟩ : BufTy).Contents (Elt F)),
    StableHlo.unary main_v113 main_v114 (broadcastInDim S50000x1 ![0] bcast_S50000_S50000x1_0 : (⟨S50000, .f32⟩ : BufTy).Contents (Elt F) → (⟨S50000x1, .f32⟩ : BufTy).Contents (Elt F)),
    StableHlo.unary main_v114 main_v115 (broadcastInDim S50000x128 ![0, 1] bcast_S50000x1_S50000x128_0_1 : (⟨S50000x1, .f32⟩ : BufTy).Contents (Elt F) → (⟨S50000x128, .f32⟩ : BufTy).Contents (Elt F)),
    StableHlo.binary main_v111 main_v115 main_v116 (Host.divf : (⟨S50000x128, .f32⟩ : BufTy).Contents (Elt F) → (⟨S50000x128, .f32⟩ : BufTy).Contents (Elt F) → (⟨S50000x128, .f32⟩ : BufTy).Contents (Elt F)),
    StableHlo.unary main_arg12 main_v117 ((transpose S128x64 [1, 0] · transposes_S64x128_S128x64_1_0) : (⟨S64x128, .f32⟩ : BufTy).Contents (Elt F) → (⟨S128x64, .f32⟩ : BufTy).Contents (Elt F)),
    StableHlo.binary main_v116 main_v117 main_v118 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg13 main_v119 ((transpose S128x64 [1, 0] · transposes_S64x128_S128x64_1_0) : (⟨S64x128, .f32⟩ : BufTy).Contents (Elt F) → (⟨S128x64, .f32⟩ : BufTy).Contents (Elt F)),
    StableHlo.binary main_v97 main_v119 main_v120 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v118 main_v120 main_v121 (addf : (⟨S50000x64, .f32⟩ : BufTy).Contents (Elt F) → (⟨S50000x64, .f32⟩ : BufTy).Contents (Elt F) → (⟨S50000x64, .f32⟩ : BufTy).Contents (Elt F)),
    StableHlo.unary main_arg14 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S50000x64 ![0, 1] bcast_S1x64_S50000x64_0_1 : (⟨S1x64, .f32⟩ : BufTy).Contents (Elt F) → (⟨S50000x64, .f32⟩ : BufTy).Contents (Elt F)),
    StableHlo.binary main_v121 main_v123 main_v124 (addf : (⟨S50000x64, .f32⟩ : BufTy).Contents (Elt F) → (⟨S50000x64, .f32⟩ : BufTy).Contents (Elt F) → (⟨S50000x64, .f32⟩ : BufTy).Contents (Elt F)) ]

set_option maxRecDepth 4096 in
theorem part0_eq (c : Dev nD) : main_part0 (F := F) c = seq ops0 := by
  simp only [main_part0, fn_var.body, fn_where.body, seq, bind_assoc, pure_bind]
  rfl

set_option maxRecDepth 4096 in
theorem part1_eq (c : Dev nD) : main_part1 (F := F) c = seq ops1 := by
  simp only [main_part1, fn_var.body, fn_where.body, fn_relu.body, seq, bind_assoc, pure_bind]
  rfl

set_option maxRecDepth 4096 in
theorem part2_eq (c : Dev nD) : main_part2 (F := F) c = seq ops2 := by
  simp only [main_part2, seq, bind_assoc, pure_bind]

/-- The whole program is the three stretches one after the other. -/
theorem main_eq (c : Dev nD) : main (F := F) c = seq (ops0 ++ (ops1 ++ ops2)) := by
  rw [seq_append, seq_append, ← part0_eq c, ← part1_eq c, ← part2_eq c]
  rfl

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub ..⟩

theorem ops2_sub : (ops2 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem scopedRefs_eq : (Finset.univ.filter fun b : Ref sig .tc => b.isScoped) = ∅ := by decide
theorem scopedSems_eq : (Finset.univ.filter fun sm : SemLoc sig => sm.isScoped .tc) = ∅ := by decide

/-- The contents after two lists run in order. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The stages of one layer, for any float values

Each definition is the composed term of a stretch of the program's operations over the contents of the
buffers the stretch reads. -/

/-- Row 0 of the edge array as a vector: the source node of each edge. -/
def srcVec (e : (⟨S2x1600000, .i32⟩ : BufTy).Contents (Elt F)) : (⟨S1600000, .i32⟩ : BufTy).Contents (Elt F) :=
  fun i => shapeCast S1600000 (extractStridedSlice S1x1600000 ![0, 0] e slices_S2x1600000_S1x1600000_0_0) shapeCasts_S1x1600000_S1600000 i

/-- Row 1 of the edge array as a vector: the target node of each edge. -/
def dstVec (e : (⟨S2x1600000, .i32⟩ : BufTy).Contents (Elt F)) : (⟨S1600000, .i32⟩ : BufTy).Contents (Elt F) :=
  fun i => shapeCast S1600000 (extractStridedSlice S1x1600000 ![1, 0] e slices_S2x1600000_S1x1600000_1_0) shapeCasts_S1x1600000_S1600000 i

/-- The gather's index column: a negative source index is first moved up by the node count. -/
def srcCol (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- The scatter's index column. -/
def dstCol (d : (⟨S1600000, .i32⟩ : BufTy).Contents (Elt F)) : (⟨S1600000x1, .i32⟩ : BufTy).Contents (Elt F) :=
  broadcastInDim S1600000x1 ![0] bcast_S1600000_S1600000x1_0 d

/-- One per edge. -/
def onesE : (⟨S1600000, .f32⟩ : BufTy).Contents (Elt F) :=
  broadcastInDim S1600000 ![] bcast_S_S1600000 (constant S_ .f32 0x3F800000#32)

/-- The in-degree of each node (the sum over the edges into it of `u`'s entry), clamped below at one. -/
def degsU (d : (⟨S1600000, .i32⟩ : BufTy).Contents (Elt F)) (u : (⟨S1600000, .f32⟩ : BufTy).Contents (Elt F)) :
    (⟨S50000, .f32⟩ : BufTy).Contents (Elt F) :=
  maximumf (Host.scatterAdd scatter_S50000_S1600000x1_S1600000_n_0_0_1
      (broadcastInDim S50000 ![] bcast_S_S50000 (constant S_ .f32 0x00000000#32)) (dstCol d) u)
    (broadcastInDim S50000 ![] bcast_S_S50000 (constant S_ .f32 0x3F800000#32))

/-- The clamped in-degree of each node. -/
def degsV (d : (⟨S1600000, .i32⟩ : BufTy).Contents (Elt F)) : (⟨S50000, .f32⟩ : BufTy).Contents (Elt F) :=
  degsU d onesE

/-- Per node, the sum of the feature rows of its in-neighbours: gather the source rows, add each into its target's row. -/
def aggV (s d : (⟨S1600000, .i32⟩ : BufTy).Contents (Elt F)) (feat : (⟨S50000x128, .f32⟩ : BufTy).Contents (Elt F)) :
    (⟨S50000x128, .f32⟩ : BufTy).Contents (Elt F) :=
  Host.scatterAdd scatter_S50000x128_S1600000x1_S1600000x128_1_0_0_1
    (broadcastInDim S50000x128 ![] bcast_S_S50000x128 (constant S_ .f32 0x00000000#32)) (dstCol d)
    (Host.gather gather_S50000x128_S1600000x1_S1600000x128_1_0_n_n_0_1_1128 feat (srcCol s))

/-- The linear part of a hidden layer from the degrees `dg` and neighbour sums `ag`: divide, apply the two
    transposed weight matrices, add the bias. -/
def linD (dg : (⟨S50000, .f32⟩ : BufTy).Contents (Elt F)) (ag feat : (⟨S50000x128, .f32⟩ : BufTy).Contents (Elt F))
    (Wl Wr : (⟨S128x128, .f32⟩ : BufTy).Contents (Elt F)) (b : (⟨S128, .f32⟩ : BufTy).Contents (Elt F)) :
    (⟨S50000x128, .f32⟩ : BufTy).Contents (Elt F) :=
  addf (addf
      (Host.dotGeneral dot_S50000x128_S128x128_S50000x128_1_0_0_1_n_n none
        (Host.divf ag (broadcastInDim S50000x128 ![0, 1] bcast_S50000x1_S50000x128_0_1 (broadcastInDim S50000x1 ![0] bcast_S50000_S50000x1_0 dg)))
        (transpose S128x128 [1, 0] Wl transposes_S128x128_S128x128_1_0))
      (Host.dotGeneral dot_S50000x128_S128x128_S50000x128_1_0_0_1_n_n none feat
        (transpose S128x128 [1, 0] Wr transposes_S128x128_S128x128_1_0)))
    (broadcastInDim S50000x128 ![0, 1] bcast_S1x128_S50000x128_0_1 (broadcastInDim S1x128 ![1] bcast_S128_S1x128_1 b))

/-- The same for the output layer of 64 channels. -/
def linD64 (dg : (⟨S50000, .f32⟩ : BufTy).Contents (Elt F)) (ag feat : (⟨S50000x128, .f32⟩ : BufTy).Contents (Elt F))
    (Wl Wr : (⟨S64x128, .f32⟩ : BufTy).Contents (Elt F)) (b : (⟨S64, .f32⟩ : BufTy).Contents (Elt F)) :
    (⟨S50000x64, .f32⟩ : BufTy).Contents (Elt F) :=
  addf (addf
      (Host.dotGeneral dot_S50000x128_S128x64_S50000x64_1_0_0_1_n_n none
        (Host.divf ag (broadcastInDim S50000x128 ![0, 1] bcast_S50000x1_S50000x128_0_1 (broadcastInDim S50000x1 ![0] bcast_S50000_S50000x1_0 dg)))
        (transpose S128x64 [1, 0] Wl transposes_S64x128_S128x64_1_0))
      (Host.dotGeneral dot_S50000x128_S128x64_S50000x64_1_0_0_1_n_n none feat
        (transpose S128x64 [1, 0] Wr transposes_S64x128_S128x64_1_0)))
    (broadcastInDim S50000x64 ![0, 1] bcast_S1x64_S50000x64_0_1 (broadcastInDim S1x64 ![1] bcast_S64_S1x64_1 b))

/-- A hidden layer's linear part from the source and target vectors of the edges. -/
def linV (s d : (⟨S1600000, .i32⟩ : BufTy).Contents (Elt F)) (feat : (⟨S50000x128, .f32⟩ : BufTy).Contents (Elt F))
    (Wl Wr : (⟨S128x128, .f32⟩ : BufTy).Contents (Elt F)) (b : (⟨S128, .f32⟩ : BufTy).Contents (Elt F)) :
    (⟨S50000x128, .f32⟩ : BufTy).Contents (Elt F) :=
  linD (degsV d) (aggV s d feat) feat Wl Wr b

/-- The mean of each channel over the nodes: the column sum divided by the node count's literal. -/
def meanR (lin : (⟨S50000x128, .f32⟩ : BufTy).Contents (Elt F)) : (⟨S128, .f32⟩ : BufTy).Contents (Elt F) :=
  Host.divf (Host.reduceAdd lin (constant S_ .f32 0x00000000#32) reducesTo_S50000x128_S128_d0 h_S_)
    (broadcastInDim S128 ![] bcast_S_S128 (constant S_ .f32 0x47435000#32))

/-- The divisor of the variance: the node count's literal less the (zero) correction. -/
def varN : (⟨S_, .f32⟩ : BufTy).Contents (Elt F) :=
  subf (constant S_ .f32 0x47435000#32) (sitofp .f32 (constantI S_ 32 0#32 : (⟨S_, .i32⟩ : BufTy).Contents (Elt F)))

/-- The deviations from the channel means, as the variance helper computes them. -/
def varCen (lin : (⟨S50000x128, .f32⟩ : BufTy).Contents (Elt F)) : (⟨S50000x128, .f32⟩ : BufTy).Contents (Elt F) :=
  subf lin (broadcastInDim S50000x128 ![0, 1] bcast_S1x128_S50000x128_0_1
    (Host.divf (broadcastInDim S1x128 ![1] bcast_S128_S1x128_1
        (Host.reduceAdd lin (constant S_ .f32 0x00000000#32) reducesTo_S50000x128_S128_d0 h_S_))
      (broadcastInDim S1x128 ![] bcast_S_S1x128 (constant S_ .f32 0x47435000#32))))

/-- The variance before the selection: the column sum of the squared deviations over the divisor. -/
def varQ (lin : (⟨S50000x128, .f32⟩ : BufTy).Contents (Elt F)) : (⟨S128, .f32⟩ : BufTy).Contents (Elt F) :=
  Host.divf (Host.reduceAdd (mulf (varCen lin) (varCen lin)) (constant S_ .f32 0x00000000#32) reducesTo_S50000x128_S128_d0 h_S_)
    (broadcastInDim S128 ![] bcast_S_S128 varN)

/-- The variance of each channel: `varQ` where the divisor is positive, the not-a-number literal otherwise. -/
def varR (lin : (⟨S50000x128, .f32⟩ : BufTy).Contents (Elt F)) : (⟨S128, .f32⟩ : BufTy).Contents (Elt F) :=
  select (broadcastInDim S128 ![] bcast_S_S128 (cmpf .ogt (varN (F := F)) (constant S_ .f32 0x00000000#32)))
    (varQ lin)
    (broadcastInDim S128 ![] bcast_S_S128 (id (constant S_ .f32 0x7FC00000#32 : (⟨S_, .f32⟩ : BufTy).Contents (Elt F))))

/-- Normalise each channel by its mean and variance, scale by `g`, shift by `be`. -/
def bnPre (lin : (⟨S50000x128, .f32⟩ : BufTy).Contents (Elt F)) (g be : (⟨S128, .f32⟩ : BufTy).Contents (Elt F)) :
    (⟨S50000x128, .f32⟩ : BufTy).Contents (Elt F) :=
  addf (mulf (mulf
        (subf lin (broadcastInDim S50000x128 ![0, 1] bcast_S1x128_S50000x128_0_1 (broadcastInDim S1x128 ![1] bcast_S128_S1x128_1 (meanR lin))))
        (broadcastInDim S50000x128 ![0, 1] bcast_S1x128_S50000x128_0_1 (broadcastInDim S1x128 ![1] bcast_S128_S1x128_1
          (Host.rsqrt (addf (varR lin) (broadcastInDim S128 ![] bcast_S_S128 (constant S_ .f32 0x3727C5AC#32)))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 be))

/-- Clamp at zero. -/
def reluR (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- Batch normalisation followed by the clamp at zero. -/
def bnR (lin : (⟨S50000x128, .f32⟩ : BufTy).Contents (Elt F)) (g be : (⟨S128, .f32⟩ : BufTy).Contents (Elt F)) :
    (⟨S50000x128, .f32⟩ : BufTy).Contents (Elt F) :=
  reluR (bnPre lin g be)

end Cert.ReferenceIdeal.RefRun

end
-- ==== Proof.RefRun.lean ====
import proofs.«122408_j28759101014107_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What a stretch leaves untouched -/

/-- A buffer listed among `W` is, as a singleton, inside the set of `W`'s buffers. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers the first stretch writes. -/
def W0 : List (Ref sig .tc) :=
  [main_v0, main_v1, main_v2, main_v3, main_cst, main_v4, main_cst_0, main_v5, main_v6, main_v7, main_c, main_v8, main_v9, main_c_1, main_v10, main_v11, main_v12, main_v13, main_v14, main_cst_2, main_v15, main_v16, main_v17, main_cst_3, main_v18, main_v19, main_v20, main_v21, main_v22, main_v23, main_v24, main_v25, main_v26, main_v27, main_v28, main_v29, main_v30, main_cst_4, main_v31, main_cst_5, main_v32, main_v33, main_c_6, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v35, main_v36, main_v37, main_cst_7, main_v38, main_v39, main_v40, main_v41, main_v42, main_v43, main_v44, main_v45, main_v46, main_v47, main_v48, main_v49]

/-- The buffers the second stretch writes. -/
def W1 : List (Ref sig .tc) :=
  [main_call1.cst.ref, main_call1.v0.ref, main_call1.v1.ref, main_cst_8, main_v51, main_cst_9, main_v52, main_v53, main_v54, main_c_10, main_v55, main_v56, main_c_11, main_v57, main_v58, main_v59, main_v60, main_v61, main_cst_12, main_v62, main_v63, main_v64, main_cst_13, main_v65, main_v66, main_v67, main_v68, main_v69, main_v70, main_v71, main_v72, main_v73, main_v74, main_v75, main_v76, main_v77, main_cst_14, main_v78, main_cst_15, main_v79, main_v80, main_c_16, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v82, main_v83, main_v84, main_cst_17, main_v85, main_v86, main_v87, main_v88, main_v89, main_v90, main_v91, main_v92, main_v93, main_v94, main_v95, main_v96, main_call3.cst.ref, main_call3.v0.ref, main_call3.v1.ref, main_cst_18, main_v98]

/-- The buffers the third stretch writes. -/
def W2 : List (Ref sig .tc) :=
  [main_cst_19, main_v99, main_v100, main_v101, main_c_20, main_v102, main_v103, main_c_21, main_v104, main_v105, main_v106, main_v107, main_v108, main_cst_22, main_v109, main_v110, main_v111, main_cst_23, main_v112, main_v113, main_v114, main_v115, main_v116, main_v117, main_v118, main_v119, main_v120, main_v121, main_v122, main_v123, main_v124]

theorem ops0_writes : (ops0 : List (HloOp τ sig (Elt F))).Forall fun op => op.writes ⊆ ((W0).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem ops1_writes : (ops1 : List (HloOp τ sig (Elt F))).Forall fun op => op.writes ⊆ ((W1).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem ops2_writes : (ops2 : List (HloOp τ sig (Elt F))).Forall fun op => op.writes ⊆ ((W2).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer a stretch does not write keeps its contents. -/
theorem keep0 (V : Valuation τ sig (Elt F)) {r : Ref sig .tc} (hr : r ∉ W0) :
    after ops0 V (Proc.devRef .tc r) = V (Proc.devRef .tc r) := after_of_writes_sub ops0 V ops0_writes hr
theorem keep1 (V : Valuation τ sig (Elt F)) {r : Ref sig .tc} (hr : r ∉ W1) :
    after ops1 V (Proc.devRef .tc r) = V (Proc.devRef .tc r) := after_of_writes_sub ops1 V ops1_writes hr
theorem keep2 (V : Valuation τ sig (Elt F)) {r : Ref sig .tc} (hr : r ∉ W2) :
    after ops2 V (Proc.devRef .tc r) = V (Proc.devRef .tc r) := after_of_writes_sub ops2 V ops2_writes hr

/-- A buffer none of the three stretches writes keeps its contents through the whole program. -/
theorem keepAll (V : Valuation τ sig (Elt F)) {r : Ref sig .tc} (h0 : r ∉ W0) (h1 : r ∉ W1) (h2 : r ∉ W2) :
    after (ops0 ++ (ops1 ++ ops2)) V (Proc.devRef .tc r) = V (Proc.devRef .tc r) := by
  rw [after_app, after_app, keep2 _ h2, keep1 _ h1, keep0 _ h0]

/-! ## What each stretch computes

The contents of a stretch's result buffers as the stage functions of the contents it started from: the fold
over the stretch's operations rewritten to the operations' composed term, which is the stage functions'
unfolding. -/

theorem p0_v1 (V : Valuation τ sig (Elt F)) :
    after ops0 V (main_v1 : DevRef τ sig) = srcVec (V (main_arg1 : DevRef τ sig)) := by
  after_results_simp
  rfl

theorem p0_v3 (V : Valuation τ sig (Elt F)) :
    after ops0 V (main_v3 : DevRef τ sig) = dstVec (V (main_arg1 : DevRef τ sig)) := by
  after_results_simp
  rfl

/-- The first stretch ends with the first layer normalised, before its clamp. -/
theorem p0_v49 (V : Valuation τ sig (Elt F)) :
    after ops0 V (main_v49 : DevRef τ sig)
      = bnPre (linV (srcVec (V (main_arg1 : DevRef τ sig))) (dstVec (V (main_arg1 : DevRef τ sig))) (V (main_arg0 : DevRef τ sig))
          (V (main_arg2 : DevRef τ sig)) (V (main_arg3 : DevRef τ sig)) (V (main_arg4 : DevRef τ sig)))
        (V (main_arg5 : DevRef τ sig)) (V (main_arg6 : DevRef τ sig)) := by
  after_results_simp
  rfl

/-- The second stretch ends with the second layer normalised and clamped. -/
theorem p1_v97 (V : Valuation τ sig (Elt F)) :
    after ops1 V (main_v97 : DevRef τ sig)
      = bnR (linV (V (main_v1 : DevRef τ sig)) (V (main_v3 : DevRef τ sig)) (reluR (V (main_v49 : DevRef τ sig)))
          (V (main_arg7 : DevRef τ sig)) (V (main_arg8 : DevRef τ sig)) (V (main_arg9 : DevRef τ sig)))
        (V (main_arg10 : DevRef τ sig)) (V (main_arg11 : DevRef τ sig)) := by
  after_results_simp
  rfl

theorem p1_v98 (V : Valuation τ sig (Elt F)) :
    after ops1 V (main_v98 : DevRef τ sig) = onesE := by
  after_results_simp
  rfl

/-- The third stretch is the output layer's linear part. -/
theorem p2_v124 (V : Valuation τ sig (Elt F)) :
    after ops2 V (main_v124 : DevRef τ sig)
      = linD64 (degsU (V (main_v3 : DevRef τ sig)) (V (main_v98 : DevRef τ sig)))
          (aggV (V (main_v1 : DevRef τ sig)) (V (main_v3 : DevRef τ sig)) (V (main_v97 : DevRef τ sig)))
          (V (main_v97 : DevRef τ sig)) (V (main_arg12 : DevRef τ sig)) (V (main_arg13 : DevRef τ sig)) (V (main_arg14 : DevRef τ sig)) := by
  after_results_simp
  rfl

/-! ## The program's result as a function of its arguments -/

/-- The gather's index column from the edge array `[2, 1600000]`. -/
def srcIdx (e : (⟨S2x1600000, .i32⟩ : BufTy).Contents (Elt F)) : (⟨S1600000x1, .i32⟩ : BufTy).Contents (Elt F) := srcCol (srcVec e)
/-- The scatter's index column from the edge array. -/
def dstIdx (e : (⟨S2x1600000, .i32⟩ : BufTy).Contents (Elt F)) : (⟨S1600000x1, .i32⟩ : BufTy).Contents (Elt F) := dstCol (dstVec e)
/-- The clamped in-degree of each node, `[50000]`. -/
def degs (e : (⟨S2x1600000, .i32⟩ : BufTy).Contents (Elt F)) : (⟨S50000, .f32⟩ : BufTy).Contents (Elt F) := degsV (dstVec e)
/-- Per node, the sum of its in-neighbours' feature rows, `[50000, 128]`. -/
def agg (e : (⟨S2x1600000, .i32⟩ : BufTy).Contents (Elt F)) (feat : (⟨S50000x128, .f32⟩ : BufTy).Contents (Elt F)) :
    (⟨S50000x128, .f32⟩ : BufTy).Contents (Elt F) := aggV (srcVec e) (dstVec e) feat
/-- A hidden layer's linear part. -/
def linR (e : (⟨S2x1600000, .i32⟩ : BufTy).Contents (Elt F)) (feat : (⟨S50000x128, .f32⟩ : BufTy).Contents (Elt F))
    (Wl Wr : (⟨S128x128, .f32⟩ : BufTy).Contents (Elt F)) (b : (⟨S128, .f32⟩ : BufTy).Contents (Elt F)) :
    (⟨S50000x128, .f32⟩ : BufTy).Contents (Elt F) := linD (degs e) (agg e feat) feat Wl Wr b
/-- The output layer's linear part. -/
def linR64 (e : (⟨S2x1600000, .i32⟩ : BufTy).Contents (Elt F)) (feat : (⟨S50000x128, .f32⟩ : BufTy).Contents (Elt F))
    (Wl Wr : (⟨S64x128, .f32⟩ : BufTy).Contents (Elt F)) (b : (⟨S64, .f32⟩ : BufTy).Contents (Elt F)) :
    (⟨S50000x64, .f32⟩ : BufTy).Contents (Elt F) := linD64 (degs e) (agg e feat) feat Wl Wr b

/-- The program's result: the output layer of the normalised and clamped second layer of the normalised and
    clamped first layer. -/
def out (x : (⟨S50000x128, .f32⟩ : BufTy).Contents (Elt F)) (e : (⟨S2x1600000, .i32⟩ : BufTy).Contents (Elt F))
    (Wl0 Wr0 : (⟨S128x128, .f32⟩ : BufTy).Contents (Elt F)) (b0 g0 be0 : (⟨S128, .f32⟩ : BufTy).Contents (Elt F))
    (Wl1 Wr1 : (⟨S128x128, .f32⟩ : BufTy).Contents (Elt F)) (b1 g1 be1 : (⟨S128, .f32⟩ : BufTy).Contents (Elt F))
    (Wl2 Wr2 : (⟨S64x128, .f32⟩ : BufTy).Contents (Elt F)) (b2 : (⟨S64, .f32⟩ : BufTy).Contents (Elt F)) :
    (⟨S50000x64, .f32⟩ : BufTy).Contents (Elt F) :=
  linR64 e (bnR (linR e (bnR (linR e x Wl0 Wr0 b0) g0 be0) Wl1 Wr1 b1) g1 be1) Wl2 Wr2 b2

/-- The result buffer after the whole program is `out` of the arguments' contents. -/
theorem out_eq (V : Valuation τ sig (Elt F)) :
    after (ops0 ++ (ops1 ++ ops2)) V (main_v124 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_app, after_app, p2_v124, p1_v97, p1_v98,
    keep1 _ (r := main_v3) (by decide), keep1 _ (r := main_v1) (by decide),
    keep1 _ (r := main_arg12) (by decide), keep1 _ (r := main_arg13) (by decide), keep1 _ (r := main_arg14) (by decide),
    p0_v1, p0_v3, p0_v49,
    keep0 _ (r := main_arg7) (by decide), keep0 _ (r := main_arg8) (by decide), keep0 _ (r := main_arg9) (by decide),
    keep0 _ (r := main_arg10) (by decide), keep0 _ (r := main_arg11) (by decide),
    keep0 _ (r := main_arg12) (by decide), keep0 _ (r := main_arg13) (by decide), keep0 _ (r := main_arg14) (by decide)]
  rfl

theorem ops_sub : (ops0 ++ (ops1 ++ ops2) : List (HloOp τ sig (Elt F))).Forall fun op => op.bufs ⊆ tcRefs τ sig :=
  List.forall_iff_forall_mem.2 fun op h => by
    rcases List.mem_append.1 h with h | h
    · exact List.forall_iff_forall_mem.1 ops0_sub op h
    rcases List.mem_append.1 h with h | h
    · exact List.forall_iff_forall_mem.1 ops1_sub op h
    · exact List.forall_iff_forall_mem.1 ops2_sub op h

theorem ops_fresh : ∀ op ∈ (ops0 ++ (ops1 ++ ops2) : List (HloOp τ sig (Elt F))), op.fresh = ∅ := fun op h => by
  rcases List.mem_append.1 h with h | h
  · exact List.forall_iff_forall_mem.1 ops0_fresh op h
  rcases List.mem_append.1 h with h | h
  · exact List.forall_iff_forall_mem.1 ops1_fresh op h
  · exact List.forall_iff_forall_mem.1 ops2_fresh op h

/-- For any float values, from any memory with zero counters: every weakly fair execution of the program
    terminates with the result buffer at `out` of the arguments and the arguments unchanged. -/
theorem run (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
          r.2.mem ((c.tc : Thread Cert.ReferenceIdeal.nD Cert.ReferenceIdeal.τ).loc Cert.ReferenceIdeal.main_v124) = out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)) :=
  (θ_run defs _ _).mono (fun _ h c => ⟨(h c main_v124).trans (out_eq _),
      (h c main_arg0).trans (keepAll _ (by decide) (by decide) (by decide)),
      (h c main_arg1).trans (keepAll _ (by decide) (by decide) (by decide)),
      (h c main_arg2).trans (keepAll _ (by decide) (by decide) (by decide)),
      (h c main_arg3).trans (keepAll _ (by decide) (by decide) (by decide)),
      (h c main_arg4).trans (keepAll _ (by decide) (by decide) (by decide)),
      (h c main_arg5).trans (keepAll _ (by decide) (by decide) (by decide)),
      (h c main_arg6).trans (keepAll _ (by decide) (by decide) (by decide)),
      (h c main_arg7).trans (keepAll _ (by decide) (by decide) (by decide)),
      (h c main_arg8).trans (keepAll _ (by decide) (by decide) (by decide)),
      (h c main_arg9).trans (keepAll _ (by decide) (by decide) (by decide)),
      (h c main_arg10).trans (keepAll _ (by decide) (by decide) (by decide)),
      (h c main_arg11).trans (keepAll _ (by decide) (by decide) (by decide)),
      (h c main_arg12).trans (keepAll _ (by decide) (by decide) (by decide)),
      (h c main_arg13).trans (keepAll _ (by decide) (by decide) (by decide)),
      (h c main_arg14).trans (keepAll _ (by decide) (by decide) (by decide))⟩)
    (run_seq scopedRefs_eq scopedSems_eq defs main (fun _ => ops0 ++ (ops1 ++ ops2)) main_eq (fun _ => ops_sub) m ρ (fun _ => ops_fresh))

end Cert.ReferenceIdeal.RefRun

end
-- ==== Proof.RefRead.lean ====
import proofs.«122408_j28759101014107_2_alg».proof.Proof.RefRun
import proofs.«122408_j28759101014107_2_alg».proof.Proof.Spec
import Idealize.ShloMosaic.Lib.ValueIdx
import Idealize.ShloMosaic.Lib.ValueLayout
import Idealize.ShloMosaic.PureOps.Ideal.Laws
import Idealize.ShloMosaic.Lib.Pipeline.Value

noncomputable section

/-! The stages of the reference's result read at an index, at the extended reals: each entry as the
    specification's function of the entries of the arrays the stage reads. -/

namespace Cert.ReferenceIdeal.RefRead

open Cert.ReferenceIdeal Cert.ReferenceIdeal.Gen Cert.ReferenceIdeal.RefRun Idealize.ShloMosaic Idealize.ShloMosaic.ValueIdx

/-! ## Broadcasts read at an index -/

/-- A scalar broadcast to any shape reads the scalar everywhere. -/
theorem bcScalar {t : Shape} {α : Type} (h : S_.BroadcastsInDim t (![] : Fin 0 → Fin t.rank)) (x : S_.Idx → α) (j : t.Idx) :
    broadcastInDim t ![] h x j = x ix0 :=
  broadcastInDim_apply _ h x j ix0 fun a => a.elim0

/-- A channel vector broadcast along the nodes reads, at node `r` and channel `j`, its entry `j`. -/
theorem bcRow128 {α : Type} (v : S128.Idx → α) (r : Fin 50000) (j : Fin 128) :
    broadcastInDim S50000x128 ![0, 1] bcast_S1x128_S50000x128_0_1 (broadcastInDim S1x128 ![1] bcast_S128_S1x128_1 v) (ix2 r j)
      = v (ix1 j) := by
  rw [broadcastInDim_apply _ _ _ (ix2 r j) (ix2 (0 : Fin 1) j) fun a => match a with | ⟨0, _⟩ => rfl | ⟨1, _⟩ => rfl]
  exact broadcastInDim_apply _ _ _ (ix2 (0 : Fin 1) j) (ix1 j) fun a => match a with | ⟨0, _⟩ => rfl

/-- The same for the 64 output channels. -/
theorem bcRow64 {α : Type} (v : S64.Idx → α) (r : Fin 50000) (j : Fin 64) :
    broadcastInDim S50000x64 ![0, 1] bcast_S1x64_S50000x64_0_1 (broadcastInDim S1x64 ![1] bcast_S64_S1x64_1 v) (ix2 r j)
      = v (ix1 j) := by
  rw [broadcastInDim_apply _ _ _ (ix2 r j) (ix2 (0 : Fin 1) j) fun a => match a with | ⟨0, _⟩ => rfl | ⟨1, _⟩ => rfl]
  exact broadcastInDim_apply _ _ _ (ix2 (0 : Fin 1) j) (ix1 j) fun a => match a with | ⟨0, _⟩ => rfl

/-- A node vector broadcast along the channels reads, at node `r` and channel `k`, its entry `r`. -/
theorem bcCol {α : Type} (v : S50000.Idx → α) (r : Fin 50000) (k : Fin 128) :
    broadcastInDim S50000x128 ![0, 1] bcast_S50000x1_S50000x128_0_1 (broadcastInDim S50000x1 ![0] bcast_S50000_S50000x1_0 v) (ix2 r k)
      = v (ix1 r) := by
  rw [broadcastInDim_apply _ _ _ (ix2 r k) (ix2 r (0 : Fin 1)) fun a => match a with | ⟨0, _⟩ => rfl | ⟨1, _⟩ => rfl]
  exact broadcastInDim_apply _ _ _ (ix2 r (0 : Fin 1)) (ix1 r) fun a => match a with | ⟨0, _⟩ => rfl

/-! ## The column sum -/

/-- The index over channel `j` with node `n` inserted on the reduced axis is `(n, j)`. -/
theorem redLift (h : S50000x128.Reduces [0] S128) (j : Fin 128) (n : Fin 50000) : h.lift (ix1 j) n = ix2 n j := by
  funext c
  match c with
  | ⟨0, _⟩ => exact Fin.ext rfl
  | ⟨1, _⟩ => exact Fin.ext rfl

/-- The sum over the nodes from the zero literal, read at channel `j`: the sum of the column. -/
theorem reduceAdd_col (x : (⟨S50000x128, .f32⟩ : BufTy).Contents (Elt Ideal)) (j : Fin 128) :
    Host.reduceAdd (F := Ideal) x (constant S_ .f32 0x00000000#32) reducesTo_S50000x128_S128_d0 h_S_ (ix1 j) = ∑ n : Fin 50000, x (ix2 n j) := by
  have h : S50000x128.Reduces [0] S128 := by decide
  unfold Host.reduceAdd
  rw [Ideal.hostReduceAdd_def, Ideal.hostReduceAdd_single _ h, constant_apply, Ideal.ofBits_zero_f32, zero_add]
  exact Finset.sum_congr rfl fun n _ => congrArg x (redLift h j n)

/-! ## The mean, and the normalisation with its clamp -/

theorem meanR_apply (lin : (⟨S50000x128, .f32⟩ : BufTy).Contents (Elt Ideal)) (j : Fin 128) :
    meanR lin (ix1 j) = Cert.Spec.mean (Ideal.ofBits .f32 0x47435000#32) (fun n j => lin (ix2 n j)) j := by
  unfold meanR Cert.Spec.mean Cert.Spec.colSum
  show Ideal.div _ _ = _
  rw [reduceAdd_col, bcScalar]
  rfl

theorem bnR_apply (lin : (⟨S50000x128, .f32⟩ : BufTy).Contents (Elt Ideal)) (g be : (⟨S128, .f32⟩ : BufTy).Contents (Elt Ideal))
    (r : Fin 50000) (j : Fin 128) :
    bnR lin g be (ix2 r j)
      = Cert.Spec.bnrelu (Ideal.ofBits .f32 0x3727C5AC#32) (fun n j => lin (ix2 n j)) (fun j => meanR lin (ix1 j))
          (fun j => varR lin (ix1 j)) (fun j => g (ix1 j)) (fun j => be (ix1 j)) r j := by
  unfold bnR reluR bnPre Cert.Spec.bnrelu
  rw [maximumf_apply, addf_apply, mulf_apply, mulf_apply, subf_apply, bcRow128, bcRow128, bcRow128, bcRow128, bcScalar,
    constant_apply, Ideal.ofBits_zero_f32]
  show max (((lin (ix2 r j) - meanR lin (ix1 j)) * Ideal.rsqrt (addf (varR lin) _ (ix1 j))) * g (ix1 j) + be (ix1 j)) 0 = _
  rw [addf_apply, bcScalar, constant_apply]

/-! ## The variance -/

/-- The node count's literal is the real `50000`. -/
theorem ofBits_50000 : Ideal.ofBits .f32 0x47435000#32 = ((50000 : ℝ) : EReal) := by
  simp [Ideal.ofBits, Ideal.ieee, -EReal.coe_mul]; norm_num

/-- The variance's divisor is the node count's literal: the correction subtracted is the integer zero. -/
theorem varN_val : (varN (F := Ideal)) ix0 = Ideal.ofBits .f32 0x47435000#32 := by
  unfold varN
  rw [subf_apply, constant_apply, sitofp_apply, constantI_apply]
  show Ideal.ofBits .f32 0x47435000#32 - (((0#32 : BitVec 32).toInt : ℝ) : EReal) = _
  simp

/-- A `[1, 128]` row broadcast along the nodes reads its entry `(0, j)`. -/
theorem bcRowA {α : Type} (v : S1x128.Idx → α) (r : Fin 50000) (j : Fin 128) :
    broadcastInDim S50000x128 ![0, 1] bcast_S1x128_S50000x128_0_1 v (ix2 r j) = v (ix2 (0 : Fin 1) j) :=
  broadcastInDim_apply _ _ _ (ix2 r j) (ix2 (0 : Fin 1) j) fun a => match a with | ⟨0, _⟩ => rfl | ⟨1, _⟩ => rfl

/-- A channel vector as a `[1, 128]` row reads, at `(0, j)`, its entry `j`. -/
theorem bcRowB {α : Type} (v : S128.Idx → α) (j : Fin 128) :
    broadcastInDim S1x128 ![1] bcast_S128_S1x128_1 v (ix2 (0 : Fin 1) j) = v (ix1 j) :=
  broadcastInDim_apply _ _ _ (ix2 (0 : Fin 1) j) (ix1 j) fun a => match a with | ⟨0, _⟩ => rfl

theorem hdivf_apply {s : Shape} {φ : FTy} (a b : FVec Ideal s φ) (i : s.Idx) : Host.divf a b i = Ideal.div (a i) (b i) := rfl

/-- The deviation the variance helper squares is the entry less the channel's mean. -/
theorem varCen_apply (lin : (⟨S50000x128, .f32⟩ : BufTy).Contents (Elt Ideal)) (n : Fin 50000) (j : Fin 128) :
    varCen lin (ix2 n j) = lin (ix2 n j) - Cert.Spec.mean (Ideal.ofBits .f32 0x47435000#32) (fun n j => lin (ix2 n j)) j := by
  unfold varCen Cert.Spec.mean Cert.Spec.colSum
  rw [subf_apply, bcRowA, hdivf_apply, bcRowB, reduceAdd_col, bcScalar, constant_apply]

/-- The selection in the variance helper takes its first branch (the divisor is positive), and the variance is
    the mean of the squared deviations from the mean, both divisions by the node count's literal. -/
theorem varR_apply (lin : (⟨S50000x128, .f32⟩ : BufTy).Contents (Elt Ideal)) (j : Fin 128) :
    varR lin (ix1 j) = Cert.Spec.varCentred (Ideal.ofBits .f32 0x47435000#32) (fun n j => lin (ix2 n j)) j := by
  have hc : FloatOps.cmpf (F := Ideal) (φ := .f32) .ogt (Ideal.ofBits .f32 0x47435000#32) (0 : EReal) = 1#1 := by
    rw [ofBits_50000]
    show Ideal.cmp .ogt _ _ = _
    have h : (0 : EReal) < ((50000 : ℝ) : EReal) := by exact_mod_cast (by norm_num : (0 : ℝ) < 50000)
    simp [Ideal.cmp, h]
  unfold varR
  rw [select_apply, bcScalar, cmpf_apply, varN_val, constant_apply, Ideal.ofBits_zero_f32, hc, select_one]
  unfold varQ Cert.Spec.varCentred
  rw [hdivf_apply, reduceAdd_col, bcScalar, varN_val]
  have hs : ∀ n : Fin 50000, mulf (varCen lin) (varCen lin) (ix2 n j)
      = (lin (ix2 n j) - Cert.Spec.mean (Ideal.ofBits .f32 0x47435000#32) (fun n j => lin (ix2 n j)) j)
        * (lin (ix2 n j) - Cert.Spec.mean (Ideal.ofBits .f32 0x47435000#32) (fun n j => lin (ix2 n j)) j) := fun n => by
    rw [mulf_apply, varCen_apply]
  rw [Finset.sum_congr rfl fun n _ => hs n]

/-! ## The two products and the linear part -/

/-- The dimension numbers of the hidden layers' products: `[50000, 128] · [128, 128]`, contracting the left
    operand's axis 1 with the right's axis 0. -/
abbrev D128 : DotDims S50000x128 S128x128 S50000x128 := dot_S50000x128_S128x128_S50000x128_1_0_0_1_n_n
/-- The output layer's: `[50000, 128] · [128, 64]`. -/
abbrev D64 : DotDims S50000x128 S128x64 S50000x64 := dot_S50000x128_S128x64_S50000x64_1_0_0_1_n_n

theorem lhs128_0 (j : S50000x128.Idx) (k : D128.contr.Idx) : (D128.lhsIdx j k 0 : ℕ) = j 0 := by
  simp [DotDims.lhsIdx, D128, dot_S50000x128_S128x128_S50000x128_1_0_0_1_n_n]; rfl
theorem lhs128_1 (j : S50000x128.Idx) (k : D128.contr.Idx) : (D128.lhsIdx j k 1 : ℕ) = k ⟨0, by decide⟩ := by
  simp [DotDims.lhsIdx, D128, dot_S50000x128_S128x128_S50000x128_1_0_0_1_n_n]; rfl
theorem rhs128_0 (j : S50000x128.Idx) (k : D128.contr.Idx) : (D128.rhsIdx j k 0 : ℕ) = k ⟨0, by decide⟩ := by
  simp [DotDims.rhsIdx, D128, dot_S50000x128_S128x128_S50000x128_1_0_0_1_n_n]; rfl
theorem rhs128_1 (j : S50000x128.Idx) (k : D128.contr.Idx) : (D128.rhsIdx j k 1 : ℕ) = j 1 := by
  simp [DotDims.rhsIdx, D128, dot_S50000x128_S128x128_S50000x128_1_0_0_1_n_n]; rfl

theorem lhs64_0 (j : S50000x64.Idx) (k : D64.contr.Idx) : (D64.lhsIdx j k 0 : ℕ) = j 0 := by
  simp [DotDims.lhsIdx, D64, dot_S50000x128_S128x64_S50000x64_1_0_0_1_n_n]; rfl
theorem lhs64_1 (j : S50000x64.Idx) (k : D64.contr.Idx) : (D64.lhsIdx j k 1 : ℕ) = k ⟨0, by decide⟩ := by
  simp [DotDims.lhsIdx, D64, dot_S50000x128_S128x64_S50000x64_1_0_0_1_n_n]; rfl
theorem rhs64_0 (j : S50000x64.Idx) (k : D64.contr.Idx) : (D64.rhsIdx j k 0 : ℕ) = k ⟨0, by decide⟩ := by
  simp [DotDims.rhsIdx, D64, dot_S50000x128_S128x64_S50000x64_1_0_0_1_n_n]; rfl
theorem rhs64_1 (j : S50000x64.Idx) (k : D64.contr.Idx) : (D64.rhsIdx j k 1 : ℕ) = j 1 := by
  simp [DotDims.rhsIdx, D64, dot_S50000x128_S128x64_S50000x64_1_0_0_1_n_n]; rfl

/-- The contraction's index is its one coordinate, in `Fin 128`. -/
def ce128 : D128.contr.Idx ≃ Fin 128 := contrEquiv1 D128 128 (by decide) (by decide)
def ce64 : D64.contr.Idx ≃ Fin 128 := contrEquiv1 D64 128 (by decide) (by decide)

/-- A hidden layer's product at node `r`, channel `j`: the sum over the input channels. -/
theorem dot128_apply (lhs : FVec Ideal S50000x128 .f32) (rhs : FVec Ideal S128x128 .f32) (r : Fin 50000) (j : Fin 128) :
    Host.dotGeneral D128 none lhs rhs (ix2 r j) = ∑ k : Fin 128, lhs (ix2 r k) * rhs (ix2 k j) := by
  unfold Host.dotGeneral
  rw [Ideal.dotGeneral_apply, ← Equiv.sum_comp ce128.symm]
  refine Finset.sum_congr rfl fun k _ => ?_
  have e1 : D128.lhsIdx (ix2 r j) (ce128.symm k) = ix2 r k := by
    funext c
    match c with
    | ⟨0, _⟩ => exact Fin.ext (lhs128_0 _ _)
    | ⟨1, _⟩ => exact Fin.ext ((lhs128_1 _ _).trans (contrEquiv1_symm_val D128 128 _ _ k))
  have e2 : D128.rhsIdx (ix2 r j) (ce128.symm k) = ix2 k j := by
    funext c
    match c with
    | ⟨0, _⟩ => exact Fin.ext ((rhs128_0 _ _).trans (contrEquiv1_symm_val D128 128 _ _ k))
    | ⟨1, _⟩ => exact Fin.ext (rhs128_1 _ _)
  rw [e1, e2]

/-- The output layer's product likewise. -/
theorem dot64_apply (lhs : FVec Ideal S50000x128 .f32) (rhs : FVec Ideal S128x64 .f32) (r : Fin 50000) (j : Fin 64) :
    Host.dotGeneral D64 none lhs rhs (ix2 r j) = ∑ k : Fin 128, lhs (ix2 r k) * rhs (ix2 k j) := by
  unfold Host.dotGeneral
  rw [Ideal.dotGeneral_apply, ← Equiv.sum_comp ce64.symm]
  refine Finset.sum_congr rfl fun k _ => ?_
  have e1 : D64.lhsIdx (ix2 r j) (ce64.symm k) = ix2 r k := by
    funext c
    match c with
    | ⟨0, _⟩ => exact Fin.ext (lhs64_0 _ _)
    | ⟨1, _⟩ => exact Fin.ext ((lhs64_1 _ _).trans (contrEquiv1_symm_val D64 128 _ _ k))
  have e2 : D64.rhsIdx (ix2 r j) (ce64.symm k) = ix2 k j := by
    funext c
    match c with
    | ⟨0, _⟩ => exact Fin.ext ((rhs64_0 _ _).trans (contrEquiv1_symm_val D64 128 _ _ k))
    | ⟨1, _⟩ => exact Fin.ext (rhs64_1 _ _)
  rw [e1, e2]

/-- The linear part of a hidden layer from given degrees and neighbour sums, read at node `r`, channel `j`. -/
theorem linD_apply (dg : (⟨S50000, .f32⟩ : BufTy).Contents (Elt Ideal)) (ag feat : (⟨S50000x128, .f32⟩ : BufTy).Contents (Elt Ideal))
    (Wl Wr : (⟨S128x128, .f32⟩ : BufTy).Contents (Elt Ideal)) (b : (⟨S128, .f32⟩ : BufTy).Contents (Elt Ideal))
    (r : Fin 50000) (j : Fin 128) :
    linD dg ag feat Wl Wr b (ix2 r j)
      = Cert.Spec.lin (fun r k => ag (ix2 r k)) (fun r k => feat (ix2 r k)) (fun r => dg (ix1 r))
          (fun j k => Wl (ix2 j k)) (fun j k => Wr (ix2 j k)) (fun j => b (ix1 j)) r j := by
  unfold linD Cert.Spec.lin
  rw [addf_apply, addf_apply, bcRow128, dot128_apply, dot128_apply]
  refine congrArg₂ (· + ·) (congrArg₂ (· + ·) (Finset.sum_congr rfl fun k _ => ?_) (Finset.sum_congr rfl fun k _ => ?_)) rfl
  · rw [transpose_ix2_apply, hdivf_apply, bcCol]
  · rw [transpose_ix2_apply]

/-- The same for the output layer's 64 channels. -/
theorem linD64_apply (dg : (⟨S50000, .f32⟩ : BufTy).Contents (Elt Ideal)) (ag feat : (⟨S50000x128, .f32⟩ : BufTy).Contents (Elt Ideal))
    (Wl Wr : (⟨S64x128, .f32⟩ : BufTy).Contents (Elt Ideal)) (b : (⟨S64, .f32⟩ : BufTy).Contents (Elt Ideal))
    (r : Fin 50000) (j : Fin 64) :
    linD64 dg ag feat Wl Wr b (ix2 r j)
      = Cert.Spec.lin (fun r k => ag (ix2 r k)) (fun r k => feat (ix2 r k)) (fun r => dg (ix1 r))
          (fun j k => Wl (ix2 j k)) (fun j k => Wr (ix2 j k)) (fun j => b (ix1 j)) r j := by
  unfold linD64 Cert.Spec.lin
  rw [addf_apply, addf_apply, bcRow64, dot64_apply, dot64_apply]
  refine congrArg₂ (· + ·) (congrArg₂ (· + ·) (Finset.sum_congr rfl fun k _ => ?_) (Finset.sum_congr rfl fun k _ => ?_)) rfl
  · rw [transpose_ix2_apply, hdivf_apply, bcCol]
  · rw [transpose_ix2_apply]

theorem linR_apply (e : (⟨S2x1600000, .i32⟩ : BufTy).Contents (Elt Ideal)) (feat : (⟨S50000x128, .f32⟩ : BufTy).Contents (Elt Ideal))
    (Wl Wr : (⟨S128x128, .f32⟩ : BufTy).Contents (Elt Ideal)) (b : (⟨S128, .f32⟩ : BufTy).Contents (Elt Ideal))
    (r : Fin 50000) (j : Fin 128) :
    linR e feat Wl Wr b (ix2 r j)
      = Cert.Spec.lin (fun r k => agg e feat (ix2 r k)) (fun r k => feat (ix2 r k)) (fun r => degs e (ix1 r))
          (fun j k => Wl (ix2 j k)) (fun j k => Wr (ix2 j k)) (fun j => b (ix1 j)) r j :=
  linD_apply (degs e) (agg e feat) feat Wl Wr b r j

theorem linR64_apply (e : (⟨S2x1600000, .i32⟩ : BufTy).Contents (Elt Ideal)) (feat : (⟨S50000x128, .f32⟩ : BufTy).Contents (Elt Ideal))
    (Wl Wr : (⟨S64x128, .f32⟩ : BufTy).Contents (Elt Ideal)) (b : (⟨S64, .f32⟩ : BufTy).Contents (Elt Ideal))
    (r : Fin 50000) (j : Fin 64) :
    linR64 e feat Wl Wr b (ix2 r j)
      = Cert.Spec.lin (fun r k => agg e feat (ix2 r k)) (fun r k => feat (ix2 r k)) (fun r => degs e (ix1 r))
          (fun j k => Wl (ix2 j k)) (fun j k => Wr (ix2 j k)) (fun j => b (ix1 j)) r j :=
  linD64_apply (degs e) (agg e feat) feat Wl Wr b r j

end Cert.ReferenceIdeal.RefRead

end
-- ==== Proof.RefNet.lean ====
import proofs.«122408_j28759101014107_2_alg».proof.Proof.RefRead
import proofs.«122408_j28759101014107_2_alg».proof.Proof.StagesK
import proofs.«122408_j28759101014107_2_alg».proof.Proof.Algebra

noncomputable section

/-! The reference's result as the three-layer network over curried arrays.

Both programs form the neighbour sums and the clamped degrees by the same gather and scatter-add of the same
index columns, so the reference's two stages are the other program's functions of the edge array; with them
each hidden layer of the reference is the network's layer (its linear part, normalised by that part's own mean
and centred variance), and the output is the network. -/

namespace Cert.ReferenceIdeal.RefNet

open Cert.ReferenceIdeal Cert.ReferenceIdeal.Gen Cert.ReferenceIdeal.RefRun Cert.ReferenceIdeal.RefRead
open Idealize.ShloMosaic Idealize.ShloMosaic.ValueIdx

/-- The neighbour sum is the same function in both programs: one gather of the source rows and one
    scatter-add onto the target rows, from zero, over the same index columns. -/
theorem agg_eq (e : (⟨S2x1600000, .i32⟩ : BufTy).Contents (Elt Ideal)) (feat : (⟨S50000x128, .f32⟩ : BufTy).Contents (Elt Ideal)) :
    agg (F := Ideal) e feat = Cert.KernelIdeal.KVal.aggA e feat := by
  unfold agg aggV dstCol srcCol srcVec dstVec Cert.KernelIdeal.KVal.aggA Cert.KernelIdeal.KVal.dstI Cert.KernelIdeal.KVal.srcI
    Cert.KernelIdeal.KVal.srcL
  rfl

/-- The clamped degree likewise: one scatter-add of ones, clamped below at one. -/
theorem degs_eq (e : (⟨S2x1600000, .i32⟩ : BufTy).Contents (Elt Ideal)) :
    degs (F := Ideal) e = Cert.KernelIdeal.KVal.degA e := by
  unfold degs degsV degsU onesE dstCol dstVec Cert.KernelIdeal.KVal.degA Cert.KernelIdeal.KVal.dstI
  rfl

/-- The other program's neighbour-sum operator on the curried entries of an array is the entries of its
    neighbour sum of the array. -/
theorem aggOpK_cur (e : (⟨S2x1600000, .i32⟩ : BufTy).Contents (Elt Ideal)) (feat : (⟨S50000x128, .f32⟩ : BufTy).Contents (Elt Ideal)) :
    Cert.KernelIdeal.KVal.aggOpK e (Cert.KernelIdeal.KVal.cur feat) = fun r k => Cert.KernelIdeal.KVal.aggA e feat (ix2 r k) := by
  unfold Cert.KernelIdeal.KVal.aggOpK
  rw [Cert.KernelIdeal.KVal.unc_cur]
  rfl

/-- The reference's linear part of a hidden layer, entry by entry, is the specification's over the curried arrays. -/
theorem linR_cur (e : (⟨S2x1600000, .i32⟩ : BufTy).Contents (Elt Ideal)) (feat : (⟨S50000x128, .f32⟩ : BufTy).Contents (Elt Ideal)) (Wl Wr : (⟨S128x128, .f32⟩ : BufTy).Contents (Elt Ideal)) (b : (⟨S128, .f32⟩ : BufTy).Contents (Elt Ideal)) :
    (fun n j => linR e feat Wl Wr b (ix2 n j)) = Cert.Spec.lin (Cert.KernelIdeal.KVal.aggOpK e (Cert.KernelIdeal.KVal.cur feat)) (Cert.KernelIdeal.KVal.cur feat) (Cert.KernelIdeal.KVal.degsK e) (fun j k => Wl (ix2 j k)) (fun j k => Wr (ix2 j k)) (fun j => b (ix1 j)) := by
  funext n j
  rw [linR_apply, agg_eq, degs_eq, aggOpK_cur]
  rfl

/-- A hidden layer of the reference is the network's layer over the curried arrays. -/
theorem hidden_net (e : (⟨S2x1600000, .i32⟩ : BufTy).Contents (Elt Ideal)) (feat : (⟨S50000x128, .f32⟩ : BufTy).Contents (Elt Ideal)) (Wl Wr : (⟨S128x128, .f32⟩ : BufTy).Contents (Elt Ideal)) (b g be : (⟨S128, .f32⟩ : BufTy).Contents (Elt Ideal)) :
    bnR (linR e feat Wl Wr b) g be = Cert.KernelIdeal.KVal.unc (Cert.Alg.layer Cert.Spec.varCentred (Ideal.ofBits .f32 0x47435000#32) (Ideal.ofBits .f32 0x3727C5AC#32) (Cert.KernelIdeal.KVal.aggOpK e (Cert.KernelIdeal.KVal.cur feat)) (Cert.KernelIdeal.KVal.cur feat) (Cert.KernelIdeal.KVal.degsK e) (fun j k => Wl (ix2 j k)) (fun j k => Wr (ix2 j k)) (fun j => b (ix1 j)) (fun j => g (ix1 j)) (fun j => be (ix1 j))) := by
  funext i
  obtain ⟨r, j, rfl⟩ : ∃ r j, i = ix2 r j := ⟨i 0, i 1, eq_ix2 i⟩
  have hL := linR_cur e feat Wl Wr b
  have hM : (fun j => meanR (linR e feat Wl Wr b) (ix1 j))
      = Cert.Spec.mean (Ideal.ofBits .f32 0x47435000#32) (Cert.Spec.lin (Cert.KernelIdeal.KVal.aggOpK e (Cert.KernelIdeal.KVal.cur feat)) (Cert.KernelIdeal.KVal.cur feat) (Cert.KernelIdeal.KVal.degsK e) (fun j k => Wl (ix2 j k)) (fun j k => Wr (ix2 j k)) (fun j => b (ix1 j))) := by
    rw [← hL]; exact funext fun j => meanR_apply _ j
  have hV : (fun j => varR (linR e feat Wl Wr b) (ix1 j))
      = Cert.Spec.varCentred (Ideal.ofBits .f32 0x47435000#32) (Cert.Spec.lin (Cert.KernelIdeal.KVal.aggOpK e (Cert.KernelIdeal.KVal.cur feat)) (Cert.KernelIdeal.KVal.cur feat) (Cert.KernelIdeal.KVal.degsK e) (fun j k => Wl (ix2 j k)) (fun j k => Wr (ix2 j k)) (fun j => b (ix1 j))) := by
    rw [← hL]; exact funext fun j => varR_apply _ j
  rw [bnR_apply, hM, hV, hL]
  rfl

/-- The output layer's linear part is the specification's over the curried arrays. -/
theorem last_net (e : (⟨S2x1600000, .i32⟩ : BufTy).Contents (Elt Ideal)) (feat : (⟨S50000x128, .f32⟩ : BufTy).Contents (Elt Ideal)) (Wl Wr : (⟨S64x128, .f32⟩ : BufTy).Contents (Elt Ideal)) (b : (⟨S64, .f32⟩ : BufTy).Contents (Elt Ideal)) :
    linR64 e feat Wl Wr b = Cert.KernelIdeal.KVal.unc (Cert.Spec.lin (Cert.KernelIdeal.KVal.aggOpK e (Cert.KernelIdeal.KVal.cur feat)) (Cert.KernelIdeal.KVal.cur feat) (Cert.KernelIdeal.KVal.degsK e) (fun j k => Wl (ix2 j k)) (fun j k => Wr (ix2 j k)) (fun j => b (ix1 j))) := by
  funext i
  obtain ⟨r, j, rfl⟩ : ∃ r j, i = ix2 r j := ⟨i 0, i 1, eq_ix2 i⟩
  rw [linR64_apply, agg_eq, degs_eq, aggOpK_cur]
  rfl

/-- The reference's result is the network with the centred variance, over the curried argument arrays. -/
theorem out_net (x : (⟨S50000x128, .f32⟩ : BufTy).Contents (Elt Ideal)) (e : (⟨S2x1600000, .i32⟩ : BufTy).Contents (Elt Ideal)) (Wl0 Wr0 : (⟨S128x128, .f32⟩ : BufTy).Contents (Elt Ideal)) (b0 g0 be0 : (⟨S128, .f32⟩ : BufTy).Contents (Elt Ideal)) (Wl1 Wr1 : (⟨S128x128, .f32⟩ : BufTy).Contents (Elt Ideal)) (b1 g1 be1 : (⟨S128, .f32⟩ : BufTy).Contents (Elt Ideal))
    (Wl2 Wr2 : (⟨S64x128, .f32⟩ : BufTy).Contents (Elt Ideal)) (b2 : (⟨S64, .f32⟩ : BufTy).Contents (Elt Ideal)) :
    out (F := Ideal) x e Wl0 Wr0 b0 g0 be0 Wl1 Wr1 b1 g1 be1 Wl2 Wr2 b2
      = Cert.KernelIdeal.KVal.unc (Cert.Alg.net Cert.Spec.varCentred (Ideal.ofBits .f32 0x47435000#32) (Ideal.ofBits .f32 0x3727C5AC#32)
          (Cert.KernelIdeal.KVal.aggOpK e) (Cert.KernelIdeal.KVal.degsK e) (Cert.KernelIdeal.KVal.cur x)
          (fun j k => Wl0 (ix2 j k)) (fun j k => Wr0 (ix2 j k)) (fun j => b0 (ix1 j)) (fun j => g0 (ix1 j)) (fun j => be0 (ix1 j))
          (fun j k => Wl1 (ix2 j k)) (fun j k => Wr1 (ix2 j k)) (fun j => b1 (ix1 j)) (fun j => g1 (ix1 j)) (fun j => be1 (ix1 j))
          (fun j k => Wl2 (ix2 j k)) (fun j k => Wr2 (ix2 j k)) (fun j => b2 (ix1 j))) := by
  unfold out
  rw [hidden_net e x Wl0 Wr0 b0 g0 be0, hidden_net e _ Wl1 Wr1 b1 g1 be1, last_net]
  unfold Cert.Alg.net
  simp only [Cert.KernelIdeal.KVal.cur_unc]

end Cert.ReferenceIdeal.RefNet

end
-- ==== Proof.Final.lean ====
/-
  The two idealized programs compute one function.

  The kernel program's result buffer, read off its run region by region, is the three-layer network
  with the variance written as the clamped difference of moments; the reference's result is the same
  network with the variance written as the mean squared deviation. Under the precondition every
  argument entry is a real number, so every intermediate value is real and the two variances agree.
-/
import proofs.«122408_j28759101014107_2_alg».proof.Defs
import proofs.«122408_j28759101014107_2_alg».proof.Proof.Gen.Kernel.Frame
import proofs.«122408_j28759101014107_2_alg».proof.Proof.KernelValue0
import proofs.«122408_j28759101014107_2_alg».proof.Proof.KernelValue1
import proofs.«122408_j28759101014107_2_alg».proof.Proof.KernelValue2
import proofs.«122408_j28759101014107_2_alg».proof.Proof.KernelRun
import proofs.«122408_j28759101014107_2_alg».proof.Proof.PreReal
import proofs.«122408_j28759101014107_2_alg».proof.Proof.RefNet
import proofs.«122408_j28759101014107_2_alg».proof.Proof.Gen.Pre_finite_inputs

noncomputable section

namespace Cert.Proof.Claims

open Idealize.ShloMosaic Idealize.ShloMosaic.TcCoe Idealize.SL.Sem
open Idealize.ShloMosaic.ValueIdx
open Cert.Alg Cert.Spec Cert.KernelIdeal.KVal

/-- The network the kernel program computes from the launch memory `m` on core `c`. -/
def netK (m : (ℓ : Loc Cert.KernelIdeal.nD Cert.KernelIdeal.τ Cert.KernelIdeal.sig) → Buf (Elt Ideal) ℓ)
    (c : Dev Cert.KernelIdeal.nD) (var : EReal → (Fin 50000 → Fin 128 → EReal) → Fin 128 → EReal) (N eps : EReal) :
    Fin 50000 → Fin 64 → EReal :=
  net var N eps (aggOpK (eK m c)) (degsK (eK m c)) (cur (xK m c))
    (fun j k => (m ((c : Thread Cert.KernelIdeal.nD Cert.KernelIdeal.τ).loc Cert.KernelIdeal.main_arg2) : Cert.KernelIdeal.S128x128.Idx → EReal) (ix2 j k))
    (fun j k => (m ((c : Thread Cert.KernelIdeal.nD Cert.KernelIdeal.τ).loc Cert.KernelIdeal.main_arg3) : Cert.KernelIdeal.S128x128.Idx → EReal) (ix2 j k))
    (fun j => (m ((c : Thread Cert.KernelIdeal.nD Cert.KernelIdeal.τ).loc Cert.KernelIdeal.main_arg4) : Cert.KernelIdeal.S128.Idx → EReal) (ix1 j))
    (fun j => (m ((c : Thread Cert.KernelIdeal.nD Cert.KernelIdeal.τ).loc Cert.KernelIdeal.main_arg5) : Cert.KernelIdeal.S128.Idx → EReal) (ix1 j))
    (fun j => (m ((c : Thread Cert.KernelIdeal.nD Cert.KernelIdeal.τ).loc Cert.KernelIdeal.main_arg6) : Cert.KernelIdeal.S128.Idx → EReal) (ix1 j))
    (fun j k => (m ((c : Thread Cert.KernelIdeal.nD Cert.KernelIdeal.τ).loc Cert.KernelIdeal.main_arg7) : Cert.KernelIdeal.S128x128.Idx → EReal) (ix2 j k))
    (fun j k => (m ((c : Thread Cert.KernelIdeal.nD Cert.KernelIdeal.τ).loc Cert.KernelIdeal.main_arg8) : Cert.KernelIdeal.S128x128.Idx → EReal) (ix2 j k))
    (fun j => (m ((c : Thread Cert.KernelIdeal.nD Cert.KernelIdeal.τ).loc Cert.KernelIdeal.main_arg9) : Cert.KernelIdeal.S128.Idx → EReal) (ix1 j))
    (fun j => (m ((c : Thread Cert.KernelIdeal.nD Cert.KernelIdeal.τ).loc Cert.KernelIdeal.main_arg10) : Cert.KernelIdeal.S128.Idx → EReal) (ix1 j))
    (fun j => (m ((c : Thread Cert.KernelIdeal.nD Cert.KernelIdeal.τ).loc Cert.KernelIdeal.main_arg11) : Cert.KernelIdeal.S128.Idx → EReal) (ix1 j))
    (fun j k => (m ((c : Thread Cert.KernelIdeal.nD Cert.KernelIdeal.τ).loc Cert.KernelIdeal.main_arg12) : Cert.KernelIdeal.S64x128.Idx → EReal) (ix2 j k))
    (fun j k => (m ((c : Thread Cert.KernelIdeal.nD Cert.KernelIdeal.τ).loc Cert.KernelIdeal.main_arg13) : Cert.KernelIdeal.S64x128.Idx → EReal) (ix2 j k))
    (fun j => (m ((c : Thread Cert.KernelIdeal.nD Cert.KernelIdeal.τ).loc Cert.KernelIdeal.main_arg14) : Cert.KernelIdeal.S64.Idx → EReal) (ix1 j))

/-- The kernel program's result buffer after its run is the network with the moment form of the variance. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W11 m ρ c (Proc.devRef .tc Cert.KernelIdeal.main_v84_0) = unc (netK m c varMoments Nw epsw) := by
  rw [layer2 m ρ c, layer1 m ρ c, layer0 m ρ c]
  simp only [cur_unc]
  rfl

theorem real2_of {a b : ℕ} (A : (⟨2, ![a, b]⟩ : Shape).Idx → EReal) (h : ∀ i, ∃ x : ℝ, A i = x) :
    Real2 (fun j k => A (ix2 j k)) := fun _ _ => h _

theorem real1_of {a : ℕ} (A : (⟨1, ![a]⟩ : Shape).Idx → EReal) (h : ∀ i, ∃ x : ℝ, A i = x) :
    Real1 (fun j => A (ix1 j)) := fun _ => h _

/-- Under the precondition the network is the same with either variance. -/
theorem net_bridge (m : (ℓ : Loc Cert.KernelIdeal.nD Cert.KernelIdeal.τ Cert.KernelIdeal.sig) → Buf (Elt Ideal) ℓ) (hpre : Cert.Pre_KernelIdeal m) (c : Dev Cert.KernelIdeal.nD) :
    netK m c varCentred (Ideal.ofBits .f32 0x47435000#32) (Ideal.ofBits .f32 0x3727C5AC#32)
      = netK m c varMoments Nw epsw := by
  unfold netK Nw epsw
  rw [Cert.Consts.ofBits_50000, Cert.Consts.ofBits_eps]
  exact (net_eq Cert.Consts.eps_pos (aggOpK_real _) (degsK_real _)
    (real2_of _ (Cert.KernelIdeal.PreReal.real_arg0 m hpre c))
    (real2_of _ (Cert.KernelIdeal.PreReal.real_arg2 m hpre c)) (real2_of _ (Cert.KernelIdeal.PreReal.real_arg3 m hpre c))
    (real1_of _ (Cert.KernelIdeal.PreReal.real_arg4 m hpre c)) (real1_of _ (Cert.KernelIdeal.PreReal.real_arg5 m hpre c))
    (real1_of _ (Cert.KernelIdeal.PreReal.real_arg6 m hpre c))
    (real2_of _ (Cert.KernelIdeal.PreReal.real_arg7 m hpre c)) (real2_of _ (Cert.KernelIdeal.PreReal.real_arg8 m hpre c))
    (real1_of _ (Cert.KernelIdeal.PreReal.real_arg9 m hpre c)) (real1_of _ (Cert.KernelIdeal.PreReal.real_arg10 m hpre c))
    (real1_of _ (Cert.KernelIdeal.PreReal.real_arg11 m hpre c))).symm

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

theorem algebraic : Cert.algebraic_KernelIdeal_ReferenceIdeal := by
  intro m ρ m' ρ' hpre hagree
  refine ⟨fun c => unc (netK m c varMoments Nw epsw), ?_, ?_⟩
  · exact (θ_run Cert.KernelIdeal.defs _ _).mono (fun r h c => ⟨(h c).1.trans (kernel_value m ρ c), (h c).2⟩)
      (Cert.KernelIdeal.KRun.run_out (F := Ideal) m ρ)
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5, a6, a7, a8, a9, a10, a11, a12, a13, a14⟩ := hagree c
    rw [a0, a1, a2, a3, a4, a5, a6, a7, a8, a9, a10, a11, a12, a13, a14, Cert.ReferenceIdeal.RefNet.out_net]
    exact congrArg unc (net_bridge m hpre c)

end Cert.Proof.Claims

end
-- ==== Proof.lean ====
/-
  The certificate of a three-layer graph network on 50000 nodes and 1600000 edges, computed two ways.

  Each layer takes, per node, the sum of the feature rows of the nodes with an edge into it, divides by the
  number of such edges (at least one), and applies two linear maps and a bias; the two hidden layers then
  normalise every channel by its mean and variance over the nodes, scale, shift and clamp at zero. One
  program computes the linear part and the channel sums block by block (ten blocks of 5000 nodes) and
  forms the variance from the sum and the sum of squares; the other computes everything on whole arrays
  and forms the variance from the deviations. On the extended reals, for real inputs, both are one
  function: sums may be regrouped freely, and for real entries the mean of squares minus the squared mean
  is the mean of squared deviations, a nonnegative real.

  The three frame claims are the programs' runs with the results forgotten; the idealization rewrote
  nothing, so its claim is trivial; the value claim is `Claims.algebraic`.
-/
import proofs.«122408_j28759101014107_2_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
